-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1024x3072 : Shape := ⟨2, ![1024, 3072]⟩
abbrev S3072 : Shape := ⟨1, ![3072]⟩
abbrev S1x3072 : Shape := ⟨2, ![1, 3072]⟩
abbrev S8192x3072 : Shape := ⟨2, ![8192, 3072]⟩
abbrev S512x1024 : Shape := ⟨2, ![512, 1024]⟩
abbrev S512x3072 : Shape := ⟨2, ![512, 3072]⟩
abbrev S256x128 : Shape := ⟨2, ![256, 128]⟩
abbrev S2048x128 : Shape := ⟨2, ![2048, 128]⟩
abbrev S256x64 : Shape := ⟨2, ![256, 64]⟩
abbrev S2048x64 : Shape := ⟨2, ![2048, 64]⟩
abbrev S64x2048 : Shape := ⟨2, ![64, 2048]⟩
abbrev S256x2048 : Shape := ⟨2, ![256, 2048]⟩
abbrev S256 : Shape := ⟨1, ![256]⟩
abbrev S256x1 : Shape := ⟨2, ![256, 1]⟩
abbrev S1x1024 : Shape := ⟨2, ![1, 1024]⟩

abbrev nBuf : Space → Nat
  | .hbm => 24
  | .vmem => 20
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S8192x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x3072, .f32⟩
  | .hbm, ⟨14, _⟩ => ⟨S1024x3072, .bf16⟩
  | .hbm, ⟨15, _⟩ => ⟨S3072, .f32⟩
  | .hbm, ⟨16, _⟩ => ⟨S1x3072, .f32⟩
  | .hbm, ⟨17, _⟩ => ⟨S8192x3072, .bf16⟩
  | .hbm, ⟨18, _⟩ => ⟨S8192x1024, .bf16⟩
  | .hbm, ⟨19, _⟩ => ⟨S1024x1024, .f32⟩
  | .hbm, ⟨20, _⟩ => ⟨S1024x1024, .bf16⟩
  | .hbm, ⟨21, _⟩ => ⟨S1x1024, .f32⟩
  | .hbm, ⟨22, _⟩ => ⟨S8192x1024, .f32⟩
  | .hbm, ⟨23, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x3072, .bf16⟩
  | .local _ .vmem, ⟨5, _⟩ => ⟨S512x3072, .bf16⟩
  | .local _ .vmem, ⟨6, _⟩ => ⟨S256x128, .bf16⟩
  | .local _ .vmem, ⟨7, _⟩ => ⟨S256x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S256x128, .bf16⟩
  | .local _ .vmem, ⟨13, _⟩ => ⟨S256x128, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![4, 8, 8], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage1_0 : Fin 2 → Memref sig .tc .vmem S256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S256x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S4x2048x1024_S8192x1024 : S4x2048x1024.ShapeCasts S8192x1024
  transposes_S1024x1024_S1024x1024_1_0 : S1024x1024.Transposes [1, 0] S1024x1024
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  inb_S256x128_S256x64_0_0 : ∀ a, (![0, 0] : Fin 2 → Nat) a + S256x64.size a ≤ S256x128.size a
  h_S256x64 : 0 < S256x64.numel
  shapeCasts_S256x64_S256x64 : S256x64.ShapeCasts S256x64
  inb_S2048x128_S2048x64_0_0 : ∀ a, (![0, 0] : Fin 2 → Nat) a + S2048x64.size a ≤ S2048x128.size a
  h_S2048x64 : 0 < S2048x64.numel
  shapeCasts_S2048x64_S2048x64 : S2048x64.ShapeCasts S2048x64
  transposes_S2048x64_p1_0_S64x2048 : S2048x64.Transposes [1, 0] S64x2048
  reduces_S256x2048_S256 : S256x2048.Reduces [1] S256
  shapeCasts_S256_S256x1 : S256.ShapeCasts S256x1
  broadcasts_S256x1_S256x2048 : S256x1.Broadcasts S256x2048
  inb_S256x128_S256x64_0_64 : ∀ a, (![0, 64] : Fin 2 → Nat) a + S256x64.size a ≤ S256x128.size a
  inb_S2048x128_S2048x64_0_64 : ∀ a, (![0, 64] : Fin 2 → Nat) a + S2048x64.size a ≤ S2048x128.size a
  packedbf16_S256x128_S256x64_0_0 : (Rect.unit (s := S256x128) ![0, 0] S256x64.size inb_S256x128_S256x64_0_0).PackedRows (EltTy.packing .bf16)
  packedbf16_S256x128_S256x64_0_64 : (Rect.unit (s := S256x128) ![0, 64] S256x64.size inb_S256x128_S256x64_0_64).PackedRows (EltTy.packing .bf16)
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S8192x1024_S4x2048x1024 : S8192x1024.ShapeCasts S4x2048x1024
  dot_S512x1024_S1024x3072_S512x3072_1_0_0_1_n_n_wf : DotDims.WF S512x1024 S1024x3072 S512x3072 [1] [0] [0] [1] [] []
  dot_S256x64_S64x2048_S256x2048_1_0_0_1_n_n_wf : DotDims.WF S256x64 S64x2048 S256x2048 [1] [0] [0] [1] [] []
  dot_S256x2048_S2048x64_S256x64_1_0_0_1_n_n_wf : DotDims.WF S256x2048 S2048x64 S256x64 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S8192x3072.size a
  hwx0_3 : ∀ i : grid0.Coords, EltTy.bits .bf16 = 32 ∨ (Rect.block (s := S8192x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x128.size a ≤ S8192x3072.size a
  hwx1_0 : ∀ i : grid1.Coords, EltTy.bits .bf16 = 32 ∨ (Rect.block (s := S8192x3072) S256x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S8192x3072.size a
  hwx1_1 : ∀ i : grid1.Coords, EltTy.bits .bf16 = 32 ∨ (Rect.block (s := S8192x3072) S2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S8192x3072.size a
  hwx1_2 : ∀ i : grid1.Coords, EltTy.bits .bf16 = 32 ∨ (Rect.block (s := S8192x3072) S2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S8192x1024.size a
  hwx1_3 : ∀ i : grid1.Coords, EltTy.bits .bf16 = 32 ∨ (Rect.block (s := S8192x1024) S256x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .bf16 = 32 ∨ (Rect.block (s := S8192x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x1024.size a
  hwx2_3 : ∀ i : grid2.Coords, EltTy.bits .f32 = 32 ∨ (Rect.block (s := S8192x1024) S512x1024.size (cc2_transform_3 i) (hinb2_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8) S256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S256x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v9) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v13) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4x2048x1024, .f32⟩
  | .hbm, ⟨10, _⟩ => ⟨S1x1x1024, .f32⟩
  | .hbm, ⟨11, _⟩ => ⟨S4x2048x1024, .f32⟩
  | .hbm, ⟨12, _⟩ => ⟨S4x2048x1024, .f32⟩
  | .hbm, ⟨13, _⟩ => ⟨S4x2048x16x64, .f32⟩
  | .hbm, ⟨14, _⟩ => ⟨S4x16x2048x64, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x16x64, .f32⟩
  | .hbm, ⟨20, _⟩ => ⟨S4x16x2048x64, .f32⟩
  | .hbm, ⟨21, _⟩ => ⟨S4x2048x1024, .f32⟩
  | .hbm, ⟨22, _⟩ => ⟨S1x1x1024, .f32⟩
  | .hbm, ⟨23, _⟩ => ⟨S4x2048x1024, .f32⟩
  | .hbm, ⟨24, _⟩ => ⟨S4x2048x1024, .f32⟩
  | .hbm, ⟨25, _⟩ => ⟨S4x2048x16x64, .f32⟩
  | .hbm, ⟨26, _⟩ => ⟨S4x16x2048x64, .f32⟩
  | .hbm, ⟨27, _⟩ => ⟨S4x16x2048x2048, .f32⟩
  | .hbm, ⟨28, _⟩ => ⟨S_, .f32⟩
  | .hbm, ⟨29, _⟩ => ⟨S4x16x2048x2048, .f32⟩
  | .hbm, ⟨30, _⟩ => ⟨S4x16x2048x2048, .f32⟩
  | .hbm, ⟨31, _⟩ => ⟨S_, .f32⟩
  | .hbm, ⟨32, _⟩ => ⟨S4x16x2048, .f32⟩
  | .hbm, ⟨33, _⟩ => ⟨S_, .f32⟩
  | .hbm, ⟨34, _⟩ => ⟨S4x16x2048, .f32⟩
  | .hbm, ⟨35, _⟩ => ⟨S4x16x2048, .f32⟩
  | .hbm, ⟨36, _⟩ => ⟨S4x16x2048x1, .f32⟩
  | .hbm, ⟨37, _⟩ => ⟨S4x16x2048x2048, .f32⟩
  | .hbm, ⟨38, _⟩ => ⟨S4x16x2048x2048, .f32⟩
  | .hbm, ⟨39, _⟩ => ⟨S4x16x2048x2048, .f32⟩
  | .hbm, ⟨40, _⟩ => ⟨S_, .f32⟩
  | .hbm, ⟨41, _⟩ => ⟨S4x16x2048, .f32⟩
  | .hbm, ⟨42, _⟩ => ⟨S4x16x2048x1, .f32⟩
  | .hbm, ⟨43, _⟩ => ⟨S4x16x2048x2048, .f32⟩
  | .hbm, ⟨44, _⟩ => ⟨S4x16x2048x2048, .f32⟩
  | .hbm, ⟨45, _⟩ => ⟨S4x16x2048x64, .f32⟩
  | .hbm, ⟨46, _⟩ => ⟨S4x2048x16x64, .f32⟩
  | .hbm, ⟨47, _⟩ => ⟨S4x2048x1024, .f32⟩
  | .hbm, ⟨48, _⟩ => ⟨S4x2048x1024, .f32⟩
  | .hbm, ⟨49, _⟩ => ⟨S1x1x1024, .f32⟩
  | .hbm, ⟨50, _⟩ => ⟨S4x2048x1024, .f32⟩
  | .hbm, ⟨51, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S1024x1024_S4x2048x1024_2_1_01_0_n_n_wf : DotDims.WF S4x2048x1024 S1024x1024 S4x2048x1024 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.BitsProjQKV.lean ====
/-
  The first projection kernel (queries, keys and values at once) as one region of the program: what each grid point's
  body leaves in the output window's buffer, as a function of the three input blocks, and the body's run.

  The grid has 16 points; point t handles rows 512 t … 512 t + 511 of the [8192, 1024] activations. The body loads the
  whole [512, 1024] activation block, the whole [1024, 3072] weight and the [1, 3072] bias, and stores ONE whole
  [512, 3072] block: block · weight + bias.
-/
import proofs.«122077_j62234076119080_2_alg».proof.Proof.Gen.Kernel.Launch
import proofs.«122077_j62234076119080_2_alg».proof.Proof.Gen.Kernel.Skeleton
import proofs.«122077_j62234076119080_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not: between two fetches the
    block index has not moved. One statement per input window (activations, weight, bias). -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- The body's four accesses: each the whole of its buffer. -/
abbrev rx0 : Rect S512x1024 := Rect.unit (s := S512x1024) ![0, 0] S512x1024.size inb_S512x1024_S512x1024_0_0
abbrev rw0 : Rect S1024x3072 := Rect.unit (s := S1024x3072) ![0, 0] S1024x3072.size inb_S1024x3072_S1024x3072_0_0
abbrev rb0 : Rect S1x3072 := Rect.unit (s := S1x3072) ![0, 0] S1x3072.size inb_S1x3072_S1x3072_0_0
abbrev ro0 : Rect S512x3072 := Rect.unit (s := S512x3072) ![0, 0] S512x3072.size inb_S512x3072_S512x3072_0_0

/-- The output window's buffer after the body, from the three input blocks: its one store, of the whole block. -/
def out0 (x0 : Vec F S512x1024 .f32) (x1 : Vec F S1024x3072 .bf16) (x2 : Vec F S1x3072 .f32) : Vec F S512x3072 .bf16 :=
  View.canon [⟨ro0, k0_pay1 (View.ld x0 rx0) (View.ld x1 rw0) (View.ld x2 rb0)⟩]

/-- The store covers the buffer. -/
theorem cover0 (p0 : Vec F S512x3072 .bf16) (y : S512x3072.Idx) :
    ∃ pc ∈ ([⟨ro0, p0⟩] : List (View.Piece (Elt F) S512x3072 .bf16)), y ∈ pc.1.set :=
  View.cover_of_tiled [⟨ro0, p0⟩] S512x3072.size (by rfl) y

set_option maxHeartbeats 1000000 in
/-- The body on whole buffers, the inputs' at contents `x0 x1 x2` and the output's at anything, runs to the continuation
    with the inputs' as they were and the output's at `out0 x0 x1 x2`. -/
theorem sound_kernel0 (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S512x3072 .bf16) (harg4 : arg4.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-- The proof data of this pipeline on core `c`: the arrays as the region finds them; after the body at point `t` each
    input's buffer at its block and the output's at `out0` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => out0 (blk0 V c 0 t) (blk0 V c 1 t) (blk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) :
    (dat0 V c).after 3 t = out0 (blk0 V c 0 t) (blk0 V c 1 t) (blk0 V c 2 t) := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Run

end
-- ==== Proof.BitsAttn.lean ====
/-
  The attention kernel as one region of the program: what each grid point's body leaves in the output window's
  buffer, as a function of the three input blocks, and the body's run.

  The grid is 4 × 8 × 8: batch entry, pair of heads, tile of 256 queries. The three input windows are blocks of ONE
  array, the fused projections [8192, 3072]: the queries' [256, 128] block, the keys' and the values' [2048, 128] blocks
  (all the keys and values of the batch entry, for the two heads of the pair). The body treats the two heads of the
  pair separately — lanes 0 … 63 and 64 … 127 of every block — and stores each head's [256, 64] result into its half of
  the [256, 128] output block.
-/
import proofs.«122077_j62234076119080_2_alg».proof.Proof.Gen.Kernel.Launch
import proofs.«122077_j62234076119080_2_alg».proof.Proof.Gen.Kernel.Skeleton
import proofs.«122077_j62234076119080_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not: between two fetches the
    block index has not moved (the keys' and values' blocks are fetched once per eight query tiles). -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- The body's accesses: the low and the high 64 lanes of a [256, 128] block and of a [2048, 128] block. -/
abbrev rqLo : Rect S256x128 := Rect.unit (s := S256x128) ![0, 0] S256x64.size inb_S256x128_S256x64_0_0
abbrev rqHi : Rect S256x128 := Rect.unit (s := S256x128) ![0, 64] S256x64.size inb_S256x128_S256x64_0_64
abbrev rkLo : Rect S2048x128 := Rect.unit (s := S2048x128) ![0, 0] S2048x64.size inb_S2048x128_S2048x64_0_0
abbrev rkHi : Rect S2048x128 := Rect.unit (s := S2048x128) ![0, 64] S2048x64.size inb_S2048x128_S2048x64_0_64

/-- The output window's buffer after the body, from the three input blocks: its two stores as pieces, last first —
    the second head of the pair into the high lanes, the first into the low lanes. -/
def out1 (x0 : Vec F S256x128 .bf16) (x1 : Vec F S2048x128 .bf16) (x2 : Vec F S2048x128 .bf16) : Vec F S256x128 .bf16 :=
  View.canon [⟨rqHi, k1_pay2 (k1_pay4 (View.ld x2 rkHi)) (k1_pay5 (View.ld x0 rqHi) (View.ld x1 rkHi))⟩,
    ⟨rqLo, k1_pay1 (k1_pay3 (View.ld x0 rqLo) (View.ld x1 rkLo) (View.ld x2 rkLo))⟩]

/-- The two stores tile the buffer, so they cover it. -/
theorem cover1 (p0 : Vec F S256x64 .bf16) (p1 : Vec F S256x64 .bf16) (y : S256x128.Idx) :
    ∃ pc ∈ ([⟨rqHi, p0⟩, ⟨rqLo, p1⟩] : List (View.Piece (Elt F) S256x128 .bf16)), y ∈ pc.1.set :=
  View.cover_of_tiled [⟨rqHi, p0⟩, ⟨rqLo, p1⟩] S256x64.size (by rfl) y

set_option maxHeartbeats 1000000 in
/-- The body on whole buffers, the inputs' at contents `x0 x1 x2` and the output's at anything, runs to the continuation
    with the inputs' as they were and the output's at `out1 x0 x1 x2`. -/
theorem sound_kernel1 (c : Dev nD) (E : Set ℕ) (i : grid1.Coords)
    (arg3 : Memref sig .tc .vmem S256x128 .bf16) (harg3 : arg3.IsWhole) (arg4 : Memref sig .tc .vmem S2048x128 .bf16) (harg4 : arg4.IsWhole)
    (arg5 : Memref sig .tc .vmem S2048x128 .bf16) (harg5 : arg5.IsWhole) (arg6 : Memref sig .tc .vmem S256x128 .bf16) (harg6 : arg6.IsWhole)
    (x0 : Vec F S256x128 .bf16) (x1 : Vec F S2048x128 .bf16) (x2 : Vec F S2048x128 .bf16) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out1 x0 x1 x2)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1 _ _)

/-- The proof data of this pipeline on core `c`: the arrays as the region finds them; after the body at point `t` each
    input's buffer at its block and the output's at `out1` of the input blocks; the invariant the scoped rest and the
    generator register, untouched; nothing owed. The three input windows read ONE array, so the core holds it in three
    shares, one per window: half, a quarter and a quarter. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => out1 (blk1 V c 0 t) (blk1 V c 1 t) (blk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) :
    (dat1 V c).after 3 t = out1 (blk1 V c 0 t) (blk1 V c 1 t) (blk1 V c 2 t) := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Run

end
-- ==== Proof.BitsAttnArrays.lean ====
/-
  The attention region's arrays: ONE array, the fused projections, stands behind all three input windows. At the
  region's entry the core's hold on it is split into the three windows' shares (a half, a quarter, a quarter); at its
  exit the three shares, still at the entry contents since no input window is ever written back, are put together again.
-/
import proofs.«122077_j62234076119080_2_alg».proof.Proof.BitsAttn

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V V' : (c : Dev nD) → (b : Ref sig .tc) → Buf (Elt F) ((c : Thread nD τ).loc b))

/-- The two arrays behind the four windows. -/
theorem image_arr1 : Finset.univ.image (Pipeline.arrRef (cfgs 1).spec) = ({main_v8, main_v9} : Finset (Ref sig .tc)) := by decide

/-- The region's arrays, each a whole buffer held at its window's share. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v8) ↦{fullShare.left} G 0) ∗ (((c : Thread nD τ).loc main_v8) ↦{fullShare.right.left} G 1)
          ∗ (((c : Thread nD τ).loc main_v8) ↦{fullShare.right.right} G 2) ∗ (((c : Thread nD τ).loc main_v9) ↦{fullShare} G 3)) := by
  unfold Pipeline.Dat.arrays
  rw [show (bigSep Finset.univ fun w : Fin cfg1.W => ((cfg1.win w).arr.view.loc (c : Thread nD τ) ↦[(cfg1.win w).arr.view.set]{(dat1 V c).share w} G w : sProp 𝕄))
      = bigSep Finset.univ fun w : Fin cfg1.W => (((c : Thread nD τ).loc (Pipeline.arrRef spec1 w)) ↦{(dat1 V c).share w} G w : sProp 𝕄)
    from bigSep_congr fun w _ => by rw [(arr_whole1 w).set_eq_univ]]
  rw [bigSep_W1]
  rfl

/-- The two buffers behind the region's arrays, each whole at the full share. -/
theorem arrBufs1_eq (c : Dev nD) (W : (b : Ref sig .tc) → Buf (Elt F) ((c : Thread nD τ).loc b)) :
    (Pipeline.arrBufs (Ix := Unit) (Name := ℕ) (U := UR sig nD τ) (Lvl := ℕ) (cfgs 1).spec c W : sProp 𝕄)
      = iprop((((c : Thread nD τ).loc main_v8) ↦{fullShare} W main_v8) ∗ (((c : Thread nD τ).loc main_v9) ↦{fullShare} W main_v9)) := by
  unfold Pipeline.arrBufs
  rw [image_arr1, bigSep_insert (by decide), bigSep_singleton]
  rfl

/-- ENTRY: the shared buffers at the entry contents are the region's arrays — the fused projections split into the three
    input windows' shares, the merged heads whole — and the rest. -/
theorem arrays1_of_unscopedBufs (c : Dev nD) :
    (unscopedBufs (Ix := Unit) (Name := ℕ) (U := UR sig nD τ) (Lvl := ℕ) c (V c) : sProp 𝕄)
      ⊢ iprop((dat1 V c).arrays ((dat1 V c).arrAt · 0)
          ∗ Pipeline.unscopedRest (Ix := Unit) (Name := ℕ) (U := UR sig nD τ) (Lvl := ℕ) spec1 c (V c)) := by
  rw [Pipeline.unscopedBufs_split₀ cfgs 1 winFacts₀1.arr_unscoped c (V c)]
  refine sep_mono ?_ .rfl
  rw [arrays1_eq, arrBufs1_eq]
  rw [show (dat1 V c).arrAt 0 0 = V c main_v8 from A_eq1 V c 0, show (dat1 V c).arrAt 1 0 = V c main_v8 from A_eq1 V c 1,
    show (dat1 V c).arrAt 2 0 = V c main_v8 from A_eq1 V c 2, show (dat1 V c).arrAt 3 0 = V c main_v9 from A_eq1 V c 3]
  iintro ⟨H8, H9⟩
  ihave H8' := (pointsTo_share (PosShare.mem_left_op_right fullShare)).1 $$ H8
  icases H8' with ⟨Ha, Hb⟩
  ihave Hb' := (pointsTo_share (PosShare.mem_left_op_right fullShare.right)).1 $$ Hb
  icases Hb' with ⟨Hb1, Hb2⟩
  isplitl [Ha]; · iexact Ha
  isplitl [Hb1]; · iexact Hb1
  isplitl [Hb2]; · iexact Hb2
  iexact H9

/-- EXIT: the arrays at their final contents — the three shares of the fused projections put together again, unchanged,
    the merged heads at what the write-backs leave — and the rest make the shared buffers at the exit contents `V'`,
    which differ from the entry contents at the merged heads' array only. -/
theorem unscopedBufs1_of_arrays (c : Dev nD) (h9 : V' c main_v9 = (dat1 V c).arrAt 3 cfg1.N)
    (hne : ∀ b : Ref sig .tc, b ≠ main_v9 → V' c b = V c b) :
    iprop((dat1 V c).arrays ((dat1 V c).arrAt · cfg1.N)
        ∗ Pipeline.unscopedRest (Ix := Unit) (Name := ℕ) (U := UR sig nD τ) (Lvl := ℕ) spec1 c (V c))
      ⊢ (unscopedBufs (Ix := Unit) (Name := ℕ) (U := UR sig nD τ) (Lvl := ℕ) c (V' c) : sProp 𝕄) := by
  rw [Pipeline.unscopedBufs_split₀ cfgs 1 winFacts₀1.arr_unscoped c (V' c)]
  refine sep_mono ?_ (Entails.of_eq ?_)
  · rw [arrays1_eq, arrBufs1_eq]
    rw [show (dat1 V c).arrAt 0 cfg1.N = V c main_v8 from ((dat1 V c).arrAt_in 0 rfl _).trans (A_eq1 V c 0),
      show (dat1 V c).arrAt 1 cfg1.N = V c main_v8 from ((dat1 V c).arrAt_in 1 rfl _).trans (A_eq1 V c 1),
      show (dat1 V c).arrAt 2 cfg1.N = V c main_v8 from ((dat1 V c).arrAt_in 2 rfl _).trans (A_eq1 V c 2),
      hne main_v8 (by decide), h9]
    iintro ⟨Ha, Hb1, Hb2, H9⟩
    isplitr [H9]
    · iapply (pointsTo_share (PosShare.mem_left_op_right fullShare)).2
      isplitl [Ha]; · iexact Ha
      iapply (pointsTo_share (PosShare.mem_left_op_right fullShare.right)).2
      isplitl [Hb1]; · iexact Hb1
      iexact Hb2
    iexact H9
  · unfold Pipeline.unscopedRest
    exact bigSep_congr fun b hb => by
      rw [hne b (fun e => (Finset.mem_sdiff.mp hb).2 (by rw [e]; exact Finset.mem_image.mpr ⟨3, Finset.mem_univ _, rfl⟩))]

end Cert.Kernel.Run

end
-- ==== Proof.BitsProjOut.lean ====
/-
  The output projection kernel as one region of the program: what each grid point's body leaves in the output
  window's buffer, as a function of the three input blocks, and the body's run.

  The grid has 16 points; point t handles rows 512 t … 512 t + 511 of the [8192, 1024] merged heads. The body loads the
  whole [512, 1024] block, the whole [1024, 1024] weight and the [1, 1024] bias, and stores ONE whole [512, 1024]
  block: block · weight + bias.
-/
import proofs.«122077_j62234076119080_2_alg».proof.Proof.Gen.Kernel.Launch
import proofs.«122077_j62234076119080_2_alg».proof.Proof.Gen.Kernel.Skeleton
import proofs.«122077_j62234076119080_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or not: between two fetches the
    block index has not moved. One statement per input window (activations, weight, bias). -/
theorem before2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-- The body's four accesses: each the whole of its buffer. -/
abbrev rx2 : Rect S512x1024 := Rect.unit (s := S512x1024) ![0, 0] S512x1024.size inb_S512x1024_S512x1024_0_0
abbrev rw2 : Rect S1024x1024 := Rect.unit (s := S1024x1024) ![0, 0] S1024x1024.size inb_S1024x1024_S1024x1024_0_0
abbrev rb2 : Rect S1x1024 := Rect.unit (s := S1x1024) ![0, 0] S1x1024.size inb_S1x1024_S1x1024_0_0
abbrev ro2 : Rect S512x1024 := Rect.unit (s := S512x1024) ![0, 0] S512x1024.size inb_S512x1024_S512x1024_0_0

/-- The output window's buffer after the body, from the three input blocks: its one store, of the whole block. -/
def out2 (x0 : Vec F S512x1024 .bf16) (x1 : Vec F S1024x1024 .bf16) (x2 : Vec F S1x1024 .f32) : Vec F S512x1024 .f32 :=
  View.canon [⟨ro2, k2_pay1 (View.ld x0 rx2) (View.ld x1 rw2) (View.ld x2 rb2)⟩]

/-- The store covers the buffer. -/
theorem cover2 (p0 : Vec F S512x1024 .f32) (y : S512x1024.Idx) :
    ∃ pc ∈ ([⟨ro2, p0⟩] : List (View.Piece (Elt F) S512x1024 .f32)), y ∈ pc.1.set :=
  View.cover_of_tiled [⟨ro2, p0⟩] S512x1024.size (by rfl) y

set_option maxHeartbeats 1000000 in
/-- The body on whole buffers, the inputs' at contents `x0 x1 x2` and the output's at anything, runs to the continuation
    with the inputs' as they were and the output's at `out2 x0 x1 x2`. -/
theorem sound_kernel2 (c : Dev nD) (E : Set ℕ) (i : grid2.Coords)
    (arg1 : Memref sig .tc .vmem S512x1024 .bf16) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S512x1024 .f32) (harg4 : arg4.IsWhole)
    (x0 : Vec F S512x1024 .bf16) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-- The proof data of this pipeline on core `c`: the arrays as the region finds them; after the body at point `t` each
    input's buffer at its block and the output's at `out2` of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => out2 (blk2 V c 0 t) (blk2 V c 1 t) (blk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) :
    (dat2 V c).after 3 t = out2 (blk2 V c 0 t) (blk2 V c 1 t) (blk2 V c 2 t) := by dsimp only [dat2]

theorem before2_0 (c : Dev nD) (t : Fin cfg2.N) (d) : (dat2 V c).before 0 t d = blk2 V c 0 t :=
  before2_0_of V (dat2 V c) (A_eq2 V c 0) (after2_0 V c) t d
theorem before2_1 (c : Dev nD) (t : Fin cfg2.N) (d) : (dat2 V c).before 1 t d = blk2 V c 1 t :=
  before2_1_of V (dat2 V c) (A_eq2 V c 1) (after2_1 V c) t d
theorem before2_2 (c : Dev nD) (t : Fin cfg2.N) (d) : (dat2 V c).before 2 t d = blk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (blk2 V c 0 t) (blk2 V c 1 t) (blk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Run

end
-- ==== Proof.BitsRun.lean ====
/-
  The whole program's run, from the launch to the return, at any float instance: the buffer contents at each
  boundary between two items of the program — three stretches of layout operations and three kernel regions, in the
  order  layout, projection, attention, layout, projection, layout — and the run through them.

  Between items a core holds every buffer it shares with the host side whole at the boundary's contents: the launch
  memory; then after each layout stretch what its operations compute from the contents before; after each region the
  contents before with the region's output array replaced by what its write-backs leave. Every final memory holds, at
  each such buffer, the last boundary's contents.
-/
import proofs.«122077_j62234076119080_2_alg».proof.Proof.BitsProjQKV
import proofs.«122077_j62234076119080_2_alg».proof.Proof.BitsAttn
import proofs.«122077_j62234076119080_2_alg».proof.Proof.BitsAttnArrays
import proofs.«122077_j62234076119080_2_alg».proof.Proof.BitsProjOut

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- At launch. -/
abbrev C0 : Dev nD → Valuation τ sig (Elt F) := fun c b => m (c, b)
/-- After the first layout stretch (the first projection's entry). -/
abbrev C1 : Dev nD → Valuation τ sig (Elt F) := fun c => StableHlo.after hostOps0 (C0 m c)
abbrev B1 : (c : Dev nD) → (b : Ref sig .tc) → Buf (Elt F) ((c : Thread nD τ).loc b) := fun c b => C1 m c b
/-- After the first projection: its arrays at what the pipeline leaves, every other buffer as entered. -/
def C2 (c : Dev nD) : Valuation τ sig (Elt F) :=
  Pipeline.withArrays spec0 c (C1 m c) fun w => (dat0 (B1 m) c).arrAt w cfg0.N
theorem C2_arr (c : Dev nD) (w : Fin cfg0.W) :
    C2 m c (Proc.devRef .tc (Pipeline.arrRef spec0 w)) = (dat0 (B1 m) c).arrAt w cfg0.N := by
  unfold C2; exact Pipeline.withArrays_arr spec0 launch0.win.arr_inj c _ _ w
theorem C2_of_ne (c : Dev nD) (b : Ref sig .tc) (hb : ∀ w, Pipeline.arrRef spec0 w ≠ b) :
    C2 m c (Proc.devRef .tc b) = C1 m c (Proc.devRef .tc b) := by
  unfold C2; exact Pipeline.withArrays_of_ne spec0 c _ _ b hb
abbrev B2 : (c : Dev nD) → (b : Ref sig .tc) → Buf (Elt F) ((c : Thread nD τ).loc b) := fun c b => C2 m c b
theorem hF0 (c : Dev nD) (w : Fin cfg0.W) : (dat0 (B1 m) c).arrAt w cfg0.N = B2 m c (Pipeline.arrRef spec0 w) :=
  (C2_arr m c w).symm
theorem hrest0 (c : Dev nD) : ∀ b, b ∉ Finset.univ.image (Pipeline.arrRef spec0) → B2 m c b = B1 m c b :=
  fun b hb => C2_of_ne m c b fun w e => hb (Finset.mem_image.mpr ⟨w, Finset.mem_univ _, e⟩)

/-- After the attention region: the merged heads' array at what the pipeline leaves, every other buffer as entered
    (the fused projections, which all three input windows read, among them). -/
def C3 (c : Dev nD) : Valuation τ sig (Elt F) :=
  Function.update (C2 m c) (Proc.devRef .tc main_v9) ((dat1 (B2 m) c).arrAt 3 cfg1.N)
abbrev B3 : (c : Dev nD) → (b : Ref sig .tc) → Buf (Elt F) ((c : Thread nD τ).loc b) := fun c b => C3 m c b
theorem B3_v9 (c : Dev nD) : B3 m c main_v9 = (dat1 (B2 m) c).arrAt 3 cfg1.N := Function.update_self ..
theorem B3_of_ne (c : Dev nD) (b : Ref sig .tc) (hb : b ≠ main_v9) : B3 m c b = B2 m c b :=
  Function.update_of_ne (StableHlo.devRef_ne_of_ne hb) ..

/-- After the second layout stretch (the output projection's entry). -/
abbrev C4 : Dev nD → Valuation τ sig (Elt F) := fun c => StableHlo.after hostOps2 (C3 m c)
abbrev B4 : (c : Dev nD) → (b : Ref sig .tc) → Buf (Elt F) ((c : Thread nD τ).loc b) := fun c b => C4 m c b
/-- After the output projection. -/
def C5 (c : Dev nD) : Valuation τ sig (Elt F) :=
  Pipeline.withArrays spec2 c (C4 m c) fun w => (dat2 (B4 m) c).arrAt w cfg2.N
theorem C5_arr (c : Dev nD) (w : Fin cfg2.W) :
    C5 m c (Proc.devRef .tc (Pipeline.arrRef spec2 w)) = (dat2 (B4 m) c).arrAt w cfg2.N := by
  unfold C5; exact Pipeline.withArrays_arr spec2 launch2.win.arr_inj c _ _ w
theorem C5_of_ne (c : Dev nD) (b : Ref sig .tc) (hb : ∀ w, Pipeline.arrRef spec2 w ≠ b) :
    C5 m c (Proc.devRef .tc b) = C4 m c (Proc.devRef .tc b) := by
  unfold C5; exact Pipeline.withArrays_of_ne spec2 c _ _ b hb
abbrev B5 : (c : Dev nD) → (b : Ref sig .tc) → Buf (Elt F) ((c : Thread nD τ).loc b) := fun c b => C5 m c b
theorem hF2 (c : Dev nD) (w : Fin cfg2.W) : (dat2 (B4 m) c).arrAt w cfg2.N = B5 m c (Pipeline.arrRef spec2 w) :=
  (C5_arr m c w).symm
theorem hrest2 (c : Dev nD) : ∀ b, b ∉ Finset.univ.image (Pipeline.arrRef spec2) → B5 m c b = B4 m c b :=
  fun b hb => C5_of_ne m c b fun w e => hb (Finset.mem_image.mpr ⟨w, Finset.mem_univ _, e⟩)
/-- After the last layout stretch: the end. -/
abbrev C6 : Dev nD → Valuation τ sig (Elt F) := fun c => StableHlo.after hostOps3 (C5 m c)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (B1 m) c
  | ⟨1, _⟩ => fun c => dat1 (B2 m) c
  | ⟨2, _⟩ => fun c => dat2 (B4 m) c
abbrev 𝒱₀ : Variants := Variants.none
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A stretch of layout operations as an item: every shared buffer from the contents `W` to what the operations compute from
    them, the generator register and the dues riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every shared buffer at the last boundary's contents, the generator register
    at some state. -/
abbrev Tₙ (c : Dev nD) : sProp 𝕄 := iprop(StableHlo.held (c : Thread nD τ) (Pipeline.ucRefs τ sig) (C6 m c) ∗ ∃ r, prngReg c r)

/-! ## The attention region's arrays at its two boundaries -/

theorem attn_entry (c : Dev nD) :
    (unscopedBufs (Ix := Unit) (Name := ℕ) (U := UR sig nD τ) (Lvl := ℕ) c (B2 m c) : sProp 𝕄)
      ⊢ iprop((dat1 (B2 m) c).arrays ((dat1 (B2 m) c).arrAt · 0)
          ∗ Pipeline.unscopedRest (Ix := Unit) (Name := ℕ) (U := UR sig nD τ) (Lvl := ℕ) spec1 c (B2 m c)) :=
  arrays1_of_unscopedBufs (B2 m) c

theorem attn_exit (c : Dev nD) :
    iprop((dat1 (B2 m) c).arrays ((dat1 (B2 m) c).arrAt · cfg1.N)
        ∗ Pipeline.unscopedRest (Ix := Unit) (Name := ℕ) (U := UR sig nD τ) (Lvl := ℕ) spec1 c (B2 m c))
      ⊢ (unscopedBufs (Ix := Unit) (Name := ℕ) (U := UR sig nD τ) (Lvl := ℕ) c (B3 m c) : sProp 𝕄) :=
  unscopedBufs1_of_arrays (B2 m) (B3 m) c (B3_v9 m c) (fun b hb => B3_of_ne m c b hb)

/-! ## The regions as items -/

set_option backward.isDefEq.respectTransparency.types false in
/-- The first projection as an item of the program: entered with every shared buffer at the contents after the first
    layout stretch, left with them at those contents but for the fused projections' array, at what its write-backs leave. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (B1 m) c).loose
  hwaits := Pipeline.hwaits_of_owed_zero _ _ _ _ L lv 0 fun _ _ => rfl
  pre c := iprop(StableHlo.held (c : Thread nD τ) (Pipeline.ucRefs τ sig) (C1 m c) ∗ R c)
  post c := iprop(StableHlo.held (c : Thread nD τ) (Pipeline.ucRefs τ sig) (C2 m c) ∗ R c)
  X c := iprop(∃ r, prngReg c r)
  Y c := iprop(∃ r, prngReg c r)
  Z c := Pipeline.unscopedRest (Ix := Unit) (Name := ℕ) (U := UR sig nD τ) (Lvl := ℕ) spec0 c (B1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (B1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (B1 m c) (B2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region as an item of the program: entered with every shared buffer at the first projection's exit
    contents, left with them at those contents but for the merged heads' array, at what its write-backs leave. The fused
    projections' array is split into the three input windows' shares on the way in and put together again on the way out. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (B2 m) c).loose
  hwaits := Pipeline.hwaits_of_owed_zero _ _ _ _ L lv 1 fun _ _ => rfl
  pre c := iprop(StableHlo.held (c : Thread nD τ) (Pipeline.ucRefs τ sig) (C2 m c) ∗ R c)
  post c := iprop(StableHlo.held (c : Thread nD τ) (Pipeline.ucRefs τ sig) (C3 m c) ∗ R c)
  X c := iprop(∃ r, prngReg c r)
  Y c := iprop(∃ r, prngReg c r)
  Z c := Pipeline.unscopedRest (Ix := Unit) (Name := ℕ) (U := UR sig nD τ) (Lvl := ℕ) spec1 c (B2 m c)
  hentry c := by
    rw [Pipeline.ownSems0_none]
    have hsplit : (unscopedBufs (Ix := Unit) (Name := ℕ) (U := UR sig nD τ) (Lvl := ℕ) c (B2 m c) : sProp 𝕄)
      ⊢ iprop((pdats m 1 c).arrays ((pdats m 1 c).arrAt · 0)
          ∗ Pipeline.unscopedRest (Ix := Unit) (Name := ℕ) (U := UR sig nD τ) (Lvl := ℕ) spec1 c (B2 m c)) := attn_entry m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
        ∗ Pipeline.unscopedRest (Ix := Unit) (Name := ℕ) (U := UR sig nD τ) (Lvl := ℕ) spec1 c (B2 m c))
      ⊢ (unscopedBufs (Ix := Unit) (Name := ℕ) (U := UR sig nD τ) (Lvl := ℕ) c (B3 m c) : sProp 𝕄) := attn_exit m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output projection as an item of the program: entered with every shared buffer at the contents after the second
    layout stretch, left with them at those contents but for its output array, at what its write-backs leave. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (B4 m) c).loose
  hwaits := Pipeline.hwaits_of_owed_zero _ _ _ _ L lv 2 fun _ _ => rfl
  pre c := iprop(StableHlo.held (c : Thread nD τ) (Pipeline.ucRefs τ sig) (C4 m c) ∗ R c)
  post c := iprop(StableHlo.held (c : Thread nD τ) (Pipeline.ucRefs τ sig) (C5 m c) ∗ R c)
  X c := iprop(∃ r, prngReg c r)
  Y c := iprop(∃ r, prngReg c r)
  Z c := Pipeline.unscopedRest (Ix := Unit) (Name := ℕ) (U := UR sig nD τ) (Lvl := ℕ) spec2 c (B4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (B4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (B4 m c) (B5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its items, and the run -/

/-- The program's six items in order. -/
abbrev segs : List (Pipeline.Seg (pcfgs (F := F)) adm (pdats m) () defs₀ 𝒱₀ L lv) :=
  [ .host (hseg hostOps0 hostOps0_sub hostOps0_fresh' (C0 m)),
    .region (reg0 m),
    .region (reg1 m),
    .host (hseg hostOps2 hostOps2_sub hostOps2_fresh' (C3 m)),
    .region (reg2 m),
    .host (hseg hostOps3 hostOps3_sub hostOps3_fresh' (C5 m)) ]

/-- The program IS the run of its items. -/
theorem main_run (c : Dev nD) : main (F := F) c = Pipeline.Seg.run (segs m) := (main_chain c).trans (by chain_rfl)

set_option backward.isDefEq.respectTransparency.types false in
/-- THE RUN: from any memory with zero counters every weakly fair execution of the program terminates, nothing faulting,
    and every final memory holds each buffer the cores share with the host side at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = C6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (C0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (C6 m c) ∗ R c) ⊢ _
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (C0 m c)
        from Pipeline.unscopedBufs_held c (C0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = C6 m c b)
    (hfin := fun c s' => by
      iintro ⟨⟨Hh, -⟩, HSI⟩
      unfold StableHlo.held
      imodintro
      iapply (pointsTo_read_all (Pipeline.ucRefs τ sig) (fun b => (((c : Thread nD τ)).1, b)) (C6 m c) s')
      isplitl [Hh] <;> iassumption)
    (hQ := fun s h c => h c)

end Cert.Kernel.Run

end
-- ==== Proof.BitsFrames.lean ====
/-
  What the run says of the program's arguments and of its result: no layout stretch writes an argument's buffer and
  no region has one behind an output window, so each argument ends as launched; the result's buffer ends at the last
  boundary's contents.
-/
import proofs.«122077_j62234076119080_2_alg».proof.Proof.BitsRun
import proofs.«122077_j62234076119080_2_alg».proof.Proof.Gen.Kernel.Regions

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer that no layout stretch writes and that stands behind no window of the two projections, other than the
    merged heads' array, holds at the end what it held at launch. -/
theorem C6_kept (c : Dev nD) (b : Ref sig .tc) (h0 : b ∉ hostOps0_W) (h2 : b ∉ hostOps2_W) (h3 : b ∉ hostOps3_W)
    (ha0 : ∀ w, Pipeline.arrRef spec0 w ≠ b) (h9 : b ≠ main_v9) (ha2 : ∀ w, Pipeline.arrRef spec2 w ≠ b) :
    C6 m c (Proc.devRef .tc b) = m ((c : Thread nD τ).loc b) :=
  (StableHlo.after_of_writes_sub hostOps3 _ hostOps3_writes h3).trans <| (C5_of_ne m c b ha2).trans <|
    (StableHlo.after_of_writes_sub hostOps2 _ hostOps2_writes h2).trans <| (B3_of_ne m c b h9).trans <|
    (C2_of_ne m c b ha0).trans <| (StableHlo.after_of_writes_sub hostOps0 _ hostOps0_writes h0).trans rfl

theorem C6_main_arg0 (c : Dev nD) : C6 m c (Proc.devRef .tc main_arg0) = m ((c : Thread nD τ).loc main_arg0) :=
  C6_kept m c main_arg0 (by decide) (by decide) (by decide) (by decide) (by decide) (by decide)
theorem C6_main_arg1 (c : Dev nD) : C6 m c (Proc.devRef .tc main_arg1) = m ((c : Thread nD τ).loc main_arg1) :=
  C6_kept m c main_arg1 (by decide) (by decide) (by decide) (by decide) (by decide) (by decide)
theorem C6_main_arg2 (c : Dev nD) : C6 m c (Proc.devRef .tc main_arg2) = m ((c : Thread nD τ).loc main_arg2) :=
  C6_kept m c main_arg2 (by decide) (by decide) (by decide) (by decide) (by decide) (by decide)
theorem C6_main_arg3 (c : Dev nD) : C6 m c (Proc.devRef .tc main_arg3) = m ((c : Thread nD τ).loc main_arg3) :=
  C6_kept m c main_arg3 (by decide) (by decide) (by decide) (by decide) (by decide) (by decide)
theorem C6_main_arg4 (c : Dev nD) : C6 m c (Proc.devRef .tc main_arg4) = m ((c : Thread nD τ).loc main_arg4) :=
  C6_kept m c main_arg4 (by decide) (by decide) (by decide) (by decide) (by decide) (by decide)
theorem C6_main_arg5 (c : Dev nD) : C6 m c (Proc.devRef .tc main_arg5) = m ((c : Thread nD τ).loc main_arg5) :=
  C6_kept m c main_arg5 (by decide) (by decide) (by decide) (by decide) (by decide) (by decide)
theorem C6_main_arg6 (c : Dev nD) : C6 m c (Proc.devRef .tc main_arg6) = m ((c : Thread nD τ).loc main_arg6) :=
  C6_kept m c main_arg6 (by decide) (by decide) (by decide) (by decide) (by decide) (by decide)
theorem C6_main_arg7 (c : Dev nD) : C6 m c (Proc.devRef .tc main_arg7) = m ((c : Thread nD τ).loc main_arg7) :=
  C6_kept m c main_arg7 (by decide) (by decide) (by decide) (by decide) (by decide) (by decide)
theorem C6_main_arg8 (c : Dev nD) : C6 m c (Proc.devRef .tc main_arg8) = m ((c : Thread nD τ).loc main_arg8) :=
  C6_kept m c main_arg8 (by decide) (by decide) (by decide) (by decide) (by decide) (by decide)

/-- The run, read at the result and the arguments: every weakly fair execution terminates, nothing faulting, the
    result's buffer at the last boundary's contents and every argument as launched. -/
theorem run_result : θ_run defs (onTc (τ := τ) (main (F := F))) ⟨m, fun _ => 0, ρ⟩ (fun r => ∀ c : Dev nD,
      r.2.mem ((c.tc : Thread nD τ).loc main_v14) = C6 m c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨h c _ (mem_uc main_v14 (by decide)),
    (h c _ (mem_uc main_arg0 (by decide))).trans (C6_main_arg0 m c),
    (h c _ (mem_uc main_arg1 (by decide))).trans (C6_main_arg1 m c),
    (h c _ (mem_uc main_arg2 (by decide))).trans (C6_main_arg2 m c),
    (h c _ (mem_uc main_arg3 (by decide))).trans (C6_main_arg3 m c),
    (h c _ (mem_uc main_arg4 (by decide))).trans (C6_main_arg4 m c),
    (h c _ (mem_uc main_arg5 (by decide))).trans (C6_main_arg5 m c),
    (h c _ (mem_uc main_arg6 (by decide))).trans (C6_main_arg6 m c),
    (h c _ (mem_uc main_arg7 (by decide))).trans (C6_main_arg7 m c),
    (h c _ (mem_uc main_arg8 (by decide))).trans (C6_main_arg8 m c)⟩) (run_main m ρ)

/-- The frame: every weakly fair execution terminates, nothing faulting, every argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_result m ρ)

end Cert.Kernel.Run

end
-- ==== Proof.ProjQKV.lean ====
/-
  The first projection kernel (queries, keys and values at once) as one region of the program: what each grid point's
  body leaves in the output window's buffer, as a function of the three input blocks, and the body's run.

  The grid has 16 points; point t handles rows 512 t … 512 t + 511 of the [8192, 1024] activations. The body loads the
  whole [512, 1024] activation block, the whole [1024, 3072] weight and the [1, 3072] bias, and stores ONE whole
  [512, 3072] block: block · weight + bias.
-/
import proofs.«122077_j62234076119080_2_alg».proof.Proof.Gen.KernelIdeal.Launch
import proofs.«122077_j62234076119080_2_alg».proof.Proof.Gen.KernelIdeal.Skeleton
import proofs.«122077_j62234076119080_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not: between two fetches the
    block index has not moved. One statement per input window (activations, weight, bias). -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- The body's four accesses: each the whole of its buffer. -/
abbrev rx0 : Rect S512x1024 := Rect.unit (s := S512x1024) ![0, 0] S512x1024.size inb_S512x1024_S512x1024_0_0
abbrev rw0 : Rect S1024x3072 := Rect.unit (s := S1024x3072) ![0, 0] S1024x3072.size inb_S1024x3072_S1024x3072_0_0
abbrev rb0 : Rect S1x3072 := Rect.unit (s := S1x3072) ![0, 0] S1x3072.size inb_S1x3072_S1x3072_0_0
abbrev ro0 : Rect S512x3072 := Rect.unit (s := S512x3072) ![0, 0] S512x3072.size inb_S512x3072_S512x3072_0_0

/-- The output window's buffer after the body, from the three input blocks: its one store, of the whole block. -/
def out0 (x0 : Vec F S512x1024 .f32) (x1 : Vec F S1024x3072 .bf16) (x2 : Vec F S1x3072 .f32) : Vec F S512x3072 .bf16 :=
  View.canon [⟨ro0, k0_pay1 (View.ld x0 rx0) (View.ld x1 rw0) (View.ld x2 rb0)⟩]

/-- The store covers the buffer. -/
theorem cover0 (p0 : Vec F S512x3072 .bf16) (y : S512x3072.Idx) :
    ∃ pc ∈ ([⟨ro0, p0⟩] : List (View.Piece (Elt F) S512x3072 .bf16)), y ∈ pc.1.set :=
  View.cover_of_tiled [⟨ro0, p0⟩] S512x3072.size (by rfl) y

set_option maxHeartbeats 1000000 in
/-- The body on whole buffers, the inputs' at contents `x0 x1 x2` and the output's at anything, runs to the continuation
    with the inputs' as they were and the output's at `out0 x0 x1 x2`. -/
theorem sound_kernel0 (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S512x3072 .bf16) (harg4 : arg4.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-- The proof data of this pipeline on core `c`: the arrays as the region finds them; after the body at point `t` each
    input's buffer at its block and the output's at `out0` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => out0 (blk0 V c 0 t) (blk0 V c 1 t) (blk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) :
    (dat0 V c).after 3 t = out0 (blk0 V c 0 t) (blk0 V c 1 t) (blk0 V c 2 t) := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Run

end
-- ==== Proof.Attn.lean ====
/-
  The attention kernel as one region of the program: what each grid point's body leaves in the output window's
  buffer, as a function of the three input blocks, and the body's run.

  The grid is 4 × 8 × 8: batch entry, pair of heads, tile of 256 queries. The three input windows are blocks of ONE
  array, the fused projections [8192, 3072]: the queries' [256, 128] block, the keys' and the values' [2048, 128] blocks
  (all the keys and values of the batch entry, for the two heads of the pair). The body treats the two heads of the
  pair separately — lanes 0 … 63 and 64 … 127 of every block — and stores each head's [256, 64] result into its half of
  the [256, 128] output block.
-/
import proofs.«122077_j62234076119080_2_alg».proof.Proof.Gen.KernelIdeal.Launch
import proofs.«122077_j62234076119080_2_alg».proof.Proof.Gen.KernelIdeal.Skeleton
import proofs.«122077_j62234076119080_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not: between two fetches the
    block index has not moved (the keys' and values' blocks are fetched once per eight query tiles). -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- The body's accesses: the low and the high 64 lanes of a [256, 128] block and of a [2048, 128] block. -/
abbrev rqLo : Rect S256x128 := Rect.unit (s := S256x128) ![0, 0] S256x64.size inb_S256x128_S256x64_0_0
abbrev rqHi : Rect S256x128 := Rect.unit (s := S256x128) ![0, 64] S256x64.size inb_S256x128_S256x64_0_64
abbrev rkLo : Rect S2048x128 := Rect.unit (s := S2048x128) ![0, 0] S2048x64.size inb_S2048x128_S2048x64_0_0
abbrev rkHi : Rect S2048x128 := Rect.unit (s := S2048x128) ![0, 64] S2048x64.size inb_S2048x128_S2048x64_0_64

/-- The output window's buffer after the body, from the three input blocks: its two stores as pieces, last first —
    the second head of the pair into the high lanes, the first into the low lanes. -/
def out1 (x0 : Vec F S256x128 .bf16) (x1 : Vec F S2048x128 .bf16) (x2 : Vec F S2048x128 .bf16) : Vec F S256x128 .bf16 :=
  View.canon [⟨rqHi, k1_pay2 (k1_pay4 (View.ld x2 rkHi)) (k1_pay5 (View.ld x0 rqHi) (View.ld x1 rkHi))⟩,
    ⟨rqLo, k1_pay1 (k1_pay3 (View.ld x0 rqLo) (View.ld x1 rkLo) (View.ld x2 rkLo))⟩]

/-- The two stores tile the buffer, so they cover it. -/
theorem cover1 (p0 : Vec F S256x64 .bf16) (p1 : Vec F S256x64 .bf16) (y : S256x128.Idx) :
    ∃ pc ∈ ([⟨rqHi, p0⟩, ⟨rqLo, p1⟩] : List (View.Piece (Elt F) S256x128 .bf16)), y ∈ pc.1.set :=
  View.cover_of_tiled [⟨rqHi, p0⟩, ⟨rqLo, p1⟩] S256x64.size (by rfl) y

set_option maxHeartbeats 1000000 in
/-- The body on whole buffers, the inputs' at contents `x0 x1 x2` and the output's at anything, runs to the continuation
    with the inputs' as they were and the output's at `out1 x0 x1 x2`. -/
theorem sound_kernel1 (c : Dev nD) (E : Set ℕ) (i : grid1.Coords)
    (arg3 : Memref sig .tc .vmem S256x128 .bf16) (harg3 : arg3.IsWhole) (arg4 : Memref sig .tc .vmem S2048x128 .bf16) (harg4 : arg4.IsWhole)
    (arg5 : Memref sig .tc .vmem S2048x128 .bf16) (harg5 : arg5.IsWhole) (arg6 : Memref sig .tc .vmem S256x128 .bf16) (harg6 : arg6.IsWhole)
    (x0 : Vec F S256x128 .bf16) (x1 : Vec F S2048x128 .bf16) (x2 : Vec F S2048x128 .bf16) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out1 x0 x1 x2)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1 _ _)

/-- The proof data of this pipeline on core `c`: the arrays as the region finds them; after the body at point `t` each
    input's buffer at its block and the output's at `out1` of the input blocks; the invariant the scoped rest and the
    generator register, untouched; nothing owed. The three input windows read ONE array, so the core holds it in three
    shares, one per window: half, a quarter and a quarter. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => out1 (blk1 V c 0 t) (blk1 V c 1 t) (blk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) :
    (dat1 V c).after 3 t = out1 (blk1 V c 0 t) (blk1 V c 1 t) (blk1 V c 2 t) := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Run

end
-- ==== Proof.AttnArrays.lean ====
/-
  The attention region's arrays: ONE array, the fused projections, stands behind all three input windows. At the
  region's entry the core's hold on it is split into the three windows' shares (a half, a quarter, a quarter); at its
  exit the three shares, still at the entry contents since no input window is ever written back, are put together again.
-/
import proofs.«122077_j62234076119080_2_alg».proof.Proof.Attn

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V V' : (c : Dev nD) → (b : Ref sig .tc) → Buf (Elt F) ((c : Thread nD τ).loc b))

/-- The two arrays behind the four windows. -/
theorem image_arr1 : Finset.univ.image (Pipeline.arrRef (cfgs 1).spec) = ({main_v8, main_v9} : Finset (Ref sig .tc)) := by decide

/-- The region's arrays, each a whole buffer held at its window's share. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v8) ↦{fullShare.left} G 0) ∗ (((c : Thread nD τ).loc main_v8) ↦{fullShare.right.left} G 1)
          ∗ (((c : Thread nD τ).loc main_v8) ↦{fullShare.right.right} G 2) ∗ (((c : Thread nD τ).loc main_v9) ↦{fullShare} G 3)) := by
  unfold Pipeline.Dat.arrays
  rw [show (bigSep Finset.univ fun w : Fin cfg1.W => ((cfg1.win w).arr.view.loc (c : Thread nD τ) ↦[(cfg1.win w).arr.view.set]{(dat1 V c).share w} G w : sProp 𝕄))
      = bigSep Finset.univ fun w : Fin cfg1.W => (((c : Thread nD τ).loc (Pipeline.arrRef spec1 w)) ↦{(dat1 V c).share w} G w : sProp 𝕄)
    from bigSep_congr fun w _ => by rw [(arr_whole1 w).set_eq_univ]]
  rw [bigSep_W1]
  rfl

/-- The two buffers behind the region's arrays, each whole at the full share. -/
theorem arrBufs1_eq (c : Dev nD) (W : (b : Ref sig .tc) → Buf (Elt F) ((c : Thread nD τ).loc b)) :
    (Pipeline.arrBufs (Ix := Unit) (Name := ℕ) (U := UR sig nD τ) (Lvl := ℕ) (cfgs 1).spec c W : sProp 𝕄)
      = iprop((((c : Thread nD τ).loc main_v8) ↦{fullShare} W main_v8) ∗ (((c : Thread nD τ).loc main_v9) ↦{fullShare} W main_v9)) := by
  unfold Pipeline.arrBufs
  rw [image_arr1, bigSep_insert (by decide), bigSep_singleton]
  rfl

/-- ENTRY: the shared buffers at the entry contents are the region's arrays — the fused projections split into the three
    input windows' shares, the merged heads whole — and the rest. -/
theorem arrays1_of_unscopedBufs (c : Dev nD) :
    (unscopedBufs (Ix := Unit) (Name := ℕ) (U := UR sig nD τ) (Lvl := ℕ) c (V c) : sProp 𝕄)
      ⊢ iprop((dat1 V c).arrays ((dat1 V c).arrAt · 0)
          ∗ Pipeline.unscopedRest (Ix := Unit) (Name := ℕ) (U := UR sig nD τ) (Lvl := ℕ) spec1 c (V c)) := by
  rw [Pipeline.unscopedBufs_split₀ cfgs 1 winFacts₀1.arr_unscoped c (V c)]
  refine sep_mono ?_ .rfl
  rw [arrays1_eq, arrBufs1_eq]
  rw [show (dat1 V c).arrAt 0 0 = V c main_v8 from A_eq1 V c 0, show (dat1 V c).arrAt 1 0 = V c main_v8 from A_eq1 V c 1,
    show (dat1 V c).arrAt 2 0 = V c main_v8 from A_eq1 V c 2, show (dat1 V c).arrAt 3 0 = V c main_v9 from A_eq1 V c 3]
  iintro ⟨H8, H9⟩
  ihave H8' := (pointsTo_share (PosShare.mem_left_op_right fullShare)).1 $$ H8
  icases H8' with ⟨Ha, Hb⟩
  ihave Hb' := (pointsTo_share (PosShare.mem_left_op_right fullShare.right)).1 $$ Hb
  icases Hb' with ⟨Hb1, Hb2⟩
  isplitl [Ha]; · iexact Ha
  isplitl [Hb1]; · iexact Hb1
  isplitl [Hb2]; · iexact Hb2
  iexact H9

/-- EXIT: the arrays at their final contents — the three shares of the fused projections put together again, unchanged,
    the merged heads at what the write-backs leave — and the rest make the shared buffers at the exit contents `V'`,
    which differ from the entry contents at the merged heads' array only. -/
theorem unscopedBufs1_of_arrays (c : Dev nD) (h9 : V' c main_v9 = (dat1 V c).arrAt 3 cfg1.N)
    (hne : ∀ b : Ref sig .tc, b ≠ main_v9 → V' c b = V c b) :
    iprop((dat1 V c).arrays ((dat1 V c).arrAt · cfg1.N)
        ∗ Pipeline.unscopedRest (Ix := Unit) (Name := ℕ) (U := UR sig nD τ) (Lvl := ℕ) spec1 c (V c))
      ⊢ (unscopedBufs (Ix := Unit) (Name := ℕ) (U := UR sig nD τ) (Lvl := ℕ) c (V' c) : sProp 𝕄) := by
  rw [Pipeline.unscopedBufs_split₀ cfgs 1 winFacts₀1.arr_unscoped c (V' c)]
  refine sep_mono ?_ (Entails.of_eq ?_)
  · rw [arrays1_eq, arrBufs1_eq]
    rw [show (dat1 V c).arrAt 0 cfg1.N = V c main_v8 from ((dat1 V c).arrAt_in 0 rfl _).trans (A_eq1 V c 0),
      show (dat1 V c).arrAt 1 cfg1.N = V c main_v8 from ((dat1 V c).arrAt_in 1 rfl _).trans (A_eq1 V c 1),
      show (dat1 V c).arrAt 2 cfg1.N = V c main_v8 from ((dat1 V c).arrAt_in 2 rfl _).trans (A_eq1 V c 2),
      hne main_v8 (by decide), h9]
    iintro ⟨Ha, Hb1, Hb2, H9⟩
    isplitr [H9]
    · iapply (pointsTo_share (PosShare.mem_left_op_right fullShare)).2
      isplitl [Ha]; · iexact Ha
      iapply (pointsTo_share (PosShare.mem_left_op_right fullShare.right)).2
      isplitl [Hb1]; · iexact Hb1
      iexact Hb2
    iexact H9
  · unfold Pipeline.unscopedRest
    exact bigSep_congr fun b hb => by
      rw [hne b (fun e => (Finset.mem_sdiff.mp hb).2 (by rw [e]; exact Finset.mem_image.mpr ⟨3, Finset.mem_univ _, rfl⟩))]

end Cert.KernelIdeal.Run

end
-- ==== Proof.ProjOut.lean ====
/-
  The output projection kernel as one region of the program: what each grid point's body leaves in the output
  window's buffer, as a function of the three input blocks, and the body's run.

  The grid has 16 points; point t handles rows 512 t … 512 t + 511 of the [8192, 1024] merged heads. The body loads the
  whole [512, 1024] block, the whole [1024, 1024] weight and the [1, 1024] bias, and stores ONE whole [512, 1024]
  block: block · weight + bias.
-/
import proofs.«122077_j62234076119080_2_alg».proof.Proof.Gen.KernelIdeal.Launch
import proofs.«122077_j62234076119080_2_alg».proof.Proof.Gen.KernelIdeal.Skeleton
import proofs.«122077_j62234076119080_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point, fetched there or not: between two fetches the
    block index has not moved. One statement per input window (activations, weight, bias). -/
theorem before2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-- The body's four accesses: each the whole of its buffer. -/
abbrev rx2 : Rect S512x1024 := Rect.unit (s := S512x1024) ![0, 0] S512x1024.size inb_S512x1024_S512x1024_0_0
abbrev rw2 : Rect S1024x1024 := Rect.unit (s := S1024x1024) ![0, 0] S1024x1024.size inb_S1024x1024_S1024x1024_0_0
abbrev rb2 : Rect S1x1024 := Rect.unit (s := S1x1024) ![0, 0] S1x1024.size inb_S1x1024_S1x1024_0_0
abbrev ro2 : Rect S512x1024 := Rect.unit (s := S512x1024) ![0, 0] S512x1024.size inb_S512x1024_S512x1024_0_0

/-- The output window's buffer after the body, from the three input blocks: its one store, of the whole block. -/
def out2 (x0 : Vec F S512x1024 .bf16) (x1 : Vec F S1024x1024 .bf16) (x2 : Vec F S1x1024 .f32) : Vec F S512x1024 .f32 :=
  View.canon [⟨ro2, k2_pay1 (View.ld x0 rx2) (View.ld x1 rw2) (View.ld x2 rb2)⟩]

/-- The store covers the buffer. -/
theorem cover2 (p0 : Vec F S512x1024 .f32) (y : S512x1024.Idx) :
    ∃ pc ∈ ([⟨ro2, p0⟩] : List (View.Piece (Elt F) S512x1024 .f32)), y ∈ pc.1.set :=
  View.cover_of_tiled [⟨ro2, p0⟩] S512x1024.size (by rfl) y

set_option maxHeartbeats 1000000 in
/-- The body on whole buffers, the inputs' at contents `x0 x1 x2` and the output's at anything, runs to the continuation
    with the inputs' as they were and the output's at `out2 x0 x1 x2`. -/
theorem sound_kernel2 (c : Dev nD) (E : Set ℕ) (i : grid2.Coords)
    (arg1 : Memref sig .tc .vmem S512x1024 .bf16) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S512x1024 .f32) (harg4 : arg4.IsWhole)
    (x0 : Vec F S512x1024 .bf16) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-- The proof data of this pipeline on core `c`: the arrays as the region finds them; after the body at point `t` each
    input's buffer at its block and the output's at `out2` of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => out2 (blk2 V c 0 t) (blk2 V c 1 t) (blk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) :
    (dat2 V c).after 3 t = out2 (blk2 V c 0 t) (blk2 V c 1 t) (blk2 V c 2 t) := by dsimp only [dat2]

theorem before2_0 (c : Dev nD) (t : Fin cfg2.N) (d) : (dat2 V c).before 0 t d = blk2 V c 0 t :=
  before2_0_of V (dat2 V c) (A_eq2 V c 0) (after2_0 V c) t d
theorem before2_1 (c : Dev nD) (t : Fin cfg2.N) (d) : (dat2 V c).before 1 t d = blk2 V c 1 t :=
  before2_1_of V (dat2 V c) (A_eq2 V c 1) (after2_1 V c) t d
theorem before2_2 (c : Dev nD) (t : Fin cfg2.N) (d) : (dat2 V c).before 2 t d = blk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (blk2 V c 0 t) (blk2 V c 1 t) (blk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Run

end
-- ==== Proof.Run.lean ====
/-
  The whole program's run, from the launch to the return, at any float instance: the buffer contents at each
  boundary between two items of the program — three stretches of layout operations and three kernel regions, in the
  order  layout, projection, attention, layout, projection, layout — and the run through them.

  Between items a core holds every buffer it shares with the host side whole at the boundary's contents: the launch
  memory; then after each layout stretch what its operations compute from the contents before; after each region the
  contents before with the region's output array replaced by what its write-backs leave. Every final memory holds, at
  each such buffer, the last boundary's contents.
-/
import proofs.«122077_j62234076119080_2_alg».proof.Proof.ProjQKV
import proofs.«122077_j62234076119080_2_alg».proof.Proof.Attn
import proofs.«122077_j62234076119080_2_alg».proof.Proof.AttnArrays
import proofs.«122077_j62234076119080_2_alg».proof.Proof.ProjOut

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- At launch. -/
abbrev C0 : Dev nD → Valuation τ sig (Elt F) := fun c b => m (c, b)
/-- After the first layout stretch (the first projection's entry). -/
abbrev C1 : Dev nD → Valuation τ sig (Elt F) := fun c => StableHlo.after hostOps0 (C0 m c)
abbrev B1 : (c : Dev nD) → (b : Ref sig .tc) → Buf (Elt F) ((c : Thread nD τ).loc b) := fun c b => C1 m c b
/-- After the first projection: its arrays at what the pipeline leaves, every other buffer as entered. -/
def C2 (c : Dev nD) : Valuation τ sig (Elt F) :=
  Pipeline.withArrays spec0 c (C1 m c) fun w => (dat0 (B1 m) c).arrAt w cfg0.N
theorem C2_arr (c : Dev nD) (w : Fin cfg0.W) :
    C2 m c (Proc.devRef .tc (Pipeline.arrRef spec0 w)) = (dat0 (B1 m) c).arrAt w cfg0.N := by
  unfold C2; exact Pipeline.withArrays_arr spec0 launch0.win.arr_inj c _ _ w
theorem C2_of_ne (c : Dev nD) (b : Ref sig .tc) (hb : ∀ w, Pipeline.arrRef spec0 w ≠ b) :
    C2 m c (Proc.devRef .tc b) = C1 m c (Proc.devRef .tc b) := by
  unfold C2; exact Pipeline.withArrays_of_ne spec0 c _ _ b hb
abbrev B2 : (c : Dev nD) → (b : Ref sig .tc) → Buf (Elt F) ((c : Thread nD τ).loc b) := fun c b => C2 m c b
theorem hF0 (c : Dev nD) (w : Fin cfg0.W) : (dat0 (B1 m) c).arrAt w cfg0.N = B2 m c (Pipeline.arrRef spec0 w) :=
  (C2_arr m c w).symm
theorem hrest0 (c : Dev nD) : ∀ b, b ∉ Finset.univ.image (Pipeline.arrRef spec0) → B2 m c b = B1 m c b :=
  fun b hb => C2_of_ne m c b fun w e => hb (Finset.mem_image.mpr ⟨w, Finset.mem_univ _, e⟩)

/-- After the attention region: the merged heads' array at what the pipeline leaves, every other buffer as entered
    (the fused projections, which all three input windows read, among them). -/
def C3 (c : Dev nD) : Valuation τ sig (Elt F) :=
  Function.update (C2 m c) (Proc.devRef .tc main_v9) ((dat1 (B2 m) c).arrAt 3 cfg1.N)
abbrev B3 : (c : Dev nD) → (b : Ref sig .tc) → Buf (Elt F) ((c : Thread nD τ).loc b) := fun c b => C3 m c b
theorem B3_v9 (c : Dev nD) : B3 m c main_v9 = (dat1 (B2 m) c).arrAt 3 cfg1.N := Function.update_self ..
theorem B3_of_ne (c : Dev nD) (b : Ref sig .tc) (hb : b ≠ main_v9) : B3 m c b = B2 m c b :=
  Function.update_of_ne (StableHlo.devRef_ne_of_ne hb) ..

/-- After the second layout stretch (the output projection's entry). -/
abbrev C4 : Dev nD → Valuation τ sig (Elt F) := fun c => StableHlo.after hostOps2 (C3 m c)
abbrev B4 : (c : Dev nD) → (b : Ref sig .tc) → Buf (Elt F) ((c : Thread nD τ).loc b) := fun c b => C4 m c b
/-- After the output projection. -/
def C5 (c : Dev nD) : Valuation τ sig (Elt F) :=
  Pipeline.withArrays spec2 c (C4 m c) fun w => (dat2 (B4 m) c).arrAt w cfg2.N
theorem C5_arr (c : Dev nD) (w : Fin cfg2.W) :
    C5 m c (Proc.devRef .tc (Pipeline.arrRef spec2 w)) = (dat2 (B4 m) c).arrAt w cfg2.N := by
  unfold C5; exact Pipeline.withArrays_arr spec2 launch2.win.arr_inj c _ _ w
theorem C5_of_ne (c : Dev nD) (b : Ref sig .tc) (hb : ∀ w, Pipeline.arrRef spec2 w ≠ b) :
    C5 m c (Proc.devRef .tc b) = C4 m c (Proc.devRef .tc b) := by
  unfold C5; exact Pipeline.withArrays_of_ne spec2 c _ _ b hb
abbrev B5 : (c : Dev nD) → (b : Ref sig .tc) → Buf (Elt F) ((c : Thread nD τ).loc b) := fun c b => C5 m c b
theorem hF2 (c : Dev nD) (w : Fin cfg2.W) : (dat2 (B4 m) c).arrAt w cfg2.N = B5 m c (Pipeline.arrRef spec2 w) :=
  (C5_arr m c w).symm
theorem hrest2 (c : Dev nD) : ∀ b, b ∉ Finset.univ.image (Pipeline.arrRef spec2) → B5 m c b = B4 m c b :=
  fun b hb => C5_of_ne m c b fun w e => hb (Finset.mem_image.mpr ⟨w, Finset.mem_univ _, e⟩)
/-- After the last layout stretch: the end. -/
abbrev C6 : Dev nD → Valuation τ sig (Elt F) := fun c => StableHlo.after hostOps3 (C5 m c)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (B1 m) c
  | ⟨1, _⟩ => fun c => dat1 (B2 m) c
  | ⟨2, _⟩ => fun c => dat2 (B4 m) c
abbrev 𝒱₀ : Variants := Variants.none
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A stretch of layout operations as an item: every shared buffer from the contents `W` to what the operations compute from
    them, the generator register and the dues riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem hostOps3_fresh' : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every shared buffer at the last boundary's contents, the generator register
    at some state. -/
abbrev Tₙ (c : Dev nD) : sProp 𝕄 := iprop(StableHlo.held (c : Thread nD τ) (Pipeline.ucRefs τ sig) (C6 m c) ∗ ∃ r, prngReg c r)

/-! ## The attention region's arrays at its two boundaries -/

theorem attn_entry (c : Dev nD) :
    (unscopedBufs (Ix := Unit) (Name := ℕ) (U := UR sig nD τ) (Lvl := ℕ) c (B2 m c) : sProp 𝕄)
      ⊢ iprop((dat1 (B2 m) c).arrays ((dat1 (B2 m) c).arrAt · 0)
          ∗ Pipeline.unscopedRest (Ix := Unit) (Name := ℕ) (U := UR sig nD τ) (Lvl := ℕ) spec1 c (B2 m c)) :=
  arrays1_of_unscopedBufs (B2 m) c

theorem attn_exit (c : Dev nD) :
    iprop((dat1 (B2 m) c).arrays ((dat1 (B2 m) c).arrAt · cfg1.N)
        ∗ Pipeline.unscopedRest (Ix := Unit) (Name := ℕ) (U := UR sig nD τ) (Lvl := ℕ) spec1 c (B2 m c))
      ⊢ (unscopedBufs (Ix := Unit) (Name := ℕ) (U := UR sig nD τ) (Lvl := ℕ) c (B3 m c) : sProp 𝕄) :=
  unscopedBufs1_of_arrays (B2 m) (B3 m) c (B3_v9 m c) (fun b hb => B3_of_ne m c b hb)

/-! ## The regions as items -/

set_option backward.isDefEq.respectTransparency.types false in
/-- The first projection as an item of the program: entered with every shared buffer at the contents after the first
    layout stretch, left with them at those contents but for the fused projections' array, at what its write-backs leave. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (B1 m) c).loose
  hwaits := Pipeline.hwaits_of_owed_zero _ _ _ _ L lv 0 fun _ _ => rfl
  pre c := iprop(StableHlo.held (c : Thread nD τ) (Pipeline.ucRefs τ sig) (C1 m c) ∗ R c)
  post c := iprop(StableHlo.held (c : Thread nD τ) (Pipeline.ucRefs τ sig) (C2 m c) ∗ R c)
  X c := iprop(∃ r, prngReg c r)
  Y c := iprop(∃ r, prngReg c r)
  Z c := Pipeline.unscopedRest (Ix := Unit) (Name := ℕ) (U := UR sig nD τ) (Lvl := ℕ) spec0 c (B1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (B1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (B1 m c) (B2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region as an item of the program: entered with every shared buffer at the first projection's exit
    contents, left with them at those contents but for the merged heads' array, at what its write-backs leave. The fused
    projections' array is split into the three input windows' shares on the way in and put together again on the way out. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (B2 m) c).loose
  hwaits := Pipeline.hwaits_of_owed_zero _ _ _ _ L lv 1 fun _ _ => rfl
  pre c := iprop(StableHlo.held (c : Thread nD τ) (Pipeline.ucRefs τ sig) (C2 m c) ∗ R c)
  post c := iprop(StableHlo.held (c : Thread nD τ) (Pipeline.ucRefs τ sig) (C3 m c) ∗ R c)
  X c := iprop(∃ r, prngReg c r)
  Y c := iprop(∃ r, prngReg c r)
  Z c := Pipeline.unscopedRest (Ix := Unit) (Name := ℕ) (U := UR sig nD τ) (Lvl := ℕ) spec1 c (B2 m c)
  hentry c := by
    rw [Pipeline.ownSems0_none]
    have hsplit : (unscopedBufs (Ix := Unit) (Name := ℕ) (U := UR sig nD τ) (Lvl := ℕ) c (B2 m c) : sProp 𝕄)
      ⊢ iprop((pdats m 1 c).arrays ((pdats m 1 c).arrAt · 0)
          ∗ Pipeline.unscopedRest (Ix := Unit) (Name := ℕ) (U := UR sig nD τ) (Lvl := ℕ) spec1 c (B2 m c)) := attn_entry m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
        ∗ Pipeline.unscopedRest (Ix := Unit) (Name := ℕ) (U := UR sig nD τ) (Lvl := ℕ) spec1 c (B2 m c))
      ⊢ (unscopedBufs (Ix := Unit) (Name := ℕ) (U := UR sig nD τ) (Lvl := ℕ) c (B3 m c) : sProp 𝕄) := attn_exit m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output projection as an item of the program: entered with every shared buffer at the contents after the second
    layout stretch, left with them at those contents but for its output array, at what its write-backs leave. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (B4 m) c).loose
  hwaits := Pipeline.hwaits_of_owed_zero _ _ _ _ L lv 2 fun _ _ => rfl
  pre c := iprop(StableHlo.held (c : Thread nD τ) (Pipeline.ucRefs τ sig) (C4 m c) ∗ R c)
  post c := iprop(StableHlo.held (c : Thread nD τ) (Pipeline.ucRefs τ sig) (C5 m c) ∗ R c)
  X c := iprop(∃ r, prngReg c r)
  Y c := iprop(∃ r, prngReg c r)
  Z c := Pipeline.unscopedRest (Ix := Unit) (Name := ℕ) (U := UR sig nD τ) (Lvl := ℕ) spec2 c (B4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (B4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (B4 m c) (B5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its items, and the run -/

/-- The program's six items in order. -/
abbrev segs : List (Pipeline.Seg (pcfgs (F := F)) adm (pdats m) () defs₀ 𝒱₀ L lv) :=
  [ .host (hseg hostOps0 hostOps0_sub hostOps0_fresh' (C0 m)),
    .region (reg0 m),
    .region (reg1 m),
    .host (hseg hostOps2 hostOps2_sub hostOps2_fresh' (C3 m)),
    .region (reg2 m),
    .host (hseg hostOps3 hostOps3_sub hostOps3_fresh' (C5 m)) ]

/-- The program IS the run of its items. -/
theorem main_run (c : Dev nD) : main (F := F) c = Pipeline.Seg.run (segs m) := (main_chain c).trans (by chain_rfl)

set_option backward.isDefEq.respectTransparency.types false in
/-- THE RUN: from any memory with zero counters every weakly fair execution of the program terminates, nothing faulting,
    and every final memory holds each buffer the cores share with the host side at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = C6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (C0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (C6 m c) ∗ R c) ⊢ _
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (C0 m c)
        from Pipeline.unscopedBufs_held c (C0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = C6 m c b)
    (hfin := fun c s' => by
      iintro ⟨⟨Hh, -⟩, HSI⟩
      unfold StableHlo.held
      imodintro
      iapply (pointsTo_read_all (Pipeline.ucRefs τ sig) (fun b => (((c : Thread nD τ)).1, b)) (C6 m c) s')
      isplitl [Hh] <;> iassumption)
    (hQ := fun s h c => h c)

end Cert.KernelIdeal.Run

end
-- ==== Proof.Frames.lean ====
/-
  What the run says of the program's arguments and of its result: no layout stretch writes an argument's buffer and
  no region has one behind an output window, so each argument ends as launched; the result's buffer ends at the last
  boundary's contents.
-/
import proofs.«122077_j62234076119080_2_alg».proof.Proof.Run
import proofs.«122077_j62234076119080_2_alg».proof.Proof.Gen.KernelIdeal.Regions

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer that no layout stretch writes and that stands behind no window of the two projections, other than the
    merged heads' array, holds at the end what it held at launch. -/
theorem C6_kept (c : Dev nD) (b : Ref sig .tc) (h0 : b ∉ hostOps0_W) (h2 : b ∉ hostOps2_W) (h3 : b ∉ hostOps3_W)
    (ha0 : ∀ w, Pipeline.arrRef spec0 w ≠ b) (h9 : b ≠ main_v9) (ha2 : ∀ w, Pipeline.arrRef spec2 w ≠ b) :
    C6 m c (Proc.devRef .tc b) = m ((c : Thread nD τ).loc b) :=
  (StableHlo.after_of_writes_sub hostOps3 _ hostOps3_writes h3).trans <| (C5_of_ne m c b ha2).trans <|
    (StableHlo.after_of_writes_sub hostOps2 _ hostOps2_writes h2).trans <| (B3_of_ne m c b h9).trans <|
    (C2_of_ne m c b ha0).trans <| (StableHlo.after_of_writes_sub hostOps0 _ hostOps0_writes h0).trans rfl

theorem C6_main_arg0 (c : Dev nD) : C6 m c (Proc.devRef .tc main_arg0) = m ((c : Thread nD τ).loc main_arg0) :=
  C6_kept m c main_arg0 (by decide) (by decide) (by decide) (by decide) (by decide) (by decide)
theorem C6_main_arg1 (c : Dev nD) : C6 m c (Proc.devRef .tc main_arg1) = m ((c : Thread nD τ).loc main_arg1) :=
  C6_kept m c main_arg1 (by decide) (by decide) (by decide) (by decide) (by decide) (by decide)
theorem C6_main_arg2 (c : Dev nD) : C6 m c (Proc.devRef .tc main_arg2) = m ((c : Thread nD τ).loc main_arg2) :=
  C6_kept m c main_arg2 (by decide) (by decide) (by decide) (by decide) (by decide) (by decide)
theorem C6_main_arg3 (c : Dev nD) : C6 m c (Proc.devRef .tc main_arg3) = m ((c : Thread nD τ).loc main_arg3) :=
  C6_kept m c main_arg3 (by decide) (by decide) (by decide) (by decide) (by decide) (by decide)
theorem C6_main_arg4 (c : Dev nD) : C6 m c (Proc.devRef .tc main_arg4) = m ((c : Thread nD τ).loc main_arg4) :=
  C6_kept m c main_arg4 (by decide) (by decide) (by decide) (by decide) (by decide) (by decide)
theorem C6_main_arg5 (c : Dev nD) : C6 m c (Proc.devRef .tc main_arg5) = m ((c : Thread nD τ).loc main_arg5) :=
  C6_kept m c main_arg5 (by decide) (by decide) (by decide) (by decide) (by decide) (by decide)
theorem C6_main_arg6 (c : Dev nD) : C6 m c (Proc.devRef .tc main_arg6) = m ((c : Thread nD τ).loc main_arg6) :=
  C6_kept m c main_arg6 (by decide) (by decide) (by decide) (by decide) (by decide) (by decide)
theorem C6_main_arg7 (c : Dev nD) : C6 m c (Proc.devRef .tc main_arg7) = m ((c : Thread nD τ).loc main_arg7) :=
  C6_kept m c main_arg7 (by decide) (by decide) (by decide) (by decide) (by decide) (by decide)
theorem C6_main_arg8 (c : Dev nD) : C6 m c (Proc.devRef .tc main_arg8) = m ((c : Thread nD τ).loc main_arg8) :=
  C6_kept m c main_arg8 (by decide) (by decide) (by decide) (by decide) (by decide) (by decide)

/-- The run, read at the result and the arguments: every weakly fair execution terminates, nothing faulting, the
    result's buffer at the last boundary's contents and every argument as launched. -/
theorem run_result : θ_run defs (onTc (τ := τ) (main (F := F))) ⟨m, fun _ => 0, ρ⟩ (fun r => ∀ c : Dev nD,
      r.2.mem ((c.tc : Thread nD τ).loc main_v14) = C6 m c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨h c _ (mem_uc main_v14 (by decide)),
    (h c _ (mem_uc main_arg0 (by decide))).trans (C6_main_arg0 m c),
    (h c _ (mem_uc main_arg1 (by decide))).trans (C6_main_arg1 m c),
    (h c _ (mem_uc main_arg2 (by decide))).trans (C6_main_arg2 m c),
    (h c _ (mem_uc main_arg3 (by decide))).trans (C6_main_arg3 m c),
    (h c _ (mem_uc main_arg4 (by decide))).trans (C6_main_arg4 m c),
    (h c _ (mem_uc main_arg5 (by decide))).trans (C6_main_arg5 m c),
    (h c _ (mem_uc main_arg6 (by decide))).trans (C6_main_arg6 m c),
    (h c _ (mem_uc main_arg7 (by decide))).trans (C6_main_arg7 m c),
    (h c _ (mem_uc main_arg8 (by decide))).trans (C6_main_arg8 m c)⟩) (run_main m ρ)

/-- The frame: every weakly fair execution terminates, nothing faulting, every argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_result m ρ)

end Cert.KernelIdeal.Run

end
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.LibMatmulIx.lean ====
/-
  A matrix product of an `[a, K]` array with a `[K, b]` array read at the entry `(p, q)`, at the ideal values:
  the sum over `k` of the left operand's `(p, k)` entry times the right operand's `(k, q)` entry — for a kernel's
  product accumulated into the zero splat (`matmul_zero_ix2`) and for the host's product (`dotGeneral_ix2`), stated
  for any dimension numbers that contract the left operand's columns with the right operand's rows (the four
  coordinate facts `hl0 … hr1`, which a literal record proves by evaluation).
-/
import Idealize.ShloMosaic.Lib.ValueIdx
import Idealize.ShloMosaic.PureOps.Ideal.Laws

namespace MatmulIx

open Idealize.ShloMosaic Idealize.ShloMosaic.ValueIdx

variable {a K b : ℕ} {φ₁ φ₂ : FTy}

/-- The contraction's sum re-indexed by the one contracted coordinate. -/
theorem sum_contr (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : (⟨2, ![a, K]⟩ : Shape).Idx → EReal) (w : (⟨2, ![K, b]⟩ : Shape).Idx → EReal) (p : Fin a) (q : Fin b) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun c => Fin.ext (by
    match c with
    | ⟨0, _⟩ => exact hl0 _ _
    | ⟨1, _⟩ => exact (hl1 _ _).trans hk)
  have er : D.rhsIdx (ix2 p q) ((contrEquiv1 D K hr hs).symm k) = ix2 k q := funext fun c => Fin.ext (by
    match c with
    | ⟨0, _⟩ => exact (hr0 _ _).trans hk
    | ⟨1, _⟩ => exact hr1 _ _)
  rw [el, er]

/-- A kernel's matrix product into the zero splat, at `(p, q)`: the row of the left operand times the column of the
    right one. -/
theorem matmul_zero_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    matmul D prec x w (constant (F := Ideal) ⟨2, ![a, b]⟩ .f32 0x00000000#32) (ix2 p q)
      = ∑ k : Fin K, x (ix2 p k) * w (ix2 k q) :=
  (Ideal.matmul_constant_zero_apply D prec x w (ix2 p q)).trans (sum_contr D hr hs hl0 hl1 hr0 hr1 x w p q)

/-- The host's matrix product at `(p, q)`: the same sum. -/
theorem dotGeneral_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    Host.dotGeneral D prec x w (ix2 p q) = ∑ k : Fin K, x (ix2 p k) * w (ix2 k q) :=
  (Ideal.dotGeneral_apply D prec .single x w (ix2 p q)).trans (sum_contr D hr hs hl0 hl1 hr0 hr1 x w p q)

end MatmulIx
-- ==== Proof.LibLay3.lean ====
/-
  Readings, at an index given by coordinates, of the layout operations a normalisation over the last axis of a
  rank-three array and a split of a matrix's rows into groups produce; and a row maximum read as a fold.
-/
import Idealize.ShloMosaic.Lib.ValueLayout
import Idealize.ShloMosaic.PureOps.Ideal.Laws
import proofs.«122077_j62234076119080_2_alg».proof.Proof.LibLayout

namespace Cert.GQA.Lay

open Idealize.ShloMosaic Idealize.ShloMosaic.ValueIdx

variable {α : Type}

/-- Rows `0 … c - 1` with `c = a · b` split into `a` groups of `b`: entry `(p, q, k)` is entry `(p · b + q, k)` of the matrix. -/
theorem shapeCast_cd_abd_apply {a b c d : ℕ} (x : (⟨2, ![c, d]⟩ : Shape).Idx → α)
    (h : (⟨2, ![c, d]⟩ : Shape).ShapeCasts ⟨3, ![a, b, d]⟩) (p : Fin a) (q : Fin b) (k : Fin d) (r : Fin c)
    (hr : r.val = p.val * b + q.val) : shapeCast ⟨3, ![a, b, d]⟩ x h (ix3 p q k) = x (ix2 r k) :=
  shapeCast_apply x h _ _ (by
    rw [Shape.rowMajor_val_two, Shape.rowMajor_val_three]
    show r.val * d + k.val = (p.val * b + q.val) * d + k.val
    rw [hr])

/-- A rank-three array cut along its leading axis from `o` reads, at `(j, a, e)`, the source at `(o + j, a, e)`. -/
theorem slice3_axis0_apply {n0 n1 n2 m : ℕ} (o : ℕ) (X : (⟨3, ![n0, n1, n2]⟩ : Shape).Idx → α)
    (h : (⟨3, ![n0, n1, n2]⟩ : Shape).Slices ![o, 0, 0] ⟨3, ![m, n1, n2]⟩)
    (j : Fin m) (a : Fin n1) (e : Fin n2) (k : Fin n0) (hk : k.val = o + j.val) :
    extractStridedSlice ⟨3, ![m, n1, n2]⟩ ![o, 0, 0] X h (ix3 j a e) = X (ix3 k a e) :=
  extractStridedSlice_apply _ _ _ _ _ (fun ax => by
    match ax with
    | ⟨0, _⟩ => exact hk
    | ⟨1, _⟩ => exact (Nat.zero_add _).symm
    | ⟨2, _⟩ => exact (Nat.zero_add _).symm)

/-- A matrix given a trailing unit axis: entry `(p, q, u)` is entry `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- A trailing unit axis broadcast: entry `(p, q, k)` of the `[a, b, d]` array is entry `(p, q, 0)` of the `[a, b, 1]` one. -/
theorem broadcastTo_ab1_abd_apply {a b d : ℕ} (v : (⟨3, ![a, b, 1]⟩ : Shape).Idx → α)
    (h : (⟨3, ![a, b, 1]⟩ : Shape).Broadcasts ⟨3, ![a, b, d]⟩) (p : Fin a) (q : Fin b) (k : Fin d) :
    broadcastTo ⟨3, ![a, b, d]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A vector given two leading unit axes: entry `(u, v, k)` is entry `k`. -/
theorem shapeCast_d_11d_apply {d : ℕ} (x : (⟨1, ![d]⟩ : Shape).Idx → α)
    (h : (⟨1, ![d]⟩ : Shape).ShapeCasts ⟨3, ![1, 1, d]⟩) (u v : Fin 1) (k : Fin d) :
    shapeCast ⟨3, ![1, 1, d]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * d + k.val
    rw [hu, hv]; simp)

/-- Two leading unit axes broadcast: entry `(p, q, k)` of the `[a, b, d]` array is entry `(0, 0, k)` of the `[1, 1, d]` one. -/
theorem broadcastTo_11d_abd_apply {a b d : ℕ} (v : (⟨3, ![1, 1, d]⟩ : Shape).Idx → α)
    (h : (⟨3, ![1, 1, d]⟩ : Shape).Broadcasts ⟨3, ![a, b, d]⟩) (p : Fin a) (q : Fin b) (k : Fin d) :
    broadcastTo ⟨3, ![a, b, d]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if d = 1 then 0 else k.val
    split
    · have := k.isLt; omega
    · rfl

/-- The largest entry of row `p` of an `[a, b]` array of extended reals, taken from the accumulator's value: the fold
    of `max` over the row's entries. -/
theorem rowMax_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] (⟨1, ![a]⟩ : Shape) src acc h hφ hacc (ix1 p)
      = (Finset.univ : Finset (Fin b)).fold max (Ideal.ofBits .f32 acc) (fun k => src (ix2 p k)) := by
  refine (Ideal.multiReduction_maximumf_single src acc h hφ hacc (ix1 p)).trans ?_
  exact congrArg (Finset.fold max (Ideal.ofBits .f32 acc) · (Finset.univ : Finset (Fin b)))
    (funext fun k => congrArg src (Cert.Attn.Layout.lift_row h p k))

end Cert.GQA.Lay
-- ==== Proof.LibRowLsm.lean ====
/-
  Row-wise log-softmax in the form shifted by the row maximum, on the extended reals:
  entry (p, q) of an [a, b] array Y goes to  (Y p q - M p) - log (∑ k, exp (Y p k - M p)),  M p the largest entry of row p
  (the fold of max from ⊥ over the row). The vector unit's spelling of it (two lane reductions, their results cast to a
  column and broadcast along the rows) and the host's spelling (two reductions over axis 1, a further max against a
  splat of -∞, two broadcasts each) both read, at an entry, as that expression.
-/
import Idealize.ShloMosaic.Lib.ValueIdx
import Idealize.ShloMosaic.Lib.ValueLayout
import Idealize.ShloMosaic.Lib.Pipeline.Value
import Idealize.ShloMosaic.PureOps.Ideal.Laws
import proofs.«122077_j62234076119080_2_alg».proof.Proof.LibLayout
import proofs.«122077_j62234076119080_2_alg».proof.Proof.LibLay3

noncomputable section

namespace Cert.RowLsm

open Idealize.ShloMosaic Idealize.ShloMosaic.ValueIdx

/-- The largest entry of row `p`, taken from `⊥`. -/
def rowMax {a b : ℕ} (Y : (⟨2, ![a, b]⟩ : Shape).Idx → EReal) (p : Fin a) : EReal :=
  (Finset.univ : Finset (Fin b)).fold max ⊥ (fun k => Y (ix2 p k))

/-- Log-softmax of row `p` at column `q`, shifted by the row's largest entry. -/
def lsm {a b : ℕ} (Y : (⟨2, ![a, b]⟩ : Shape).Idx → EReal) (p : Fin a) (q : Fin b) : EReal :=
  (Y (ix2 p q) - rowMax Y p) - Ideal.log (∑ k : Fin b, Ideal.exp (Y (ix2 p k) - rowMax Y p))

/-- The float pattern of -∞ is `⊥`. -/
theorem ofBits_neg_inf : Ideal.ofBits .f32 0xFF800000#32 = ⊥ := by simp [Ideal.ofBits, Ideal.ieee]

/-- The vector unit's row maximum, cast to a column and broadcast along the rows, is `rowMax` at every entry of the row. -/
theorem vec_rowMax {a b : ℕ} (v : FVec Ideal ⟨2, ![a, b]⟩ .f32)
    (hred : (⟨2, ![a, b]⟩ : Shape).Reduces [1] (⟨1, ![a]⟩ : Shape)) (hφ : FKind.Formats .f32)
    (hmax : (0xFF800000#32 : BitVec 32) = FKind.maximumf.neutral .f32 hφ)
    (hcast : (⟨1, ![a]⟩ : Shape).ShapeCasts ⟨2, ![a, 1]⟩)
    (hbc : (⟨2, ![a, 1]⟩ : Shape).Broadcasts ⟨2, ![a, b]⟩) (p : Fin a) (c : Fin b) :
    broadcastTo ⟨2, ![a, b]⟩ (shapeCast ⟨2, ![a, 1]⟩
      (multiReduction .maximumf [1] (⟨1, ![a]⟩ : Shape) v 0xFF800000#32 hred hφ hmax) hcast) hbc (ix2 p c) = rowMax v p := by
  rw [Cert.Attn.Layout.broadcastTo_a1_ab_apply, Cert.Attn.Layout.shapeCast_a_a1_apply, Cert.GQA.Lay.rowMax_apply,
    ofBits_neg_inf]
  rfl

/-- THE VECTOR UNIT'S SPELLING at an entry. -/
theorem vec_lsm {a b : ℕ} (v : FVec Ideal ⟨2, ![a, b]⟩ .f32)
    (hred : (⟨2, ![a, b]⟩ : Shape).Reduces [1] (⟨1, ![a]⟩ : Shape)) (hφ : FKind.Formats .f32)
    (hmax : (0xFF800000#32 : BitVec 32) = FKind.maximumf.neutral .f32 hφ)
    (hadd : (0x00000000#32 : BitVec 32) = FKind.add.neutral .f32 hφ)
    (hcast : (⟨1, ![a]⟩ : Shape).ShapeCasts ⟨2, ![a, 1]⟩)
    (hbc : (⟨2, ![a, 1]⟩ : Shape).Broadcasts ⟨2, ![a, b]⟩) (p : Fin a) (q : Fin b) :
    subf (subf v (broadcastTo ⟨2, ![a, b]⟩ (shapeCast ⟨2, ![a, 1]⟩
        (multiReduction .maximumf [1] (⟨1, ![a]⟩ : Shape) v 0xFF800000#32 hred hφ hmax) hcast) hbc))
      (broadcastTo ⟨2, ![a, b]⟩ (log (shapeCast ⟨2, ![a, 1]⟩
        (multiReduction .add [1] (⟨1, ![a]⟩ : Shape)
          (exp (subf v (broadcastTo ⟨2, ![a, b]⟩ (shapeCast ⟨2, ![a, 1]⟩
            (multiReduction .maximumf [1] (⟨1, ![a]⟩ : Shape) v 0xFF800000#32 hred hφ hmax) hcast) hbc)))
          0x00000000#32 hred hφ hadd) hcast)) hbc) (ix2 p q)
      = lsm v p q := by
  rw [subf_apply, subf_apply, vec_rowMax, Cert.Attn.Layout.broadcastTo_a1_ab_apply]
  show _ - Ideal.log (shapeCast ⟨2, ![a, 1]⟩ _ hcast (ix2 p (0 : Fin 1))) = _
  rw [Cert.Attn.Layout.shapeCast_a_a1_apply, Cert.Attn.Layout.rowSum_apply]
  unfold lsm
  refine congrArg (fun s => (v (ix2 p q) - rowMax v p) - Ideal.log s) (Finset.sum_congr rfl fun k _ => ?_)
  show Ideal.exp (v (ix2 p k) - _) = _
  rw [vec_rowMax]

end Cert.RowLsm

end
-- ==== Proof.LibRowSoftmax.lean ====
/-
  Row-wise softmax in the form shifted by the row maximum, on the extended reals: entry (p, q) of an [a, b] array Y
  goes to  exp (Y p q - M p) / ∑ k, exp (Y p k - M p),  M p the largest entry of row p (the fold of max from ⊥ over
  the row), the quotient the extended reals' total one. The value at (p, q) depends on row p only, so a block of rows
  cut out of a taller array has, row by row, the softmax of the taller array's rows.
-/
import proofs.«122077_j62234076119080_2_alg».proof.Proof.LibRowLsm

noncomputable section

namespace Cert.RowSoftmax

open Idealize.ShloMosaic Idealize.ShloMosaic.ValueIdx Cert.RowLsm

/-- Softmax of row `p` at column `q`, shifted by the row's largest entry. -/
def sm {a b : ℕ} (Y : (⟨2, ![a, b]⟩ : Shape).Idx → EReal) (p : Fin a) (q : Fin b) : EReal :=
  Ideal.div (Ideal.exp (Y (ix2 p q) - rowMax Y p)) (∑ k : Fin b, Ideal.exp (Y (ix2 p k) - rowMax Y p))

/-- The largest entry of a row depends on that row only. -/
theorem rowMax_congr {a a' b : ℕ} (Y : (⟨2, ![a, b]⟩ : Shape).Idx → EReal) (Y' : (⟨2, ![a', b]⟩ : Shape).Idx → EReal)
    (p : Fin a) (p' : Fin a') (h : ∀ k : Fin b, Y (ix2 p k) = Y' (ix2 p' k)) : rowMax Y p = rowMax Y' p' := by
  unfold rowMax
  exact congrArg (Finset.fold max ⊥ · (Finset.univ : Finset (Fin b))) (funext h)

/-- The softmax of a row depends on that row only. -/
theorem sm_congr {a a' b : ℕ} (Y : (⟨2, ![a, b]⟩ : Shape).Idx → EReal) (Y' : (⟨2, ![a', b]⟩ : Shape).Idx → EReal)
    (p : Fin a) (p' : Fin a') (h : ∀ k : Fin b, Y (ix2 p k) = Y' (ix2 p' k)) (q : Fin b) : sm Y p q = sm Y' p' q := by
  unfold sm
  rw [rowMax_congr Y Y' p p' h, h q]
  exact congrArg (Ideal.div _) (Finset.sum_congr rfl fun k _ => by rw [h k])

end Cert.RowSoftmax

end
-- ==== Proof.LibVecSoftmax.lean ====
/-
  Row-wise softmax in the form shifted by the row maximum, in the vector unit's spelling: the row maximum (a lane
  reduction by max from -∞, cast to a column and broadcast along the rows) is subtracted, the exponential taken, and
  the result divided entrywise by its own row sums (a lane reduction by + from 0, cast to a column and broadcast along
  the rows). Read at an entry (p, q) this is  exp (v p q - M p) / ∑ k, exp (v p k - M p),  M p the largest entry of row p.
-/
import proofs.«122077_j62234076119080_2_alg».proof.Proof.LibRowSoftmax

noncomputable section

namespace Cert.RowSoftmax

open Idealize.ShloMosaic Idealize.ShloMosaic.ValueIdx Cert.RowLsm

/-- THE VECTOR UNIT'S SPELLING of the shifted softmax at an entry: the exponential of the array less its broadcast row
    maximum, divided by the broadcast column of that exponential's row sums, is `sm`. -/
theorem vec_sm {a b : ℕ} (v : FVec Ideal ⟨2, ![a, b]⟩ .f32)
    (hred : (⟨2, ![a, b]⟩ : Shape).Reduces [1] (⟨1, ![a]⟩ : Shape)) (hφ : FKind.Formats .f32)
    (hmax : (0xFF800000#32 : BitVec 32) = FKind.maximumf.neutral .f32 hφ)
    (hadd : (0x00000000#32 : BitVec 32) = FKind.add.neutral .f32 hφ)
    (hcast : (⟨1, ![a]⟩ : Shape).ShapeCasts ⟨2, ![a, 1]⟩)
    (hbc : (⟨2, ![a, 1]⟩ : Shape).Broadcasts ⟨2, ![a, b]⟩) (p : Fin a) (q : Fin b) :
    divf (exp (subf v (broadcastTo ⟨2, ![a, b]⟩ (shapeCast ⟨2, ![a, 1]⟩
        (multiReduction .maximumf [1] (⟨1, ![a]⟩ : Shape) v 0xFF800000#32 hred hφ hmax) hcast) hbc)))
      (broadcastTo ⟨2, ![a, b]⟩ (shapeCast ⟨2, ![a, 1]⟩
        (multiReduction .add [1] (⟨1, ![a]⟩ : Shape)
          (exp (subf v (broadcastTo ⟨2, ![a, b]⟩ (shapeCast ⟨2, ![a, 1]⟩
            (multiReduction .maximumf [1] (⟨1, ![a]⟩ : Shape) v 0xFF800000#32 hred hφ hmax) hcast) hbc)))
          0x00000000#32 hred hφ hadd) hcast) hbc) (ix2 p q)
      = sm v p q := by
  rw [divf_apply, Cert.Attn.Layout.broadcastTo_a1_ab_apply, Cert.Attn.Layout.shapeCast_a_a1_apply,
    Cert.Attn.Layout.rowSum_apply]
  unfold sm
  have he : ∀ k : Fin b, exp (subf v (broadcastTo ⟨2, ![a, b]⟩ (shapeCast ⟨2, ![a, 1]⟩
      (multiReduction .maximumf [1] (⟨1, ![a]⟩ : Shape) v 0xFF800000#32 hred hφ hmax) hcast) hbc)) (ix2 p k)
        = Ideal.exp (v (ix2 p k) - rowMax v p) := fun k => by
    show Ideal.exp (subf v _ (ix2 p k)) = _
    rw [subf_apply, vec_rowMax]
  rw [he q]
  exact congrArg (Ideal.div _) (Finset.sum_congr rfl fun k _ => he k)

end Cert.RowSoftmax

end
-- ==== Proof.Spec.lean ====
/-
  Multi-head self-attention over a batch, as ONE function of the argument arrays, entry by entry, on the extended reals.

  With x : [4, 2048, 1024], four square weight matrices w : [1024, 1024] (applied as x · wᵀ) and four bias vectors:
    proj x w b (n, s, e)      = (∑ d, x (n, s, d) · w (e, d)) + b e                        -- a linear layer
    scores (n, h) (q, k)      = (∑ d < 64, Q (n, q, 64 h + d) · K (n, k, 64 h + d)) · 1/8   -- head h of 16, scaled
    head (n, h) (q, d)        = ∑ k, softmax-of-row-q (scores (n, h)) k · V (n, k, 64 h + d)
    merged (n, s, 64 h + d)   = head (n, h) (s, d)                                         -- heads side by side
    result (n, s, e)          = (∑ j, merged (n, s, j) · wo (e, j)) + bo e
  The softmax of a row is the one shifted by the row's largest entry (exp (y - M) / ∑ exp (y - M)). The factor 1/8 is
  kept as the float word both programs print (0x3E000000), never evaluated.
-/
import Idealize.ShloMosaic.Lib.ValueIdx
import Idealize.ShloMosaic.PureOps.Ideal
import proofs.«122077_j62234076119080_2_alg».proof.Proof.LibRowSoftmax

noncomputable section

namespace Cert.MHA

open Idealize.ShloMosaic Idealize.ShloMosaic.ValueIdx

/-- The activations, a weight matrix, a bias vector. -/
abbrev Act : Type := (⟨3, ![4, 2048, 1024]⟩ : Shape).Idx → EReal
abbrev Mat : Type := (⟨2, ![1024, 1024]⟩ : Shape).Idx → EReal
abbrev Bias : Type := (⟨1, ![1024]⟩ : Shape).Idx → EReal

/-- Column `64 h + d` of the model width: entry `d` of head `h`. -/
def col (h : Fin 16) (d : Fin 64) : Fin 1024 := ⟨h.val * 64 + d.val, by omega⟩

/-- The head and the entry within it of a column of the model width. -/
def headOf (j : Fin 1024) : Fin 16 := ⟨j.val / 64, by omega⟩
def entryOf (j : Fin 1024) : Fin 64 := ⟨j.val % 64, by omega⟩

theorem col_headOf_entryOf (j : Fin 1024) : col (headOf j) (entryOf j) = j :=
  Fin.ext (by show j.val / 64 * 64 + j.val % 64 = j.val; omega)

/-- A linear layer `x · wᵀ + b` at `(n, s, e)`. -/
def proj (x : Act) (w : Mat) (b : Bias) (n : Fin 4) (s : Fin 2048) (e : Fin 1024) : EReal :=
  (∑ d : Fin 1024, x (ix3 n s d) * w (ix2 e d)) + b (ix1 e)

/-- The scale `1/8`, as the float word the programs print. -/
def scale : EReal := Ideal.ofBits .f32 0x3E000000#32

/-- The scaled scores of batch entry `n`, head `h`: queries down, keys across. -/
def scores (x : Act) (wq : Mat) (bq : Bias) (wk : Mat) (bk : Bias) (n : Fin 4) (h : Fin 16) :
    (⟨2, ![2048, 2048]⟩ : Shape).Idx → EReal :=
  fun i => (∑ d : Fin 64, proj x wq bq n (i 0) (col h d) * proj x wk bk n (i 1) (col h d)) * scale

/-- Head `h`'s output at query `q`, entry `d`: the softmax-weighted sum of the values. -/
def head (x : Act) (wq : Mat) (bq : Bias) (wk : Mat) (bk : Bias) (wv : Mat) (bv : Bias)
    (n : Fin 4) (h : Fin 16) (q : Fin 2048) (d : Fin 64) : EReal :=
  ∑ k : Fin 2048, Cert.RowSoftmax.sm (scores x wq bq wk bk n h) q k * proj x wv bv n k (col h d)

/-- The heads' outputs side by side along the model width. -/
def merged (x : Act) (wq : Mat) (bq : Bias) (wk : Mat) (bk : Bias) (wv : Mat) (bv : Bias)
    (n : Fin 4) (s : Fin 2048) (j : Fin 1024) : EReal :=
  head x wq bq wk bk wv bv n (headOf j) s (entryOf j)

/-- The whole layer: the output projection of the merged heads. -/
def result (x : Act) (wq : Mat) (bq : Bias) (wk : Mat) (bk : Bias) (wv : Mat) (bv : Bias) (wo : Mat) (bo : Bias) : Act :=
  fun i => (∑ j : Fin 1024, merged x wq bq wk bk wv bv (i 0) (i 1) j * wo (ix2 (i 2) j)) + bo (ix1 (i 2))

end Cert.MHA

end
-- ==== Proof.BodyMath.lean ====
/-
  The three kernel bodies' arithmetic read at an entry, at the ideal values: each linear kernel's stored block is the
  matrix product of its activation block with its weight block plus the bias row; each half of the attention kernel's
  stored block is one head's softmax-weighted sum of the values, the scores being the scaled products of the head's
  queries with its keys.
-/
import proofs.«122077_j62234076119080_2_alg».proof.Proof.Gen.KernelIdeal.Skeleton
import proofs.«122077_j62234076119080_2_alg».proof.Proof.LibLayout
import proofs.«122077_j62234076119080_2_alg».proof.Proof.LibMatmulIx
import proofs.«122077_j62234076119080_2_alg».proof.Proof.LibVecSoftmax
import proofs.«122077_j62234076119080_2_alg».proof.Proof.Spec
import Idealize.ShloMosaic.Lib.Pipeline.Value

noncomputable section

namespace Cert.KernelIdeal.BodyMath

open Cert.KernelIdeal Cert.KernelIdeal.Gen Idealize.ShloMosaic Idealize.ShloMosaic.ValueIdx

/-- A row `[1, b]` broadcast to `[a, b]` reads, at `(p, q)`, the row's entry of column `q`. -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- A product of an `[a, K]` array with a `[K, b]` array into the zero splat, the dimension numbers contracting the
    left operand's columns with the right operand's rows, at `(p, q)`: the row times the column. -/
theorem matmul_plain {a K b : ℕ} {φ₁ φ₂ : FTy}
    (wf : DotDims.WF ⟨2, ![a, K]⟩ ⟨2, ![K, b]⟩ ⟨2, ![a, b]⟩ [1] [0] [0] [1] [] [])
    (prec : Option ContractPrecision) (x : FVec Ideal ⟨2, ![a, K]⟩ φ₁) (w : FVec Ideal ⟨2, ![K, b]⟩ φ₂)
    (p : Fin a) (q : Fin b) :
    matmul (⟨[1], [0], [0], [1], [], [], wf⟩ : DotDims ⟨2, ![a, K]⟩ ⟨2, ![K, b]⟩ ⟨2, ![a, b]⟩) prec x w
        (constant (F := Ideal) ⟨2, ![a, b]⟩ .f32 0x00000000#32) (ix2 p q)
      = ∑ k : Fin K, x (ix2 p k) * w (ix2 k q) :=
  MatmulIx.matmul_zero_ix2 _ rfl rfl
    (fun i c => by simp [DotDims.lhsIdx]; rfl) (fun i c => by simp [DotDims.lhsIdx]; rfl)
    (fun i c => by simp [DotDims.rhsIdx]; rfl) (fun i c => by simp [DotDims.rhsIdx]; rfl) prec x w p q

/-! ## The two linear kernels -/

/-- The first linear kernel's stored block at `(p, q)`: row `p` of the activations times column `q` of the weights,
    plus the bias row's entry `q` (the two roundings to the narrower format are the identity on extended reals). -/
theorem k0_pay1_apply (x : Vec Ideal S512x1024 .f32) (w : Vec Ideal S1024x3072 .bf16) (b : Vec Ideal S1x3072 .f32)
    (p : Fin 512) (q : Fin 3072) :
    k0_pay1 (F := Ideal) x w b (ix2 p q)
      = (∑ k : Fin 1024, x (ix2 p k) * w (ix2 k q)) + b (ix2 (0 : Fin 1) q) := by
  show matmul dot_S512x1024_S1024x3072_S512x3072_1_0_0_1_n_n none
        (truncf .bf16 (shapeCast S512x1024 x Facts₀.shapeCasts_S512x1024_S512x1024) Facts₀.bitsLt_bf16_f32)
        (shapeCast S1024x3072 w Facts₀.shapeCasts_S1024x3072_S1024x3072)
        (constant (F := Ideal) S512x3072 .f32 0x00000000#32) (ix2 p q)
      + broadcastTo S512x3072 (shapeCast S1x3072 b Facts₀.shapeCasts_S1x3072_S1x3072)
          Facts₀.broadcasts_S1x3072_S512x3072 (ix2 p q) = _
  rw [shapeCast_self, shapeCast_self, shapeCast_self, broadcastTo_1b_ab_apply]
  exact congrArg (· + b (ix2 (0 : Fin 1) q)) (matmul_plain _ none _ w p q)

/-- The last linear kernel's stored block at `(p, q)`: row `p` of the merged heads times column `q` of the weights,
    plus the bias row's entry `q`. -/
theorem k2_pay1_apply (a : Vec Ideal S512x1024 .bf16) (w : Vec Ideal S1024x1024 .bf16) (b : Vec Ideal S1x1024 .f32)
    (p : Fin 512) (q : Fin 1024) :
    k2_pay1 (F := Ideal) a w b (ix2 p q)
      = (∑ k : Fin 1024, a (ix2 p k) * w (ix2 k q)) + b (ix2 (0 : Fin 1) q) := by
  show matmul dot_S512x1024_S1024x1024_S512x1024_1_0_0_1_n_n none
        (shapeCast S512x1024 a Facts₀.shapeCasts_S512x1024_S512x1024)
        (shapeCast S1024x1024 w Facts₀.shapeCasts_S1024x1024_S1024x1024)
        (constant (F := Ideal) S512x1024 .f32 0x00000000#32) (ix2 p q)
      + broadcastTo S512x1024 (shapeCast S1x1024 b Facts₀.shapeCasts_S1x1024_S1x1024)
          Facts₀.broadcasts_S1x1024_S512x1024 (ix2 p q) = _
  rw [shapeCast_self, shapeCast_self, shapeCast_self, broadcastTo_1b_ab_apply]
  exact congrArg (· + b (ix2 (0 : Fin 1) q)) (matmul_plain _ none a w p q)

/-! ## The attention kernel: one head on a block of 256 queries against 2048 keys -/

/-- A `[a, b]` array transposed to `[b, a]` reads, at `(p, q)`, the source at `(q, p)`. -/
theorem transpose_ab_ba_apply {α : Type} {a b : ℕ} (x : (⟨2, ![a, b]⟩ : Shape).Idx → α)
    (h : (⟨2, ![a, b]⟩ : Shape).Transposes [1, 0] ⟨2, ![b, a]⟩) (p : Fin b) (q : Fin a) :
    transpose ⟨2, ![b, a]⟩ [1, 0] x h (ix2 p q) = x (ix2 q p) := by
  refine transpose_apply [1, 0] x h (ix2 p q) (ix2 q p) fun c => ?_
  match c with
  | ⟨0, _⟩ => rfl
  | ⟨1, _⟩ => rfl

/-- The scaled scores of the block: query `i 0` against key `i 1`, the sum over the head's 64 entries of the products,
    times the scale. -/
def blockScores (qb : Vec Ideal S256x64 .bf16) (kb : Vec Ideal S2048x64 .bf16) :
    (⟨2, ![256, 2048]⟩ : Shape).Idx → EReal :=
  fun i => (∑ e : Fin 64, qb (ix2 (i 0) e) * kb (ix2 (i 1) e)) * Cert.MHA.scale

/-- The kernel's spelling of the scaled scores: the queries times the transposed keys, times the splat of the scale. -/
def vscores (qb : Vec Ideal S256x64 .bf16) (kb : Vec Ideal S2048x64 .bf16) : FVec Ideal S256x2048 .f32 :=
  mulf (matmul dot_S256x64_S64x2048_S256x2048_1_0_0_1_n_n none
      (shapeCast S256x64 qb Facts₀.shapeCasts_S256x64_S256x64 : FVec Ideal S256x64 .bf16)
      (transpose S64x2048 [1, 0] (shapeCast S2048x64 kb Facts₀.shapeCasts_S2048x64_S2048x64 : FVec Ideal S2048x64 .bf16)
        Facts₀.transposes_S2048x64_p1_0_S64x2048 : FVec Ideal S64x2048 .bf16)
      (constant (F := Ideal) S256x2048 .f32 0x00000000#32))
    (broadcast S256x2048 (Scalar.ofBits (F := Ideal) .f32 0x3E000000#32))

/-- The kernel's scaled scores are the block's scaled scores, entry by entry. -/
theorem vscores_eq (qb : Vec Ideal S256x64 .bf16) (kb : Vec Ideal S2048x64 .bf16) :
    vscores qb kb = blockScores qb kb := by
  funext i
  rw [eq_ix2 i]
  generalize (i 0 : Fin 256) = p
  generalize (i 1 : Fin 2048) = j
  show matmul dot_S256x64_S64x2048_S256x2048_1_0_0_1_n_n none
      (shapeCast S256x64 qb Facts₀.shapeCasts_S256x64_S256x64 : FVec Ideal S256x64 .bf16)
      (transpose S64x2048 [1, 0] (shapeCast S2048x64 kb Facts₀.shapeCasts_S2048x64_S2048x64 : FVec Ideal S2048x64 .bf16)
        Facts₀.transposes_S2048x64_p1_0_S64x2048 : FVec Ideal S64x2048 .bf16)
      (constant (F := Ideal) S256x2048 .f32 0x00000000#32) (ix2 p j) * Cert.MHA.scale
    = (∑ e : Fin 64, qb (ix2 p e) * kb (ix2 j e)) * Cert.MHA.scale
  rw [shapeCast_self, shapeCast_self]
  refine congrArg (· * Cert.MHA.scale) ((matmul_plain _ none qb _ p j).trans ?_)
  exact Finset.sum_congr rfl fun e _ => congrArg (qb (ix2 p e) * ·) (transpose_ab_ba_apply kb _ e j)

/-- The exponential of an array less its broadcast row maximum, in the vector unit's spelling (a lane reduction by max
    from -∞, cast to a column and broadcast along the rows). -/
def expShift (V : FVec Ideal S256x2048 .f32) : FVec Ideal S256x2048 .f32 :=
  exp (subf V (broadcastTo S256x2048 (shapeCast S256x1
    (multiReduction .maximumf [1] S256 V 0xFF800000#32 Facts₀.reduces_S256x2048_S256 (.inl rfl) rfl)
    Facts₀.shapeCasts_S256_S256x1) Facts₀.broadcasts_S256x1_S256x2048))

/-- An array divided entrywise by its own row sums, in the vector unit's spelling (a lane reduction by + from 0, cast to
    a column and broadcast along the rows). -/
def rowNormalise (E : FVec Ideal S256x2048 .f32) : FVec Ideal S256x2048 .f32 :=
  divf E (broadcastTo S256x2048 (shapeCast S256x1
    (multiReduction .add [1] S256 E 0x00000000#32 Facts₀.reduces_S256x2048_S256 (.inl rfl) rfl)
    Facts₀.shapeCasts_S256_S256x1) Facts₀.broadcasts_S256x1_S256x2048)

/-- The shifted exponential divided by its row sums is the softmax of the rows. -/
theorem rowNormalise_expShift_apply (V : FVec Ideal S256x2048 .f32) (p : Fin 256) (j : Fin 2048) :
    rowNormalise (expShift V) (ix2 p j) = Cert.RowSoftmax.sm V p j :=
  Cert.RowSoftmax.vec_sm V _ _ _ _ _ _ p j

/-- The weights times the values at `(p, d)`: row `p` of the weights against column `d` of the values (the rounding of
    the weights to the narrower format is the identity on extended reals). -/
theorem weights_values_apply (P : FVec Ideal S256x2048 .f32) (vb : Vec Ideal S2048x64 .bf16) (p : Fin 256) (d : Fin 64) :
    matmul dot_S256x2048_S2048x64_S256x64_1_0_0_1_n_n none
        (truncf .bf16 P Facts₀.bitsLt_bf16_f32 : FVec Ideal S256x2048 .bf16)
        (shapeCast S2048x64 vb Facts₀.shapeCasts_S2048x64_S2048x64 : FVec Ideal S2048x64 .bf16)
        (constant (F := Ideal) S256x64 .f32 0x00000000#32) (ix2 p d)
      = ∑ j : Fin 2048, P (ix2 p j) * vb (ix2 j d) := by
  rw [shapeCast_self]
  exact matmul_plain _ none _ vb p d

/-- One head on the block: the softmax of the scaled scores' rows, times the values. -/
theorem head_apply (qb : Vec Ideal S256x64 .bf16) (kb vb : Vec Ideal S2048x64 .bf16) (p : Fin 256) (d : Fin 64) :
    matmul dot_S256x2048_S2048x64_S256x64_1_0_0_1_n_n none
        (truncf .bf16 (rowNormalise (expShift (vscores qb kb))) Facts₀.bitsLt_bf16_f32 : FVec Ideal S256x2048 .bf16)
        (shapeCast S2048x64 vb Facts₀.shapeCasts_S2048x64_S2048x64 : FVec Ideal S2048x64 .bf16)
        (constant (F := Ideal) S256x64 .f32 0x00000000#32) (ix2 p d)
      = ∑ j : Fin 2048, Cert.RowSoftmax.sm (blockScores qb kb) p j * vb (ix2 j d) := by
  refine (weights_values_apply _ vb p d).trans (Finset.sum_congr rfl fun j _ => ?_)
  rw [rowNormalise_expShift_apply, vscores_eq]

/-- The value the attention kernel stores for its first head, over the query, key and value blocks loaded for that head,
    at `(p, d)`: the head's softmax-weighted sum of the values. -/
theorem k1_pay1_apply (qb : Vec Ideal S256x64 .bf16) (kb vb : Vec Ideal S2048x64 .bf16) (p : Fin 256) (d : Fin 64) :
    k1_pay1 (F := Ideal) (k1_pay3 qb kb vb) (ix2 p d)
      = ∑ j : Fin 2048, Cert.RowSoftmax.sm (blockScores qb kb) p j * vb (ix2 j d) :=
  head_apply qb kb vb p d

/-- The value the attention kernel stores for its second head (the exponentials and the values carried to the store,
    normalised and multiplied there), over the blocks loaded for that head, at `(p, d)`: the same expression. -/
theorem k1_pay2_apply (qb : Vec Ideal S256x64 .bf16) (kb vb : Vec Ideal S2048x64 .bf16) (p : Fin 256) (d : Fin 64) :
    k1_pay2 (F := Ideal) (k1_pay4 vb) (k1_pay5 qb kb) (ix2 p d)
      = ∑ j : Fin 2048, Cert.RowSoftmax.sm (blockScores qb kb) p j * vb (ix2 j d) :=
  head_apply qb kb vb p d

end Cert.KernelIdeal.BodyMath

end
-- ==== Proof.ProjValue.lean ====
/-
  From blocks to the array, for the two linear kernels. Each of the sixteen grid points stores ONE whole block of 512
  rows of its output array: the product of the point's 512-row block of the activations with the whole weight, plus
  the bias row. Point t's activation block and output block are both rows 512 t … 512 t + 511, the weight's and the
  bias's blocks are the whole arrays at every point, and the sixteen output blocks tile the 8192 rows (row r is in
  point r / 512's block). So after the region the output array holds, at (r, q), the product of row r of the
  activations with column q of the weight plus entry q of the bias row.
-/
import proofs.«122077_j62234076119080_2_alg».proof.Proof.ProjQKV
import proofs.«122077_j62234076119080_2_alg».proof.Proof.ProjOut
import proofs.«122077_j62234076119080_2_alg».proof.Proof.BodyMath
import Idealize.ShloMosaic.Lib.Pipeline.Value
import Idealize.ShloMosaic.Lib.ValueIdx

set_option maxRecDepth 16384

noncomputable section

namespace Cert.KernelIdeal.Arrays

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Run

/-- A linear layer on matrices: x · w plus the bias row, at (i 0, i 1). -/
def lin2 {a K b : ℕ} (x : (⟨2, ![a, K]⟩ : Shape).Idx → EReal) (w : (⟨2, ![K, b]⟩ : Shape).Idx → EReal)
    (bias : (⟨2, ![1, b]⟩ : Shape).Idx → EReal) : (⟨2, ![a, b]⟩ : Shape).Idx → EReal :=
  fun i => (∑ k : Fin K, x (ix2 (i 0) k) * w (ix2 k (i 1))) + bias (ix2 (0 : Fin 1) (i 1))

theorem hz : (![0, 0] : Fin 2 → Nat) = fun _ => 0 := funext fun a => by fin_cases a <;> rfl

-- the TensorCore's buffer contents when the region is entered
variable (V : (c : Dev nD) → (b : Ref sig .tc) → Buf (Elt Ideal) ((c : Thread nD τ).loc b))

/-! ## The first kernel: queries, keys and values at once -/

/-- The printed index maps over the grid: point t's activation and output blocks are block row t, the weight's and
    the bias's are block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Point t's block of the activations is rows 512 t … 512 t + 511 of the array. -/
theorem blk0_x_apply (c : Dev nD) (t : Fin cfg0.N) (p : Fin 512) (k : Fin 1024) (r : Fin 8192) (hr : r.val = t.val * 512 + p.val) :
    (blk0 V c 0 t : Vec Ideal S512x1024 .f32) (ix2 p k) = (V c main_v0 : S8192x1024.Idx → EReal) (ix2 r k) := by
  obtain ⟨e0, e1, -⟩ := idx_facts0 t
  unfold blk0
  rw [View.read_apply]
  show V c main_v0 (((cfg0.win 0).blk t).view.emb (ix2 p k)) = V c main_v0 (ix2 r k)
  refine congrArg (V c main_v0) (funext fun a => Fin.ext ?_)
  match a with
  | ⟨0, _⟩ => show win0_0.index t (0 : Fin 2) * 512 + 1 * p.val = r.val; rw [e0, hr]; omega
  | ⟨1, _⟩ => show win0_0.index t (1 : Fin 2) * 1024 + 1 * k.val = k.val; rw [e1]; omega

/-- Every point's block of the weight is the whole weight. -/
theorem blk0_w_apply (c : Dev nD) (t : Fin cfg0.N) (k : Fin 1024) (q : Fin 3072) :
    (blk0 V c 1 t : Vec Ideal S1024x3072 .bf16) (ix2 k q) = (V c main_v5 : S1024x3072.Idx → EReal) (ix2 k q) := by
  obtain ⟨-, -, e2, e3, -⟩ := idx_facts0 t
  unfold blk0
  rw [View.read_apply]
  show V c main_v5 (((cfg0.win 1).blk t).view.emb (ix2 k q)) = V c main_v5 (ix2 k q)
  refine congrArg (V c main_v5) (funext fun a => Fin.ext ?_)
  match a with
  | ⟨0, _⟩ => show win0_1.index t (0 : Fin 2) * 1024 + 1 * k.val = k.val; rw [e2]; omega
  | ⟨1, _⟩ => show win0_1.index t (1 : Fin 2) * 3072 + 1 * q.val = q.val; rw [e3]; omega

/-- Every point's block of the bias row is the whole row. -/
theorem blk0_b_apply (c : Dev nD) (t : Fin cfg0.N) (z : Fin 1) (q : Fin 3072) :
    (blk0 V c 2 t : Vec Ideal S1x3072 .f32) (ix2 z q) = (V c main_v7 : S1x3072.Idx → EReal) (ix2 z q) := by
  obtain ⟨-, -, -, -, e4, e5, -⟩ := idx_facts0 t
  unfold blk0
  rw [View.read_apply]
  show V c main_v7 (((cfg0.win 2).blk t).view.emb (ix2 z q)) = V c main_v7 (ix2 z q)
  refine congrArg (V c main_v7) (funext fun a => Fin.ext ?_)
  match a with
  | ⟨0, _⟩ => show win0_2.index t (0 : Fin 2) * 1 + 1 * z.val = z.val; rw [e4]; omega
  | ⟨1, _⟩ => show win0_2.index t (1 : Fin 2) * 3072 + 1 * q.val = q.val; rw [e5]; omega

/-- WHAT POINT t WRITES BACK is block t of the linear layer of the three arrays as the region finds them. -/
theorem flushed0_eq
    (hpay : ∀ (x : Vec Ideal S512x1024 .f32) (w : Vec Ideal S1024x3072 .bf16) (b : Vec Ideal S1x3072 .f32) (p : Fin 512) (q : Fin 3072),
      k0_pay1 (F := Ideal) x w b (ix2 p q) = (∑ k : Fin 1024, x (ix2 p k) * w (ix2 k q)) + b (ix2 (0 : Fin 1) q))
    (c : Dev nD) (t : Fin cfg0.N) :
    (dat0 (F := Ideal) V c).flushed 3 t
      = ((cfg0.win 3).blk t).view.read (Elt Ideal) (lin2 (V c main_v0) (V c main_v5) (V c main_v7)) := by
  show (cfg0.win 3).cut (grid0.coords t) ((dat0 (F := Ideal) V c).after 3 t) = _
  rw [after0_3]
  unfold out0
  rw [View.canon_unit_zero hz]
  simp only [View.ld_unit_zero (S := S512x1024) hz, View.ld_unit_zero (S := S1024x3072) hz, View.ld_unit_zero (S := S1x3072) hz]
  funext j
  obtain ⟨p, q, rfl⟩ : ∃ (p : Fin 512) (q : Fin 3072), j = ix2 p q := ⟨j 0, j 1, eq_ix2 (n0 := 512) (n1 := 3072) j⟩
  have ht : t.val < 16 := lt_of_lt_of_eq t.isLt N_0
  have hp := p.isLt
  obtain ⟨r, hr⟩ : ∃ r : Fin 8192, r.val = t.val * 512 + p.val := ⟨⟨t.val * 512 + p.val, by omega⟩, rfl⟩
  have e3 : ((cfg0.win 3).blk t).view.emb (ix2 p q) = (ix2 r q : S8192x3072.Idx) := by
    obtain ⟨-, -, -, -, -, -, e6, e7⟩ := idx_facts0 t
    refine funext fun a => Fin.ext ?_
    match a with
    | ⟨0, _⟩ => show win0_3.index t (0 : Fin 2) * 512 + 1 * p.val = r.val; rw [e6, hr]; omega
    | ⟨1, _⟩ => show win0_3.index t (1 : Fin 2) * 3072 + 1 * q.val = q.val; rw [e7]; omega
  show k0_pay1 (F := Ideal) (blk0 V c 0 t) (blk0 V c 1 t) (blk0 V c 2 t) (ix2 p q)
    = lin2 (V c main_v0) (V c main_v5) (V c main_v7) (((cfg0.win 3).blk t).view.emb (ix2 p q))
  refine (hpay (blk0 V c 0 t) (blk0 V c 1 t) (blk0 V c 2 t) p q).trans ?_
  refine Eq.trans ?_ (congrArg (lin2 (V c main_v0) (V c main_v5) (V c main_v7)) e3).symm
  unfold lin2
  refine congrArg₂ (· + ·) (Finset.sum_congr rfl fun k _ => ?_) ?_
  · exact congrArg₂ (· * ·) (blk0_x_apply V c t p k r hr) (blk0_w_apply V c t k q)
  · exact blk0_b_apply V c t 0 q

/-- An index of the output array is in point t's block iff each coordinate is in the block's range on its axis. -/
theorem mem_blk0 (t : Fin cfg0.N) (i : S8192x3072.Idx) :
    i ∈ ((cfg0.win 3).blk t).view.set
      ↔ ∀ a : Fin 2, win0_3.index t a * S512x3072.size a ≤ (i a).val ∧ (i a).val < win0_3.index t a * S512x3072.size a + S512x3072.size a := by
  show i ∈ ((View.whole main_v8).slice (win0_3.rect t)).set ↔ _
  rw [View.set_slice_whole, Rect.mem_set_unit]
  exact Iff.rfl

/-- The sixteen blocks tile the output array: row r is in point r / 512's block. -/
theorem cover0 (i : S8192x3072.Idx) : ∃ t : Fin cfg0.N, (cfg0.win 3).flush t = true ∧ i ∈ ((cfg0.win 3).blk t).view.set := by
  have hi0 : (i 0).val < 8192 := (i 0).isLt
  have hi1 : (i 1).val < 3072 := (i 1).isLt
  obtain ⟨t, htv⟩ : ∃ t : Fin cfg0.N, t.val = (i 0).val / 512 :=
    ⟨⟨(i 0).val / 512, by rw [show cfg0.N = 16 from N_0]; omega⟩, rfl⟩
  obtain ⟨-, -, -, -, -, -, e6, e7⟩ := idx_facts0 t
  refine ⟨t, flush0_3 t, ?_⟩
  rw [mem_blk0]
  intro a
  match a with
  | ⟨0, _⟩ =>
    show win0_3.index t (0 : Fin 2) * 512 ≤ (i 0).val ∧ (i 0).val < win0_3.index t (0 : Fin 2) * 512 + 512
    rw [e6, htv]; omega
  | ⟨1, _⟩ =>
    show win0_3.index t (1 : Fin 2) * 3072 ≤ (i 1).val ∧ (i 1).val < win0_3.index t (1 : Fin 2) * 3072 + 3072
    rw [e7]; omega

/-- THE ARRAY after the region, given the body's arithmetic at an entry: the linear layer of the three arrays. -/
theorem qkv_final_of
    (hpay : ∀ (x : Vec Ideal S512x1024 .f32) (w : Vec Ideal S1024x3072 .bf16) (b : Vec Ideal S1x3072 .f32) (p : Fin 512) (q : Fin 3072),
      k0_pay1 (F := Ideal) x w b (ix2 p q) = (∑ k : Fin 1024, x (ix2 p k) * w (ix2 k q)) + b (ix2 (0 : Fin 1) q))
    (c : Dev nD) :
    (dat0 (F := Ideal) V c).arrAt 3 cfg0.N = lin2 (V c main_v0) (V c main_v5) (V c main_v7) :=
  (dat0 (F := Ideal) V c).arrAt_eq_of_cover 3 (lin2 (V c main_v0) (V c main_v5) (V c main_v7))
    (fun t _ => flushed0_eq V hpay c t) cover0

/-! ## The last kernel: the output layer -/

/-- The printed index maps over the grid, as for the first kernel. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Point t's block of the activations is rows 512 t … 512 t + 511 of the array. -/
theorem blk2_x_apply (c : Dev nD) (t : Fin cfg2.N) (p : Fin 512) (k : Fin 1024) (r : Fin 8192) (hr : r.val = t.val * 512 + p.val) :
    (blk2 V c 0 t : Vec Ideal S512x1024 .bf16) (ix2 p k) = (V c main_v9 : S8192x1024.Idx → EReal) (ix2 r k) := by
  obtain ⟨e0, e1, -⟩ := idx_facts2 t
  unfold blk2
  rw [View.read_apply]
  show V c main_v9 (((cfg2.win 0).blk t).view.emb (ix2 p k)) = V c main_v9 (ix2 r k)
  refine congrArg (V c main_v9) (funext fun a => Fin.ext ?_)
  match a with
  | ⟨0, _⟩ => show win2_0.index t (0 : Fin 2) * 512 + 1 * p.val = r.val; rw [e0, hr]; omega
  | ⟨1, _⟩ => show win2_0.index t (1 : Fin 2) * 1024 + 1 * k.val = k.val; rw [e1]; omega

/-- Every point's block of the weight is the whole weight. -/
theorem blk2_w_apply (c : Dev nD) (t : Fin cfg2.N) (k : Fin 1024) (q : Fin 1024) :
    (blk2 V c 1 t : Vec Ideal S1024x1024 .bf16) (ix2 k q) = (V c main_v11 : S1024x1024.Idx → EReal) (ix2 k q) := by
  obtain ⟨-, -, e2, e3, -⟩ := idx_facts2 t
  unfold blk2
  rw [View.read_apply]
  show V c main_v11 (((cfg2.win 1).blk t).view.emb (ix2 k q)) = V c main_v11 (ix2 k q)
  refine congrArg (V c main_v11) (funext fun a => Fin.ext ?_)
  match a with
  | ⟨0, _⟩ => show win2_1.index t (0 : Fin 2) * 1024 + 1 * k.val = k.val; rw [e2]; omega
  | ⟨1, _⟩ => show win2_1.index t (1 : Fin 2) * 1024 + 1 * q.val = q.val; rw [e3]; omega

/-- Every point's block of the bias row is the whole row. -/
theorem blk2_b_apply (c : Dev nD) (t : Fin cfg2.N) (z : Fin 1) (q : Fin 1024) :
    (blk2 V c 2 t : Vec Ideal S1x1024 .f32) (ix2 z q) = (V c main_v12 : S1x1024.Idx → EReal) (ix2 z q) := by
  obtain ⟨-, -, -, -, e4, e5, -⟩ := idx_facts2 t
  unfold blk2
  rw [View.read_apply]
  show V c main_v12 (((cfg2.win 2).blk t).view.emb (ix2 z q)) = V c main_v12 (ix2 z q)
  refine congrArg (V c main_v12) (funext fun a => Fin.ext ?_)
  match a with
  | ⟨0, _⟩ => show win2_2.index t (0 : Fin 2) * 1 + 1 * z.val = z.val; rw [e4]; omega
  | ⟨1, _⟩ => show win2_2.index t (1 : Fin 2) * 1024 + 1 * q.val = q.val; rw [e5]; omega

/-- WHAT POINT t WRITES BACK is block t of the linear layer of the three arrays as the region finds them. -/
theorem flushed2_eq
    (hpay : ∀ (x : Vec Ideal S512x1024 .bf16) (w : Vec Ideal S1024x1024 .bf16) (b : Vec Ideal S1x1024 .f32) (p : Fin 512) (q : Fin 1024),
      k2_pay1 (F := Ideal) x w b (ix2 p q) = (∑ k : Fin 1024, x (ix2 p k) * w (ix2 k q)) + b (ix2 (0 : Fin 1) q))
    (c : Dev nD) (t : Fin cfg2.N) :
    (dat2 (F := Ideal) V c).flushed 3 t
      = ((cfg2.win 3).blk t).view.read (Elt Ideal) (lin2 (V c main_v9) (V c main_v11) (V c main_v12)) := by
  show (cfg2.win 3).cut (grid2.coords t) ((dat2 (F := Ideal) V c).after 3 t) = _
  rw [after2_3]
  unfold out2
  rw [View.canon_unit_zero hz]
  simp only [View.ld_unit_zero (S := S512x1024) hz, View.ld_unit_zero (S := S1024x1024) hz, View.ld_unit_zero (S := S1x1024) hz]
  funext j
  obtain ⟨p, q, rfl⟩ : ∃ (p : Fin 512) (q : Fin 1024), j = ix2 p q := ⟨j 0, j 1, eq_ix2 (n0 := 512) (n1 := 1024) j⟩
  have ht : t.val < 16 := lt_of_lt_of_eq t.isLt N_2
  have hp := p.isLt
  obtain ⟨r, hr⟩ : ∃ r : Fin 8192, r.val = t.val * 512 + p.val := ⟨⟨t.val * 512 + p.val, by omega⟩, rfl⟩
  have e3 : ((cfg2.win 3).blk t).view.emb (ix2 p q) = (ix2 r q : S8192x1024.Idx) := by
    obtain ⟨-, -, -, -, -, -, e6, e7⟩ := idx_facts2 t
    refine funext fun a => Fin.ext ?_
    match a with
    | ⟨0, _⟩ => show win2_3.index t (0 : Fin 2) * 512 + 1 * p.val = r.val; rw [e6, hr]; omega
    | ⟨1, _⟩ => show win2_3.index t (1 : Fin 2) * 1024 + 1 * q.val = q.val; rw [e7]; omega
  show k2_pay1 (F := Ideal) (blk2 V c 0 t) (blk2 V c 1 t) (blk2 V c 2 t) (ix2 p q)
    = lin2 (V c main_v9) (V c main_v11) (V c main_v12) (((cfg2.win 3).blk t).view.emb (ix2 p q))
  refine (hpay (blk2 V c 0 t) (blk2 V c 1 t) (blk2 V c 2 t) p q).trans ?_
  refine Eq.trans ?_ (congrArg (lin2 (V c main_v9) (V c main_v11) (V c main_v12)) e3).symm
  unfold lin2
  refine congrArg₂ (· + ·) (Finset.sum_congr rfl fun k _ => ?_) ?_
  · exact congrArg₂ (· * ·) (blk2_x_apply V c t p k r hr) (blk2_w_apply V c t k q)
  · exact blk2_b_apply V c t 0 q

/-- An index of the output array is in point t's block iff each coordinate is in the block's range on its axis. -/
theorem mem_blk2 (t : Fin cfg2.N) (i : S8192x1024.Idx) :
    i ∈ ((cfg2.win 3).blk t).view.set
      ↔ ∀ a : Fin 2, win2_3.index t a * S512x1024.size a ≤ (i a).val ∧ (i a).val < win2_3.index t a * S512x1024.size a + S512x1024.size a := by
  show i ∈ ((View.whole main_v13).slice (win2_3.rect t)).set ↔ _
  rw [View.set_slice_whole, Rect.mem_set_unit]
  exact Iff.rfl

/-- The sixteen blocks tile the output array: row r is in point r / 512's block. -/
theorem cover2 (i : S8192x1024.Idx) : ∃ t : Fin cfg2.N, (cfg2.win 3).flush t = true ∧ i ∈ ((cfg2.win 3).blk t).view.set := by
  have hi0 : (i 0).val < 8192 := (i 0).isLt
  have hi1 : (i 1).val < 1024 := (i 1).isLt
  obtain ⟨t, htv⟩ : ∃ t : Fin cfg2.N, t.val = (i 0).val / 512 :=
    ⟨⟨(i 0).val / 512, by rw [show cfg2.N = 16 from N_2]; omega⟩, rfl⟩
  obtain ⟨-, -, -, -, -, -, e6, e7⟩ := idx_facts2 t
  refine ⟨t, flush2_3 t, ?_⟩
  rw [mem_blk2]
  intro a
  match a with
  | ⟨0, _⟩ =>
    show win2_3.index t (0 : Fin 2) * 512 ≤ (i 0).val ∧ (i 0).val < win2_3.index t (0 : Fin 2) * 512 + 512
    rw [e6, htv]; omega
  | ⟨1, _⟩ =>
    show win2_3.index t (1 : Fin 2) * 1024 ≤ (i 1).val ∧ (i 1).val < win2_3.index t (1 : Fin 2) * 1024 + 1024
    rw [e7]; omega

/-- THE ARRAY after the region, given the body's arithmetic at an entry: the linear layer of the three arrays. -/
theorem out_final_of
    (hpay : ∀ (x : Vec Ideal S512x1024 .bf16) (w : Vec Ideal S1024x1024 .bf16) (b : Vec Ideal S1x1024 .f32) (p : Fin 512) (q : Fin 1024),
      k2_pay1 (F := Ideal) x w b (ix2 p q) = (∑ k : Fin 1024, x (ix2 p k) * w (ix2 k q)) + b (ix2 (0 : Fin 1) q))
    (c : Dev nD) :
    (dat2 (F := Ideal) V c).arrAt 3 cfg2.N = lin2 (V c main_v9) (V c main_v11) (V c main_v12) :=
  (dat2 (F := Ideal) V c).arrAt_eq_of_cover 3 (lin2 (V c main_v9) (V c main_v11) (V c main_v12))
    (fun t _ => flushed2_eq V hpay c t) cover2

/-! ## The two arrays, with the bodies' arithmetic put in -/

/-- After the first kernel the [8192, 3072] array holds the linear layer of the activations, the weight and the bias row. -/
theorem qkv_final (c : Dev nD) :
    (dat0 (F := Ideal) V c).arrAt 3 cfg0.N = lin2 (V c main_v0) (V c main_v5) (V c main_v7) :=
  qkv_final_of V Cert.KernelIdeal.BodyMath.k0_pay1_apply c

/-- After the last kernel the [8192, 1024] array holds the linear layer of the merged heads, the weight and the bias row. -/
theorem out_final (c : Dev nD) :
    (dat2 (F := Ideal) V c).arrAt 3 cfg2.N = lin2 (V c main_v9) (V c main_v11) (V c main_v12) :=
  out_final_of V Cert.KernelIdeal.BodyMath.k2_pay1_apply c

end Cert.KernelIdeal.Arrays

end
-- ==== Proof.AttnValue.lean ====
/-
  The attention region, from blocks to the array. Each grid point (batch entry n, pair of heads hp, tile of 256 queries qi)
  reads three blocks of the fused projections [8192, 3072] — the tile's queries, and all the keys and all the values of the
  batch entry, each for the two heads of the pair — and writes the [256, 128] block of the merged heads [8192, 1024] at
  rows n·2048 + qi·256 + p, columns hp·128 + l. Lanes l < 64 hold head 2hp, lanes l ≥ 64 head 2hp + 1. A row of the block's
  scores is the same row of the batch entry's scores, so the softmax of the one is the softmax of the other, and the blocks
  tile the array: it ends holding, at row n·2048 + s and column j, head j / 64's softmax-weighted sum of the values' column j.
-/
import proofs.«122077_j62234076119080_2_alg».proof.Proof.Attn
import proofs.«122077_j62234076119080_2_alg».proof.Proof.BodyMath
import proofs.«122077_j62234076119080_2_alg».proof.Proof.LibRowSoftmax
import proofs.«122077_j62234076119080_2_alg».proof.Proof.Spec
import Idealize.ShloMosaic.Lib.Pipeline.Value

noncomputable section

namespace Cert.KernelIdeal.Arrays

open Cert.KernelIdeal Cert.KernelIdeal.Gen Cert.KernelIdeal.Run Cert.KernelIdeal.BodyMath
open Idealize.ShloMosaic Idealize.ShloMosaic.ValueIdx Idealize.ShloMosaic.TcCoe Idealize.SL.Sem
open Idealize.ShloMosaic.Pipeline (Dat)

/-! ## The array the region leaves, entry by entry -/

/-- Row `n · 2048 + s` of the flattened activations: batch entry `n`, position `s`. -/
def rowOf (n : Fin 4) (s : Fin 2048) : Fin 8192 := ⟨n.val * 2048 + s.val, by omega⟩
/-- The queries', keys' and values' column `j` of the fused projections. -/
def qCol (j : Fin 1024) : Fin 3072 := ⟨j.val, by omega⟩
def kCol (j : Fin 1024) : Fin 3072 := ⟨1024 + j.val, by omega⟩
def vCol (j : Fin 1024) : Fin 3072 := ⟨2048 + j.val, by omega⟩

/-- The scaled scores of batch entry `n`, head `h`, read off the fused projections: queries down, keys across. -/
def scoresOf (qkv : (⟨2, ![8192, 3072]⟩ : Shape).Idx → EReal) (n : Fin 4) (h : Fin 16) :
    (⟨2, ![2048, 2048]⟩ : Shape).Idx → EReal :=
  fun i => (∑ e : Fin 64, qkv (ix2 (rowOf n (i 0)) (qCol (Cert.MHA.col h e)))
    * qkv (ix2 (rowOf n (i 1)) (kCol (Cert.MHA.col h e)))) * Cert.MHA.scale

/-- The merged heads at batch entry `n`, position `s`, column `j`: head `j / 64`'s softmax-weighted sum of the values'
    column `j`. -/
def attnAt (qkv : (⟨2, ![8192, 3072]⟩ : Shape).Idx → EReal) (n : Fin 4) (s : Fin 2048) (j : Fin 1024) : EReal :=
  ∑ k : Fin 2048, Cert.RowSoftmax.sm (scoresOf qkv n (Cert.MHA.headOf j)) s k * qkv (ix2 (rowOf n k) (vCol j))

/-- The batch entry and the position of a row of the flattened activations. -/
def attn_batchOf (r : Fin 8192) : Fin 4 := ⟨r.val / 2048, by omega⟩
def attn_posOf (r : Fin 8192) : Fin 2048 := ⟨r.val % 2048, by omega⟩

/-- The whole array of merged heads. -/
def attnArr (qkv : (⟨2, ![8192, 3072]⟩ : Shape).Idx → EReal) : (⟨2, ![8192, 1024]⟩ : Shape).Idx → EReal :=
  fun i => attnAt qkv (attn_batchOf (i 0)) (attn_posOf (i 0)) (i 1)

/-! ## One head from its three blocks -/

/-- One head's output row from blocks that are the head's queries, keys and values: a row of the block's scores is a row
    of the batch entry's, so their softmaxes agree. -/
theorem attn_head_eq (QKV : (⟨2, ![8192, 3072]⟩ : Shape).Idx → EReal) (qb : Vec Ideal S256x64 .bf16)
    (kb vb : Vec Ideal S2048x64 .bf16) (n : Fin 4) (h : Fin 16) (p : Fin 256) (s : Fin 2048) (d : Fin 64) (j : Fin 1024)
    (hq : ∀ e : Fin 64, qb (ix2 p e) = QKV (ix2 (rowOf n s) (qCol (Cert.MHA.col h e))))
    (hk : ∀ (k : Fin 2048) (e : Fin 64), kb (ix2 k e) = QKV (ix2 (rowOf n k) (kCol (Cert.MHA.col h e))))
    (hv : ∀ k : Fin 2048, vb (ix2 k d) = QKV (ix2 (rowOf n k) (vCol j)))
    (hh : Cert.MHA.headOf j = h) :
    ∑ k : Fin 2048, Cert.RowSoftmax.sm (blockScores qb kb) p k * vb (ix2 k d) = attnAt QKV n s j := by
  subst hh
  unfold attnAt
  refine Finset.sum_congr rfl fun k _ => congrArg₂ (· * ·) (Cert.RowSoftmax.sm_congr _ _ p s (fun k' => ?_) k) (hv k)
  show (∑ e : Fin 64, qb (ix2 p e) * kb (ix2 k' e)) * Cert.MHA.scale
    = (∑ e : Fin 64, QKV (ix2 (rowOf n s) (qCol (Cert.MHA.col (Cert.MHA.headOf j) e)))
        * QKV (ix2 (rowOf n k') (kCol (Cert.MHA.col (Cert.MHA.headOf j) e)))) * Cert.MHA.scale
  exact congrArg (· * Cert.MHA.scale) (Finset.sum_congr rfl fun e _ => congrArg₂ (· * ·) (hq e) (hk k' e))

/-! ## The body's stored block at an entry -/

/-- The low 64 lanes of a block, loaded, at `(p, e)`: the block at `(p, e)`; the high 64 lanes: the block at `(p, 64 + e)`. -/
theorem ld_rqLo (x : Vec Ideal S256x128 .bf16) (p : Fin 256) (e : Fin 64) :
    View.ld x rqLo (ix2 p e) = x (ix2 p (⟨e.val, by omega⟩ : Fin 128)) :=
  congrArg x (funext fun a => Fin.ext (by
    match a with
    | ⟨0, _⟩ => show 0 + 1 * p.val = p.val; omega
    | ⟨1, _⟩ => show 0 + 1 * e.val = e.val; omega))
theorem ld_rqHi (x : Vec Ideal S256x128 .bf16) (p : Fin 256) (e : Fin 64) :
    View.ld x rqHi (ix2 p e) = x (ix2 p (⟨64 + e.val, by omega⟩ : Fin 128)) :=
  congrArg x (funext fun a => Fin.ext (by
    match a with
    | ⟨0, _⟩ => show 0 + 1 * p.val = p.val; omega
    | ⟨1, _⟩ => show 64 + 1 * e.val = 64 + e.val; omega))
theorem ld_rkLo (x : Vec Ideal S2048x128 .bf16) (k : Fin 2048) (e : Fin 64) :
    View.ld x rkLo (ix2 k e) = x (ix2 k (⟨e.val, by omega⟩ : Fin 128)) :=
  congrArg x (funext fun a => Fin.ext (by
    match a with
    | ⟨0, _⟩ => show 0 + 1 * k.val = k.val; omega
    | ⟨1, _⟩ => show 0 + 1 * e.val = e.val; omega))
theorem ld_rkHi (x : Vec Ideal S2048x128 .bf16) (k : Fin 2048) (e : Fin 64) :
    View.ld x rkHi (ix2 k e) = x (ix2 k (⟨64 + e.val, by omega⟩ : Fin 128)) :=
  congrArg x (funext fun a => Fin.ext (by
    match a with
    | ⟨0, _⟩ => show 0 + 1 * k.val = k.val; omega
    | ⟨1, _⟩ => show 64 + 1 * e.val = 64 + e.val; omega))

/-- The stored block at a high lane `l = 64 + d`: the second store's payload at `(p, d)`. -/
theorem out1_hi (x0 : Vec Ideal S256x128 .bf16) (x1 x2 : Vec Ideal S2048x128 .bf16) (p : Fin 256) (d : Fin 64)
    (l : Fin 128) (hl : l.val = 64 + d.val) :
    out1 (F := Ideal) x0 x1 x2 (ix2 p l)
      = k1_pay2 (F := Ideal) (k1_pay4 (View.ld x2 rkHi)) (k1_pay5 (View.ld x0 rqHi) (View.ld x1 rkHi)) (ix2 p d) := by
  have e : (ix2 p l : S256x128.Idx) = rqHi.emb (ix2 p d) := funext fun a => Fin.ext (by
    match a with
    | ⟨0, _⟩ => show p.val = 0 + 1 * p.val; omega
    | ⟨1, _⟩ => show l.val = 64 + 1 * d.val; omega)
  unfold out1
  refine Eq.trans (congrArg (View.canon _) e) ?_
  exact View.canon_cons_emb rqHi _ _ (ix2 p d)

/-- The stored block at a low lane `l = d < 64`: the second store does not reach it, the first store's payload at `(p, d)`. -/
theorem out1_lo (x0 : Vec Ideal S256x128 .bf16) (x1 x2 : Vec Ideal S2048x128 .bf16) (p : Fin 256) (d : Fin 64)
    (l : Fin 128) (hl : l.val = d.val) :
    out1 (F := Ideal) x0 x1 x2 (ix2 p l)
      = k1_pay1 (F := Ideal) (k1_pay3 (View.ld x0 rqLo) (View.ld x1 rkLo) (View.ld x2 rkLo)) (ix2 p d) := by
  have hn : (ix2 p l : S256x128.Idx) ∉ rqHi.set := by
    rw [Rect.mem_set_unit]
    intro h
    have h1 : 64 ≤ l.val := (h 1).1
    omega
  have e : (ix2 p l : S256x128.Idx) = rqLo.emb (ix2 p d) := funext fun a => Fin.ext (by
    match a with
    | ⟨0, _⟩ => show p.val = 0 + 1 * p.val; omega
    | ⟨1, _⟩ => show l.val = 0 + 1 * d.val; omega)
  unfold out1
  refine Eq.trans (View.canon_cons_of_not_mem _ _ hn) ?_
  refine Eq.trans (congrArg (View.canon _) e) ?_
  exact View.canon_cons_emb rqLo _ _ (ix2 p d)

/-- The stored block at `(p, l)`, when the three input blocks are the blocks of the fused projections the point
    `(n, hp, qi)` reads: the merged heads at batch entry `n`, position `qi · 256 + p`, column `hp · 128 + l`. -/
theorem out1_apply (QKV : (⟨2, ![8192, 3072]⟩ : Shape).Idx → EReal) (x0 : Vec Ideal S256x128 .bf16)
    (x1 x2 : Vec Ideal S2048x128 .bf16) (n : Fin 4) (hp qi : Fin 8)
    (h0 : ∀ (p : Fin 256) (l : Fin 128) (r : Fin 8192) (cc : Fin 3072),
      r.val = (n.val * 8 + qi.val) * 256 + p.val → cc.val = hp.val * 128 + l.val → x0 (ix2 p l) = QKV (ix2 r cc))
    (h1 : ∀ (k : Fin 2048) (l : Fin 128) (r : Fin 8192) (cc : Fin 3072),
      r.val = n.val * 2048 + k.val → cc.val = (8 + hp.val) * 128 + l.val → x1 (ix2 k l) = QKV (ix2 r cc))
    (h2 : ∀ (k : Fin 2048) (l : Fin 128) (r : Fin 8192) (cc : Fin 3072),
      r.val = n.val * 2048 + k.val → cc.val = (16 + hp.val) * 128 + l.val → x2 (ix2 k l) = QKV (ix2 r cc))
    (p : Fin 256) (l : Fin 128) (s : Fin 2048) (j : Fin 1024)
    (hs : s.val = qi.val * 256 + p.val) (hj : j.val = hp.val * 128 + l.val) :
    out1 (F := Ideal) x0 x1 x2 (ix2 p l) = attnAt QKV n s j := by
  have hpl := hp.isLt
  have hql := qi.isLt
  have hnl := n.isLt
  have hpp := p.isLt
  by_cases hl : l.val < 64
  · rw [out1_lo x0 x1 x2 p ⟨l.val, hl⟩ l rfl, k1_pay1_apply]
    refine attn_head_eq QKV _ _ _ n (Cert.MHA.headOf j) p s ⟨l.val, hl⟩ j (fun e => ?_) (fun k e => ?_) (fun k => ?_) rfl
    · have he := e.isLt
      exact (ld_rqLo x0 p e).trans (h0 p _ _ _ (by show n.val * 2048 + s.val = _; omega)
        (by show j.val / 64 * 64 + e.val = hp.val * 128 + e.val; omega))
    · have he := e.isLt
      exact (ld_rkLo x1 k e).trans (h1 k _ _ _ rfl
        (by show 1024 + (j.val / 64 * 64 + e.val) = (8 + hp.val) * 128 + e.val; omega))
    · exact (ld_rkLo x2 k ⟨l.val, hl⟩).trans (h2 k _ _ _ rfl
        (by show 2048 + j.val = (16 + hp.val) * 128 + l.val; omega))
  · have hll := l.isLt
    have hd : l.val - 64 < 64 := by omega
    rw [out1_hi x0 x1 x2 p ⟨l.val - 64, hd⟩ l (by show l.val = 64 + (l.val - 64); omega), k1_pay2_apply]
    refine attn_head_eq QKV _ _ _ n (Cert.MHA.headOf j) p s ⟨l.val - 64, hd⟩ j (fun e => ?_) (fun k e => ?_) (fun k => ?_) rfl
    · have he := e.isLt
      exact (ld_rqHi x0 p e).trans (h0 p _ _ _ (by show n.val * 2048 + s.val = _; omega)
        (by show j.val / 64 * 64 + e.val = hp.val * 128 + (64 + e.val); omega))
    · have he := e.isLt
      exact (ld_rkHi x1 k e).trans (h1 k _ _ _ rfl
        (by show 1024 + (j.val / 64 * 64 + e.val) = (8 + hp.val) * 128 + (64 + e.val); omega))
    · exact (ld_rkHi x2 k ⟨l.val - 64, hd⟩).trans (h2 k _ _ _ rfl
        (by show 2048 + j.val = (16 + hp.val) * 128 + (64 + (l.val - 64)); omega))

/-- The same at an index of the stored block and the index of the array it is written to. -/
theorem out1_eq_attnArr (QKV : (⟨2, ![8192, 3072]⟩ : Shape).Idx → EReal) (x0 : Vec Ideal S256x128 .bf16)
    (x1 x2 : Vec Ideal S2048x128 .bf16) (n : Fin 4) (hp qi : Fin 8)
    (h0 : ∀ (p : Fin 256) (l : Fin 128) (r : Fin 8192) (cc : Fin 3072),
      r.val = (n.val * 8 + qi.val) * 256 + p.val → cc.val = hp.val * 128 + l.val → x0 (ix2 p l) = QKV (ix2 r cc))
    (h1 : ∀ (k : Fin 2048) (l : Fin 128) (r : Fin 8192) (cc : Fin 3072),
      r.val = n.val * 2048 + k.val → cc.val = (8 + hp.val) * 128 + l.val → x1 (ix2 k l) = QKV (ix2 r cc))
    (h2 : ∀ (k : Fin 2048) (l : Fin 128) (r : Fin 8192) (cc : Fin 3072),
      r.val = n.val * 2048 + k.val → cc.val = (16 + hp.val) * 128 + l.val → x2 (ix2 k l) = QKV (ix2 r cc))
    (y : S256x128.Idx) (i : S8192x1024.Idx)
    (hi0 : (i 0).val = (n.val * 8 + qi.val) * 256 + (y 0).val) (hi1 : (i 1).val = hp.val * 128 + (y 1).val) :
    out1 (F := Ideal) x0 x1 x2 y = attnArr QKV i := by
  obtain ⟨p, l, rfl⟩ : ∃ (p : Fin 256) (l : Fin 128), y = ix2 p l := ⟨y 0, y 1, eq_ix2 y⟩
  have hi0' : (i 0).val = (n.val * 8 + qi.val) * 256 + p.val := hi0
  have hi1' : (i 1).val = hp.val * 128 + l.val := hi1
  have hql := qi.isLt
  have hpp := p.isLt
  have hb : attn_batchOf (i 0) = n := Fin.ext (by show (i 0).val / 2048 = n.val; omega)
  show _ = attnAt QKV (attn_batchOf (i 0)) (attn_posOf (i 0)) (i 1)
  rw [hb]
  exact out1_apply QKV x0 x1 x2 n hp qi h0 h1 h2 p l (attn_posOf (i 0)) (i 1)
    (by show (i 0).val % 2048 = qi.val * 256 + p.val; omega) hi1'

/-! ## The blocks a point reads and writes -/

-- the TensorCore's buffer contents when the region is entered
variable (V : (c : Dev nD) → (b : Ref sig .tc) → Buf (Elt Ideal) ((c : Thread nD τ).loc b))

/-- The four index maps over the 256 grid points `t = n · 64 + hp · 8 + qi`: the queries' and the output's block
    `(n · 8 + qi, hp)`, the keys' `(n, 8 + hp)`, the values' `(n, 16 + hp)`. -/
theorem attn_idx_facts : ∀ t : Fin cfg1.N,
    win1_0.index t (0 : Fin 2) = t.val / 64 * 8 + t.val % 8 ∧ win1_0.index t (1 : Fin 2) = t.val / 8 % 8
    ∧ win1_1.index t (0 : Fin 2) = t.val / 64 ∧ win1_1.index t (1 : Fin 2) = 8 + t.val / 8 % 8
    ∧ win1_2.index t (0 : Fin 2) = t.val / 64 ∧ win1_2.index t (1 : Fin 2) = 16 + t.val / 8 % 8
    ∧ win1_3.index t (0 : Fin 2) = t.val / 64 * 8 + t.val % 8 ∧ win1_3.index t (1 : Fin 2) = t.val / 8 % 8 :=
  (by decide +kernel : ∀ t : Fin grid1.N, _)

theorem attn_lt_N (t : Fin cfg1.N) : t.val < 256 := by
  have h := t.isLt
  have hN : cfg1.N = 256 := N_1
  omega

/-- The batch entry, the pair of heads and the query tile of a grid point. -/
def attn_pn (t : Fin cfg1.N) : Fin 4 := ⟨t.val / 64, by have := attn_lt_N t; omega⟩
def attn_php (t : Fin cfg1.N) : Fin 8 := ⟨t.val / 8 % 8, by omega⟩
def attn_pqi (t : Fin cfg1.N) : Fin 8 := ⟨t.val % 8, by omega⟩

/-- The queries' block at point `t`, entry `(p, l)`: the fused projections at row `(n · 8 + qi) · 256 + p`, column
    `hp · 128 + l`. -/
theorem attn_blkQ_apply (c : Dev nD) (t : Fin cfg1.N) (p : Fin 256) (l : Fin 128) (r : Fin 8192) (cc : Fin 3072)
    (hr : r.val = ((attn_pn t).val * 8 + (attn_pqi t).val) * 256 + p.val) (hc : cc.val = (attn_php t).val * 128 + l.val) :
    (blk1 (F := Ideal) V c 0 t : S256x128.Idx → Elt Ideal .bf16) (ix2 p l)
      = (V c main_v8 : S8192x3072.Idx → Elt Ideal .bf16) (ix2 r cc) := by
  obtain ⟨e0, e1, -⟩ := attn_idx_facts t
  show (V c main_v8 : S8192x3072.Idx → Elt Ideal .bf16) (((cfg1.win 0).blk t).view.emb (ix2 p l)) = _
  refine congrArg _ (funext fun a => Fin.ext ?_)
  match a with
  | ⟨0, _⟩ =>
    show win1_0.index t (0 : Fin 2) * 256 + 1 * p.val = r.val
    rw [e0, hr]; show _ = (t.val / 64 * 8 + t.val % 8) * 256 + p.val; omega
  | ⟨1, _⟩ =>
    show win1_0.index t (1 : Fin 2) * 128 + 1 * l.val = cc.val
    rw [e1, hc]; show _ = t.val / 8 % 8 * 128 + l.val; omega

/-- The keys' block at point `t`, entry `(k, l)`: row `n · 2048 + k`, column `(8 + hp) · 128 + l`. -/
theorem attn_blkK_apply (c : Dev nD) (t : Fin cfg1.N) (k : Fin 2048) (l : Fin 128) (r : Fin 8192) (cc : Fin 3072)
    (hr : r.val = (attn_pn t).val * 2048 + k.val) (hc : cc.val = (8 + (attn_php t).val) * 128 + l.val) :
    (blk1 (F := Ideal) V c 1 t : S2048x128.Idx → Elt Ideal .bf16) (ix2 k l)
      = (V c main_v8 : S8192x3072.Idx → Elt Ideal .bf16) (ix2 r cc) := by
  obtain ⟨-, -, e2, e3, -⟩ := attn_idx_facts t
  show (V c main_v8 : S8192x3072.Idx → Elt Ideal .bf16) (((cfg1.win 1).blk t).view.emb (ix2 k l)) = _
  refine congrArg _ (funext fun a => Fin.ext ?_)
  match a with
  | ⟨0, _⟩ =>
    show win1_1.index t (0 : Fin 2) * 2048 + 1 * k.val = r.val
    rw [e2, hr]; show _ = t.val / 64 * 2048 + k.val; omega
  | ⟨1, _⟩ =>
    show win1_1.index t (1 : Fin 2) * 128 + 1 * l.val = cc.val
    rw [e3, hc]; show _ = (8 + t.val / 8 % 8) * 128 + l.val; omega

/-- The values' block at point `t`, entry `(k, l)`: row `n · 2048 + k`, column `(16 + hp) · 128 + l`. -/
theorem attn_blkV_apply (c : Dev nD) (t : Fin cfg1.N) (k : Fin 2048) (l : Fin 128) (r : Fin 8192) (cc : Fin 3072)
    (hr : r.val = (attn_pn t).val * 2048 + k.val) (hc : cc.val = (16 + (attn_php t).val) * 128 + l.val) :
    (blk1 (F := Ideal) V c 2 t : S2048x128.Idx → Elt Ideal .bf16) (ix2 k l)
      = (V c main_v8 : S8192x3072.Idx → Elt Ideal .bf16) (ix2 r cc) := by
  obtain ⟨-, -, -, -, e4, e5, -⟩ := attn_idx_facts t
  show (V c main_v8 : S8192x3072.Idx → Elt Ideal .bf16) (((cfg1.win 2).blk t).view.emb (ix2 k l)) = _
  refine congrArg _ (funext fun a => Fin.ext ?_)
  match a with
  | ⟨0, _⟩ =>
    show win1_2.index t (0 : Fin 2) * 2048 + 1 * k.val = r.val
    rw [e4, hr]; show _ = t.val / 64 * 2048 + k.val; omega
  | ⟨1, _⟩ =>
    show win1_2.index t (1 : Fin 2) * 128 + 1 * l.val = cc.val
    rw [e5, hc]; show _ = (16 + t.val / 8 % 8) * 128 + l.val; omega

/-! ## What a point writes back, the cover, the array -/

/-- What point `t` writes back is its block of the merged heads. -/
theorem attn_flushed_eq (c : Dev nD) (t : Fin cfg1.N) :
    (dat1 (F := Ideal) V c).flushed 3 t
      = ((cfg1.win 3).blk t).view.read (Elt Ideal) (attnArr (V c main_v8 : S8192x3072.Idx → Elt Ideal .bf16)) := by
  show (cfg1.win 3).cut (grid1.coords t) ((dat1 (F := Ideal) V c).after 3 t) = _
  rw [after1_3]
  obtain ⟨-, -, -, -, -, -, e6, e7⟩ := attn_idx_facts t
  funext y
  show out1 (F := Ideal) (blk1 V c 0 t) (blk1 V c 1 t) (blk1 V c 2 t) y
    = attnArr (V c main_v8 : S8192x3072.Idx → Elt Ideal .bf16) (((cfg1.win 3).blk t).view.emb y)
  refine out1_eq_attnArr (V c main_v8 : S8192x3072.Idx → Elt Ideal .bf16) (blk1 V c 0 t) (blk1 V c 1 t) (blk1 V c 2 t)
    (attn_pn t) (attn_php t) (attn_pqi t) (attn_blkQ_apply V c t) (attn_blkK_apply V c t) (attn_blkV_apply V c t) y
    (((cfg1.win 3).blk t).view.emb y) ?_ ?_
  · show win1_3.index t (0 : Fin 2) * 256 + 1 * (y 0).val = (t.val / 64 * 8 + t.val % 8) * 256 + (y 0).val
    rw [e6]; omega
  · show win1_3.index t (1 : Fin 2) * 128 + 1 * (y 1).val = t.val / 8 % 8 * 128 + (y 1).val
    rw [e7]; omega

/-- An index of the array is in point `t`'s block iff each coordinate is in the block's range on its axis. -/
theorem attn_mem_blk (t : Fin cfg1.N) (i : S8192x1024.Idx) :
    i ∈ ((cfg1.win 3).blk t).view.set
      ↔ ∀ a : Fin 2, win1_3.index t a * S256x128.size a ≤ (i a).val
          ∧ (i a).val < win1_3.index t a * S256x128.size a + S256x128.size a := by
  show i ∈ ((View.whole main_v9).slice (win1_3.rect t)).set ↔ _
  rw [View.set_slice_whole, Rect.mem_set_unit]
  exact Iff.rfl

/-- The blocks tile the array: row `r`, column `j` is in the block of the point `(r / 2048, j / 128, r % 2048 / 256)`. -/
theorem attn_cover (i : S8192x1024.Idx) :
    ∃ t : Fin cfg1.N, (cfg1.win 3).flush t = true ∧ i ∈ ((cfg1.win 3).blk t).view.set := by
  have h0 : (i 0).val < 8192 := (i 0).isLt
  have h1 : (i 1).val < 1024 := (i 1).isLt
  have hN : cfg1.N = 256 := N_1
  obtain ⟨t, ht⟩ : ∃ t : Fin cfg1.N, t.val = (i 0).val / 2048 * 64 + (i 1).val / 128 * 8 + (i 0).val % 2048 / 256 :=
    ⟨⟨(i 0).val / 2048 * 64 + (i 1).val / 128 * 8 + (i 0).val % 2048 / 256, by rw [hN]; omega⟩, rfl⟩
  obtain ⟨-, -, -, -, -, -, e6, e7⟩ := attn_idx_facts t
  refine ⟨t, flush1_3 t, ?_⟩
  rw [attn_mem_blk]
  intro a
  match a with
  | ⟨0, _⟩ =>
    show win1_3.index t (0 : Fin 2) * 256 ≤ (i 0).val ∧ (i 0).val < win1_3.index t (0 : Fin 2) * 256 + 256
    rw [e6, ht]; omega
  | ⟨1, _⟩ =>
    show win1_3.index t (1 : Fin 2) * 128 ≤ (i 1).val ∧ (i 1).val < win1_3.index t (1 : Fin 2) * 128 + 128
    rw [e7, ht]; omega

/-- The array after the region: the merged heads, every entry. -/
theorem attn_final (c : Dev nD) :
    (dat1 (F := Ideal) V c).arrAt 3 cfg1.N = attnArr (V c main_v8 : S8192x3072.Idx → Elt Ideal .bf16) :=
  (dat1 (F := Ideal) V c).arrAt_eq_of_cover 3 (attnArr (V c main_v8 : S8192x3072.Idx → Elt Ideal .bf16))
    (fun t _ => attn_flushed_eq V c t) attn_cover

/-- The array after the region at batch entry `n`, position `s`, column `j`. -/
theorem attn_final_apply (c : Dev nD) (n : Fin 4) (s : Fin 2048) (j : Fin 1024) :
    ((dat1 (F := Ideal) V c).arrAt 3 cfg1.N : S8192x1024.Idx → Elt Ideal .bf16) (ix2 (rowOf n s) j)
      = attnAt (V c main_v8 : S8192x3072.Idx → Elt Ideal .bf16) n s j := by
  rw [attn_final]
  have hs := s.isLt
  show attnAt _ (attn_batchOf (rowOf n s)) (attn_posOf (rowOf n s)) j = _
  rw [show attn_batchOf (rowOf n s) = n from Fin.ext (by show (n.val * 2048 + s.val) / 2048 = n.val; omega),
    show attn_posOf (rowOf n s) = s from Fin.ext (by show (n.val * 2048 + s.val) % 2048 = s.val; omega)]

end Cert.KernelIdeal.Arrays

end
-- ==== Proof.Compose.lean ====
/-
  The three kernels composed are the attention layer. The first kernel's [8192, 3072] array is a linear layer of the
  flattened activations (row n · 2048 + s is (n, s)) with the three transposed weights side by side (columns j, 1024 + j,
  2048 + j are the queries', keys' and values' column j), so its entry at row (n, s) and the queries' column j is the
  queries' linear layer at (n, s, j), and likewise for keys and values. Hence the scores read off that array are the
  layer's scores, the softmax-weighted sums of the values' columns are the merged heads, and the last linear layer of
  those with the transposed output weight is the layer's result. Only reindexing and congruence are involved.
-/
import proofs.«122077_j62234076119080_2_alg».proof.Proof.Spec
import proofs.«122077_j62234076119080_2_alg».proof.Proof.LibRowSoftmax
import proofs.«122077_j62234076119080_2_alg».proof.Proof.ProjValue
import proofs.«122077_j62234076119080_2_alg».proof.Proof.AttnValue

noncomputable section

namespace Cert.KernelIdeal.Arrays

open Idealize.ShloMosaic Idealize.ShloMosaic.ValueIdx Cert.MHA Cert.RowLsm Cert.RowSoftmax

/-- The linear layer on matrices at explicit coordinates. -/
theorem lin2_apply {a K b : ℕ} (x : (⟨2, ![a, K]⟩ : Shape).Idx → EReal) (w : (⟨2, ![K, b]⟩ : Shape).Idx → EReal)
    (bias : (⟨2, ![1, b]⟩ : Shape).Idx → EReal) (r : Fin a) (q : Fin b) :
    lin2 x w bias (ix2 r q) = (∑ k : Fin K, x (ix2 r k) * w (ix2 k q)) + bias (ix2 (0 : Fin 1) q) := rfl

/-- A third of the fused projections: at row (n, s) and the third's column j it is the linear layer of the third's
    own weight and bias at (n, s, j). -/
theorem fused_apply (x : Act) (w : Mat) (b : Bias)
    (x2d : (⟨2, ![8192, 1024]⟩ : Shape).Idx → EReal) (wcat : (⟨2, ![1024, 3072]⟩ : Shape).Idx → EReal)
    (bcat : (⟨2, ![1, 3072]⟩ : Shape).Idx → EReal) (cm : Fin 1024 → Fin 3072)
    (hx : ∀ n s d, x2d (ix2 (rowOf n s) d) = x (ix3 n s d))
    (hw : ∀ k j, wcat (ix2 k (cm j)) = w (ix2 j k)) (hb : ∀ j, bcat (ix2 (0 : Fin 1) (cm j)) = b (ix1 j))
    (n : Fin 4) (s : Fin 2048) (j : Fin 1024) :
    lin2 x2d wcat bcat (ix2 (rowOf n s) (cm j)) = proj x w b n s j := by
  rw [lin2_apply, hb]
  unfold proj
  exact congrArg (· + b (ix1 j)) (Finset.sum_congr rfl fun d _ => by rw [hx, hw])

/-- The scores read off the fused projections are the layer's scores. -/
theorem scoresOf_eq (x : Act) (wq : Mat) (bq : Bias) (wk : Mat) (bk : Bias)
    (qkv : (⟨2, ![8192, 3072]⟩ : Shape).Idx → EReal)
    (hq : ∀ n s j, qkv (ix2 (rowOf n s) (qCol j)) = proj x wq bq n s j)
    (hk : ∀ n s j, qkv (ix2 (rowOf n s) (kCol j)) = proj x wk bk n s j) (n : Fin 4) (h : Fin 16) :
    scoresOf qkv n h = scores x wq bq wk bk n h := by
  funext i
  obtain ⟨q, k, rfl⟩ : ∃ (q k : Fin 2048), i = ix2 q k := ⟨i 0, i 1, eq_ix2 i⟩
  show (∑ e : Fin 64, qkv (ix2 (rowOf n q) (qCol (col h e))) * qkv (ix2 (rowOf n k) (kCol (col h e)))) * scale
    = (∑ d : Fin 64, proj x wq bq n q (col h d) * proj x wk bk n k (col h d)) * scale
  exact congrArg (· * scale) (Finset.sum_congr rfl fun e _ => by rw [hq, hk])

/-- The softmax-weighted sums of the values' columns are the merged heads. -/
theorem attnAt_eq (x : Act) (wq : Mat) (bq : Bias) (wk : Mat) (bk : Bias) (wv : Mat) (bv : Bias)
    (qkv : (⟨2, ![8192, 3072]⟩ : Shape).Idx → EReal)
    (hq : ∀ n s j, qkv (ix2 (rowOf n s) (qCol j)) = proj x wq bq n s j)
    (hk : ∀ n s j, qkv (ix2 (rowOf n s) (kCol j)) = proj x wk bk n s j)
    (hv : ∀ n s j, qkv (ix2 (rowOf n s) (vCol j)) = proj x wv bv n s j)
    (n : Fin 4) (s : Fin 2048) (j : Fin 1024) :
    attnAt qkv n s j = merged x wq bq wk bk wv bv n s j := by
  unfold attnAt merged head
  rw [scoresOf_eq x wq bq wk bk qkv hq hk n (headOf j)]
  exact Finset.sum_congr rfl fun k _ => by rw [hv, col_headOf_entryOf]

/-- THE COMPOSITION: a result read off the last kernel's array, itself a linear layer of an array holding the merged
    heads of the first kernel's array, a linear layer of the flattened activations, is the attention layer's result. -/
theorem compose (x : Cert.MHA.Act) (wq wk wv wo : Cert.MHA.Mat) (bq bk bv bo : Cert.MHA.Bias)
    (x2d : (⟨2, ![8192, 1024]⟩ : Shape).Idx → EReal) (wcat : (⟨2, ![1024, 3072]⟩ : Shape).Idx → EReal)
    (bcat : (⟨2, ![1, 3072]⟩ : Shape).Idx → EReal)
    (qkv : (⟨2, ![8192, 3072]⟩ : Shape).Idx → EReal) (attn : (⟨2, ![8192, 1024]⟩ : Shape).Idx → EReal)
    (wot : (⟨2, ![1024, 1024]⟩ : Shape).Idx → EReal) (bo2 : (⟨2, ![1, 1024]⟩ : Shape).Idx → EReal)
    (out2d : (⟨2, ![8192, 1024]⟩ : Shape).Idx → EReal) (res : Cert.MHA.Act)
    (hx : ∀ n s d, x2d (ix2 (rowOf n s) d) = x (ix3 n s d))
    (hwq : ∀ k j, wcat (ix2 k (qCol j)) = wq (ix2 j k)) (hwk : ∀ k j, wcat (ix2 k (kCol j)) = wk (ix2 j k))
    (hwv : ∀ k j, wcat (ix2 k (vCol j)) = wv (ix2 j k))
    (hbq : ∀ j, bcat (ix2 (0 : Fin 1) (qCol j)) = bq (ix1 j)) (hbk : ∀ j, bcat (ix2 (0 : Fin 1) (kCol j)) = bk (ix1 j))
    (hbv : ∀ j, bcat (ix2 (0 : Fin 1) (vCol j)) = bv (ix1 j))
    (hqkv : qkv = lin2 x2d wcat bcat)
    (hattn : ∀ n s j, attn (ix2 (rowOf n s) j) = attnAt qkv n s j)
    (hwo : ∀ j e, wot (ix2 j e) = wo (ix2 e j)) (hbo : ∀ e, bo2 (ix2 (0 : Fin 1) e) = bo (ix1 e))
    (hout : out2d = lin2 attn wot bo2)
    (hres : ∀ n s e, res (ix3 n s e) = out2d (ix2 (rowOf n s) e)) :
    res = Cert.MHA.result x wq bq wk bk wv bv wo bo := by
  have hq : ∀ n s j, qkv (ix2 (rowOf n s) (qCol j)) = proj x wq bq n s j := fun n s j => by
    rw [hqkv]; exact fused_apply x wq bq x2d wcat bcat qCol hx hwq hbq n s j
  have hk : ∀ n s j, qkv (ix2 (rowOf n s) (kCol j)) = proj x wk bk n s j := fun n s j => by
    rw [hqkv]; exact fused_apply x wk bk x2d wcat bcat kCol hx hwk hbk n s j
  have hv : ∀ n s j, qkv (ix2 (rowOf n s) (vCol j)) = proj x wv bv n s j := fun n s j => by
    rw [hqkv]; exact fused_apply x wv bv x2d wcat bcat vCol hx hwv hbv n s j
  funext i
  obtain ⟨n, s, e, rfl⟩ : ∃ (n : Fin 4) (s : Fin 2048) (e : Fin 1024), i = ix3 n s e := ⟨i 0, i 1, i 2, eq_ix3 i⟩
  rw [hres, hout, lin2_apply, hbo]
  show _ = (∑ j : Fin 1024, merged x wq bq wk bk wv bv n s j * wo (ix2 e j)) + bo (ix1 e)
  refine congrArg (· + bo (ix1 e)) (Finset.sum_congr rfl fun j _ => ?_)
  rw [hattn, hwo, attnAt_eq x wq bq wk bk wv bv qkv hq hk hv]

end Cert.KernelIdeal.Arrays

end
-- ==== Proof.Layout.lean ====
/-
  The layout operations around the three kernels, read at an entry. Before the first kernel the activations
  [4, 2048, 1024] are flattened to [8192, 1024] (row n · 2048 + s is (n, s)); the three weights are transposed and set
  side by side along the columns into [1024, 3072] (columns j, 1024 + j, 2048 + j are the queries', keys' and values'
  column j), then narrowed, which on the extended reals changes nothing; the three biases are set end to end into
  [3072] and viewed as one row. Before the last kernel the output weight is transposed and narrowed and the output
  bias viewed as one row; after it the [8192, 1024] result is viewed as [4, 2048, 1024] again.
-/
import proofs.«122077_j62234076119080_2_alg».proof.KernelIdeal
import proofs.«122077_j62234076119080_2_alg».proof.Proof.Gen.KernelIdeal
import proofs.«122077_j62234076119080_2_alg».proof.Proof.BodyMath
import proofs.«122077_j62234076119080_2_alg».proof.Proof.AttnValue
import Idealize.ShloMosaic.Lib.Pipeline.Value
import Idealize.ShloMosaic.Lib.ValueIdx

noncomputable section

namespace Cert.KernelIdeal.Arrays

open Cert.KernelIdeal Cert.KernelIdeal.Facts₀ Idealize.ShloMosaic Idealize.ShloMosaic.ValueIdx

/-! ## The operations' terms -/

/-- The activations flattened to a matrix. -/
def x2dOf (x : (⟨S4x2048x1024, .f32⟩ : BufTy).Contents (Elt Ideal)) : (⟨S8192x1024, .f32⟩ : BufTy).Contents (Elt Ideal) :=
  shapeCast S8192x1024 x shapeCasts_S4x2048x1024_S8192x1024

/-- The three transposed weights side by side, narrowed. -/
def wcatOf (wq wk wv : (⟨S1024x1024, .f32⟩ : BufTy).Contents (Elt Ideal)) : (⟨S1024x3072, .bf16⟩ : BufTy).Contents (Elt Ideal) :=
  truncf (F := Ideal) .bf16 (concatenate S1024x3072 1 [⟨S1024x1024, transpose S1024x1024 [1, 0] wq transposes_S1024x1024_S1024x1024_1_0⟩, ⟨S1024x1024, transpose S1024x1024 [1, 0] wk transposes_S1024x1024_S1024x1024_1_0⟩, ⟨S1024x1024, transpose S1024x1024 [1, 0] wv transposes_S1024x1024_S1024x1024_1_0⟩] concatenates_S1024x1024_S1024x1024_S1024x1024_S1024x3072_d1) bitsLt_bf16_f32

/-- The three biases end to end, as one row. -/
def bcatOf (bq bk bv : (⟨S1024, .f32⟩ : BufTy).Contents (Elt Ideal)) : (⟨S1x3072, .f32⟩ : BufTy).Contents (Elt Ideal) :=
  shapeCast S1x3072 (concatenate S3072 0 [⟨S1024, bq⟩, ⟨S1024, bk⟩, ⟨S1024, bv⟩] concatenates_S1024_S1024_S1024_S3072_d0) shapeCasts_S3072_S1x3072

/-- The output weight transposed, narrowed. -/
def wotOf (wo : (⟨S1024x1024, .f32⟩ : BufTy).Contents (Elt Ideal)) : (⟨S1024x1024, .bf16⟩ : BufTy).Contents (Elt Ideal) :=
  truncf (F := Ideal) .bf16 (transpose S1024x1024 [1, 0] wo transposes_S1024x1024_S1024x1024_1_0) bitsLt_bf16_f32

/-- The output bias as one row. -/
def bo2Of (bo : (⟨S1024, .f32⟩ : BufTy).Contents (Elt Ideal)) : (⟨S1x1024, .f32⟩ : BufTy).Contents (Elt Ideal) :=
  shapeCast S1x1024 bo shapeCasts_S1024_S1x1024

/-- The result matrix viewed as [4, 2048, 1024]. -/
def resOf (out2d : (⟨S8192x1024, .f32⟩ : BufTy).Contents (Elt Ideal)) : (⟨S4x2048x1024, .f32⟩ : BufTy).Contents (Elt Ideal) :=
  shapeCast S4x2048x1024 out2d shapeCasts_S8192x1024_S4x2048x1024

/-! ## Read at an entry -/

/-- Row n · 2048 + s of the flattened activations is (n, s). -/
theorem x2dOf_apply (x : (⟨S4x2048x1024, .f32⟩ : BufTy).Contents (Elt Ideal)) (n : Fin 4) (s : Fin 2048) (d : Fin 1024) :
    x2dOf x (ix2 (rowOf n s) d) = x (ix3 n s d) := by
  unfold x2dOf
  refine shapeCast_apply x _ (ix2 (rowOf n s) d) (ix3 n s d) ?_
  rw [Shape.rowMajor_val_three, Shape.rowMajor_val_two]
  show (n.val * 2048 + s.val) * 1024 + d.val = (rowOf n s).val * 1024 + d.val
  rfl

/-- Three arrays of one shape, listed for a concatenation. -/
abbrev three {α : Type} (S : Shape) (x0 x1 x2 : S.Idx → α) : List ((s : Shape) × (s.Idx → α)) := [⟨S, x0⟩, ⟨S, x1⟩, ⟨S, x2⟩]

/-- Three [1024, 1024] pieces set side by side along the columns, read at column 0 + j: piece 0 at column j. -/
theorem cat3_cols_0 {α : Type} (x0 x1 x2 : S1024x1024.Idx → α)
    (h : Shape.Concatenates ((three S1024x1024 x0 x1 x2).map (·.1)) S1024x3072 1)
    (k j : Fin 1024) (c : Fin 3072) (hc : 0 + j.val = c.val) :
    concatenate S1024x3072 1 (three S1024x1024 x0 x1 x2) h (ix2 k c) = x0 (ix2 k j) := by
  refine concatenate_apply_piece (t := S1024x3072) (1 : Fin 2) (three S1024x1024 x0 x1 x2) h (ix2 k c) 0 (show (0 : ℕ) < 3 by omega)
    S1024x1024 x0 rfl rfl 0 rfl (ix2 k j) ?_ hc
  intro b hb
  match b with
  | ⟨0, _⟩ => rfl
  | ⟨1, _⟩ => exact absurd (Fin.ext rfl) hb

/-- Three [1024, 1024] pieces set side by side along the columns, read at column 1024 + j: piece 1 at column j. -/
theorem cat3_cols_1 {α : Type} (x0 x1 x2 : S1024x1024.Idx → α)
    (h : Shape.Concatenates ((three S1024x1024 x0 x1 x2).map (·.1)) S1024x3072 1)
    (k j : Fin 1024) (c : Fin 3072) (hc : 1024 + j.val = c.val) :
    concatenate S1024x3072 1 (three S1024x1024 x0 x1 x2) h (ix2 k c) = x1 (ix2 k j) := by
  refine concatenate_apply_piece (t := S1024x3072) (1 : Fin 2) (three S1024x1024 x0 x1 x2) h (ix2 k c) 1 (show (1 : ℕ) < 3 by omega)
    S1024x1024 x1 rfl rfl 1024 rfl (ix2 k j) ?_ hc
  intro b hb
  match b with
  | ⟨0, _⟩ => rfl
  | ⟨1, _⟩ => exact absurd (Fin.ext rfl) hb

/-- Three [1024, 1024] pieces set side by side along the columns, read at column 2048 + j: piece 2 at column j. -/
theorem cat3_cols_2 {α : Type} (x0 x1 x2 : S1024x1024.Idx → α)
    (h : Shape.Concatenates ((three S1024x1024 x0 x1 x2).map (·.1)) S1024x3072 1)
    (k j : Fin 1024) (c : Fin 3072) (hc : 2048 + j.val = c.val) :
    concatenate S1024x3072 1 (three S1024x1024 x0 x1 x2) h (ix2 k c) = x2 (ix2 k j) := by
  refine concatenate_apply_piece (t := S1024x3072) (1 : Fin 2) (three S1024x1024 x0 x1 x2) h (ix2 k c) 2 (show (2 : ℕ) < 3 by omega)
    S1024x1024 x2 rfl rfl 2048 rfl (ix2 k j) ?_ hc
  intro b hb
  match b with
  | ⟨0, _⟩ => rfl
  | ⟨1, _⟩ => exact absurd (Fin.ext rfl) hb

/-- Three [1024] pieces set end to end and viewed as one row, read at column 0 + j: piece 0 at j. -/
theorem cat3_row_0 {α : Type} (x0 x1 x2 : S1024.Idx → α)
    (h : Shape.Concatenates ((three S1024 x0 x1 x2).map (·.1)) S3072 0) (h' : S3072.ShapeCasts S1x3072)
    (j : Fin 1024) (c : Fin 3072) (hc : 0 + j.val = c.val) :
    shapeCast S1x3072 (concatenate S3072 0 (three S1024 x0 x1 x2) h) h' (ix2 (0 : Fin 1) c) = x0 (ix1 j) := by
  refine (shapeCast_apply _ h' (ix2 (0 : Fin 1) c) (ix1 c) ?_).trans ?_
  · rw [Shape.rowMajor_val_one, Shape.rowMajor_val_two]
    show c.val = 0 * 3072 + c.val
    omega
  refine concatenate_apply_piece (t := S3072) (0 : Fin 1) (three S1024 x0 x1 x2) h (ix1 c) 0 (show (0 : ℕ) < 3 by omega)
    S1024 x0 rfl rfl 0 rfl (ix1 j) ?_ hc
  intro b hb
  match b with
  | ⟨0, _⟩ => exact absurd (Fin.ext rfl) hb

/-- Three [1024] pieces set end to end and viewed as one row, read at column 1024 + j: piece 1 at j. -/
theorem cat3_row_1 {α : Type} (x0 x1 x2 : S1024.Idx → α)
    (h : Shape.Concatenates ((three S1024 x0 x1 x2).map (·.1)) S3072 0) (h' : S3072.ShapeCasts S1x3072)
    (j : Fin 1024) (c : Fin 3072) (hc : 1024 + j.val = c.val) :
    shapeCast S1x3072 (concatenate S3072 0 (three S1024 x0 x1 x2) h) h' (ix2 (0 : Fin 1) c) = x1 (ix1 j) := by
  refine (shapeCast_apply _ h' (ix2 (0 : Fin 1) c) (ix1 c) ?_).trans ?_
  · rw [Shape.rowMajor_val_one, Shape.rowMajor_val_two]
    show c.val = 0 * 3072 + c.val
    omega
  refine concatenate_apply_piece (t := S3072) (0 : Fin 1) (three S1024 x0 x1 x2) h (ix1 c) 1 (show (1 : ℕ) < 3 by omega)
    S1024 x1 rfl rfl 1024 rfl (ix1 j) ?_ hc
  intro b hb
  match b with
  | ⟨0, _⟩ => exact absurd (Fin.ext rfl) hb

/-- Three [1024] pieces set end to end and viewed as one row, read at column 2048 + j: piece 2 at j. -/
theorem cat3_row_2 {α : Type} (x0 x1 x2 : S1024.Idx → α)
    (h : Shape.Concatenates ((three S1024 x0 x1 x2).map (·.1)) S3072 0) (h' : S3072.ShapeCasts S1x3072)
    (j : Fin 1024) (c : Fin 3072) (hc : 2048 + j.val = c.val) :
    shapeCast S1x3072 (concatenate S3072 0 (three S1024 x0 x1 x2) h) h' (ix2 (0 : Fin 1) c) = x2 (ix1 j) := by
  refine (shapeCast_apply _ h' (ix2 (0 : Fin 1) c) (ix1 c) ?_).trans ?_
  · rw [Shape.rowMajor_val_one, Shape.rowMajor_val_two]
    show c.val = 0 * 3072 + c.val
    omega
  refine concatenate_apply_piece (t := S3072) (0 : Fin 1) (three S1024 x0 x1 x2) h (ix1 c) 2 (show (2 : ℕ) < 3 by omega)
    S1024 x2 rfl rfl 2048 rfl (ix1 j) ?_ hc
  intro b hb
  match b with
  | ⟨0, _⟩ => exact absurd (Fin.ext rfl) hb

/-- The fused weight at row k and the queries' column j is the queries' weight at (j, k). -/
theorem wcatOf_q (wq wk wv : (⟨S1024x1024, .f32⟩ : BufTy).Contents (Elt Ideal)) (k j : Fin 1024) :
    wcatOf wq wk wv (ix2 k (qCol j)) = wq (ix2 j k) := by
  unfold wcatOf
  rw [truncf_apply]
  exact (cat3_cols_0 _ _ _ _ k j (qCol j) (Nat.zero_add _)).trans (BodyMath.transpose_ab_ba_apply wq _ k j)

theorem wcatOf_k (wq wk wv : (⟨S1024x1024, .f32⟩ : BufTy).Contents (Elt Ideal)) (k j : Fin 1024) :
    wcatOf wq wk wv (ix2 k (kCol j)) = wk (ix2 j k) := by
  unfold wcatOf
  rw [truncf_apply]
  exact (cat3_cols_1 _ _ _ _ k j (kCol j) rfl).trans (BodyMath.transpose_ab_ba_apply wk _ k j)

theorem wcatOf_v (wq wk wv : (⟨S1024x1024, .f32⟩ : BufTy).Contents (Elt Ideal)) (k j : Fin 1024) :
    wcatOf wq wk wv (ix2 k (vCol j)) = wv (ix2 j k) := by
  unfold wcatOf
  rw [truncf_apply]
  exact (cat3_cols_2 _ _ _ _ k j (vCol j) rfl).trans (BodyMath.transpose_ab_ba_apply wv _ k j)

/-- The fused bias row at the queries' column j is the queries' bias at j. -/
theorem bcatOf_q (bq bk bv : (⟨S1024, .f32⟩ : BufTy).Contents (Elt Ideal)) (j : Fin 1024) :
    bcatOf bq bk bv (ix2 (0 : Fin 1) (qCol j)) = bq (ix1 j) := by
  unfold bcatOf
  exact cat3_row_0 _ _ _ _ _ j (qCol j) (Nat.zero_add _)

theorem bcatOf_k (bq bk bv : (⟨S1024, .f32⟩ : BufTy).Contents (Elt Ideal)) (j : Fin 1024) :
    bcatOf bq bk bv (ix2 (0 : Fin 1) (kCol j)) = bk (ix1 j) := by
  unfold bcatOf
  exact cat3_row_1 _ _ _ _ _ j (kCol j) rfl

theorem bcatOf_v (bq bk bv : (⟨S1024, .f32⟩ : BufTy).Contents (Elt Ideal)) (j : Fin 1024) :
    bcatOf bq bk bv (ix2 (0 : Fin 1) (vCol j)) = bv (ix1 j) := by
  unfold bcatOf
  exact cat3_row_2 _ _ _ _ _ j (vCol j) rfl

/-- The transposed output weight at (j, e) is the output weight at (e, j). -/
theorem wotOf_apply (wo : (⟨S1024x1024, .f32⟩ : BufTy).Contents (Elt Ideal)) (j e : Fin 1024) :
    wotOf wo (ix2 j e) = wo (ix2 e j) := by
  unfold wotOf
  rw [truncf_apply]
  exact BodyMath.transpose_ab_ba_apply wo _ j e

/-- The output bias row at column e is the output bias at e. -/
theorem bo2Of_apply (bo : (⟨S1024, .f32⟩ : BufTy).Contents (Elt Ideal)) (e : Fin 1024) :
    bo2Of bo (ix2 (0 : Fin 1) e) = bo (ix1 e) := by
  unfold bo2Of
  refine shapeCast_apply bo _ (ix2 (0 : Fin 1) e) (ix1 e) ?_
  rw [Shape.rowMajor_val_one, Shape.rowMajor_val_two]
  show e.val = 0 * 1024 + e.val
  omega

/-- The result at (n, s, e) is the result matrix at row n · 2048 + s, column e. -/
theorem resOf_apply (out2d : (⟨S8192x1024, .f32⟩ : BufTy).Contents (Elt Ideal)) (n : Fin 4) (s : Fin 2048) (e : Fin 1024) :
    resOf out2d (ix3 n s e) = out2d (ix2 (rowOf n s) e) := by
  unfold resOf
  refine shapeCast_apply out2d _ (ix3 n s e) (ix2 (rowOf n s) e) ?_
  rw [Shape.rowMajor_val_three, Shape.rowMajor_val_two]
  show (rowOf n s).val * 1024 + e.val = (n.val * 2048 + s.val) * 1024 + e.val
  rfl

end Cert.KernelIdeal.Arrays

end
-- ==== Proof.Boundaries.lean ====
/-
  What the boundaries' contents ARE, at the ideal values: each layout stretch's results as the layout operations of
  the launch contents, each region's output array as its closed form, down to the program's result as the
  specification's function of the nine argument arrays.
-/
import proofs.«122077_j62234076119080_2_alg».proof.Proof.Frames
import proofs.«122077_j62234076119080_2_alg».proof.Proof.ProjValue
import proofs.«122077_j62234076119080_2_alg».proof.Proof.AttnValue
import proofs.«122077_j62234076119080_2_alg».proof.Proof.Compose
import proofs.«122077_j62234076119080_2_alg».proof.Proof.Layout
import Idealize.ShloMosaic.Lib.StableHlo.Run

set_option maxRecDepth 16384

noncomputable section

namespace Cert.KernelIdeal.Run

open Idealize.ShloMosaic Idealize.ShloMosaic.TcCoe Idealize.ShloMosaic.ValueIdx Idealize.ShloMosaic.StableHlo
open Idealize.SL Idealize.SL.Sem
open Cert.KernelIdeal Cert.KernelIdeal.Gen Cert.KernelIdeal.Arrays

variable (m : (ℓ : Loc nD τ sig) → Buf (Elt Ideal) ℓ)

/-- A concatenation of three operands, each read at its own buffer. -/
theorem nary3_result {Val : EltTy → Type} {x a b y : Ref sig .tc}
    (f : ((k : Fin 3) → ((![x, a, b] : Fin 3 → Ref sig .tc) k).ty.Contents Val) → y.ty.Contents Val) (hxs hy)
    (W : Valuation τ sig Val) :
    (StableHlo.nary (τ := τ) ![x, a, b] y f hxs hy).result W (Proc.devRef .tc y)
      = f (Fin.cons (W (Proc.devRef .tc x)) (Fin.cons (W (Proc.devRef .tc a)) (Fin.cons (W (Proc.devRef .tc b)) (fun i => i.elim0)))) := by
  rw [StableHlo.nary_result]; congr 1; funext k; fin_cases k <;> rfl

/-- The results of a stretch of layout operations, each rewritten to its operation's value of the contents before. -/
macro "layout_results" : tactic =>
  `(tactic| (simp only [after_cons, after_nil]
             repeat (first
               | rw [unary_result] | rw [reshape_result] | rw [nary3_result]
               | (rw [unary_result_ne]; rotate_left; decide)
               | (rw [reshape_result_ne]; rotate_left; decide)
               | (rw [nary_result_ne]; rotate_left; decide))))

/-! ## The first layout stretch: the activations flattened, the three weights transposed and laid side by side, the
    three biases end to end -/

theorem B1_v0 (c : Dev nD) : B1 m c main_v0 = x2dOf (m ((c : Thread nD τ).loc main_arg0)) := by
  show StableHlo.after hostOps0 (C0 m c) (Proc.devRef .tc main_v0) = _
  layout_results
  rfl

theorem B1_v5 (c : Dev nD) : B1 m c main_v5
    = wcatOf (m ((c : Thread nD τ).loc main_arg1)) (m ((c : Thread nD τ).loc main_arg3)) (m ((c : Thread nD τ).loc main_arg5)) := by
  show StableHlo.after hostOps0 (C0 m c) (Proc.devRef .tc main_v5) = _
  layout_results
  rfl

theorem B1_v7 (c : Dev nD) : B1 m c main_v7
    = bcatOf (m ((c : Thread nD τ).loc main_arg2)) (m ((c : Thread nD τ).loc main_arg4)) (m ((c : Thread nD τ).loc main_arg6)) := by
  show StableHlo.after hostOps0 (C0 m c) (Proc.devRef .tc main_v7) = _
  layout_results
  rfl

/-! ## The second layout stretch: the output weight transposed, the output bias as a row -/

/-- The attention region and the first projection leave every argument's buffer alone. -/
theorem C3_arg7 (c : Dev nD) : C3 m c (Proc.devRef .tc main_arg7) = m ((c : Thread nD τ).loc main_arg7) :=
  (B3_of_ne m c main_arg7 (by decide)).trans <| (C2_of_ne m c main_arg7 (by decide)).trans <|
    (StableHlo.after_of_writes_sub hostOps0 _ hostOps0_writes (by decide)).trans rfl
theorem C3_arg8 (c : Dev nD) : C3 m c (Proc.devRef .tc main_arg8) = m ((c : Thread nD τ).loc main_arg8) :=
  (B3_of_ne m c main_arg8 (by decide)).trans <| (C2_of_ne m c main_arg8 (by decide)).trans <|
    (StableHlo.after_of_writes_sub hostOps0 _ hostOps0_writes (by decide)).trans rfl

theorem B4_v11 (c : Dev nD) : B4 m c main_v11 = wotOf (m ((c : Thread nD τ).loc main_arg7)) := by
  show StableHlo.after hostOps2 (C3 m c) (Proc.devRef .tc main_v11) = _
  layout_results
  rw [C3_arg7]
  rfl

theorem B4_v12 (c : Dev nD) : B4 m c main_v12 = bo2Of (m ((c : Thread nD τ).loc main_arg8)) := by
  show StableHlo.after hostOps2 (C3 m c) (Proc.devRef .tc main_v12) = _
  layout_results
  rw [C3_arg8]
  rfl

/-- The second stretch leaves the merged heads' array as the attention region left it. -/
theorem B4_v9 (c : Dev nD) : B4 m c main_v9 = (dat1 (B2 m) c).arrAt 3 cfg1.N :=
  (StableHlo.after_of_writes_sub hostOps2 _ hostOps2_writes (by decide)).trans (B3_v9 m c)

/-! ## The last layout stretch: the result given its batch axis back -/

theorem C6_v14 (c : Dev nD) : C6 m c (Proc.devRef .tc main_v14) = resOf (B5 m c main_v13) := by
  show StableHlo.after hostOps3 (C5 m c) (Proc.devRef .tc main_v14) = _
  layout_results
  rfl

/-! ## The regions' output arrays -/

theorem B2_v8 (c : Dev nD) : B2 m c main_v8 = lin2 (B1 m c main_v0) (B1 m c main_v5) (B1 m c main_v7) :=
  (C2_arr m c 3).trans (qkv_final (B1 m) c)

theorem B5_v13 (c : Dev nD) : B5 m c main_v13 = lin2 (B4 m c main_v9) (B4 m c main_v11) (B4 m c main_v12) :=
  (C5_arr m c 3).trans (out_final (B4 m) c)

/-! ## The program's result -/

/-- The result's buffer ends holding the attention layer of the nine argument arrays: the flattened activations times
    the fused weights plus the fused biases; the heads' softmax-weighted values, pair of heads by pair of heads; the
    output projection; the batch axis back. -/
theorem result_is_spec (c : Dev nD) :
    C6 m c (Proc.devRef .tc main_v14)
      = Cert.MHA.result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  refine compose (m ((c : Thread nD τ).loc main_arg0)) (m ((c : Thread nD τ).loc main_arg1)) (m ((c : Thread nD τ).loc main_arg3))
    (m ((c : Thread nD τ).loc main_arg5)) (m ((c : Thread nD τ).loc main_arg7)) (m ((c : Thread nD τ).loc main_arg2))
    (m ((c : Thread nD τ).loc main_arg4)) (m ((c : Thread nD τ).loc main_arg6)) (m ((c : Thread nD τ).loc main_arg8))
    (B1 m c main_v0) (B1 m c main_v5) (B1 m c main_v7) (B2 m c main_v8) (B4 m c main_v9) (B4 m c main_v11) (B4 m c main_v12)
    (B5 m c main_v13) (C6 m c (Proc.devRef .tc main_v14)) ?_ ?_ ?_ ?_ ?_ ?_ ?_ (B2_v8 m c) ?_ ?_ ?_ (B5_v13 m c) ?_
  · intro n s d; rw [B1_v0]; exact x2dOf_apply _ n s d
  · intro k j; rw [B1_v5]; exact wcatOf_q _ _ _ k j
  · intro k j; rw [B1_v5]; exact wcatOf_k _ _ _ k j
  · intro k j; rw [B1_v5]; exact wcatOf_v _ _ _ k j
  · intro j; rw [B1_v7]; exact bcatOf_q _ _ _ j
  · intro j; rw [B1_v7]; exact bcatOf_k _ _ _ j
  · intro j; rw [B1_v7]; exact bcatOf_v _ _ _ j
  · intro n s j; rw [B4_v9]; exact attn_final_apply (B2 m) c n s j
  · intro j e; rw [B4_v11]; exact wotOf_apply _ j e
  · intro e; rw [B4_v12]; exact bo2Of_apply _ e
  · intro n s e; rw [C6_v14]; exact resOf_apply _ n s e

end Cert.KernelIdeal.Run

end
-- ==== Proof.RefMath.lean ====
/-
  The plain jnp program for the attention layer, read operation by operation at the ideal values, is the function
  Cert.MHA.result of its nine arguments.

  The program computes three linear layers x · wᵀ + b, views each [4, 2048, 1024] result as [4, 2048, 16, 64] (column
  64 h + d becomes (h, d)) and swaps the middle axes, so that entry (n, h, s, d) is the linear layer at
  (n, s, 64 h + d). The scores are the products of the query and key views over d, times 1/8. The softmax is spelt out:
  the row's largest entry (a fold of max from -∞, then a further max against -∞, which changes nothing), the
  exponentials of the shifted scores, their row sum (from 0), the quotient. The weighted sum over the keys of the value
  view follows, the middle axes are swapped back and (h, d) becomes column 64 h + d again; the last linear layer is
  applied to that.
-/
import proofs.«122077_j62234076119080_2_alg».proof.Proof.Gen.ReferenceIdeal.Read
import proofs.«122077_j62234076119080_2_alg».proof.Proof.Spec
import proofs.«122077_j62234076119080_2_alg».proof.Proof.LibRowSoftmax

noncomputable section

namespace Cert.ReferenceIdeal.RefMath

open Cert.ReferenceIdeal Cert.ReferenceIdeal.Gen Cert.ReferenceIdeal.Read Idealize.ShloMosaic Idealize.ShloMosaic.ValueIdx
open Cert.MHA Cert.RowLsm Cert.RowSoftmax

/-! ## The linear layers -/

/-- A linear layer of the program at (n, s, e): the contraction over the model width plus the bias entry. -/
theorem lin_apply (x : Act) (w : Mat) (b : Bias) (n : Fin 4) (s : Fin 2048) (e : Fin 1024) :
    val_main_v3 (F := Ideal) x w b (ix3 n s e) = proj x w b n s e := by
  rw [val_main_v3_apply, val_main_v0_apply, val_main_v2_apply, val_main_v1_apply]
  unfold proj
  show (∑ k : Fin 1024, x (lidx_main_v0 (ix3 n s e) k) * w (ridx_main_v0 (ix3 n s e) k))
      + b (idx_main_v1 (idx_main_v2 (ix3 n s e))) = _
  have hb : idx_main_v1 (idx_main_v2 (ix3 n s e)) = ix1 e := funext fun a => by
    match a with
    | ⟨0, _⟩ => rfl
  rw [hb]
  refine congrArg (· + b (ix1 e)) (Finset.sum_congr rfl fun k _ => ?_)
  have hl : lidx_main_v0 (ix3 n s e) k = ix3 n s k := funext fun a => by
    match a with
    | ⟨0, _⟩ => rfl
    | ⟨1, _⟩ => rfl
    | ⟨2, _⟩ => rfl
  have hr : ridx_main_v0 (ix3 n s e) k = ix2 e k := funext fun a => by
    match a with
    | ⟨0, _⟩ => rfl
    | ⟨1, _⟩ => rfl
  rw [hl, hr]

/-- The three input layers and the output layer are the same composition of operations. -/
theorem v9_eq (x : Act) (w : Mat) (b : Bias) : val_main_v9 (F := Ideal) x w b = val_main_v3 (F := Ideal) x w b := rfl
theorem v15_eq (x : Act) (w : Mat) (b : Bias) : val_main_v15 (F := Ideal) x w b = val_main_v3 (F := Ideal) x w b := rfl

/-! ## The heads' views -/

/-- A [4, 2048, 1024] array viewed as [4, 2048, 16, 64] with the middle axes swapped: entry (n, h, s, d) is the
    linear layer at (n, s, 64 h + d). -/
theorem view_apply (x : Act) (w : Mat) (b : Bias) (n : Fin 4) (h : Fin 16) (s : Fin 2048) (d : Fin 64) :
    val_main_v5 (F := Ideal) x w b (ix4 n h s d) = proj x w b n s (col h d) := by
  rw [val_main_v5_apply, val_main_v4_apply]
  have hi : idx_main_v4 (idx_main_v5 (ix4 n h s d)) = ix3 n s (col h d) := funext fun a => Fin.ext (by
    have hn := n.isLt; have hs := s.isLt; have hh := h.isLt; have hd := d.isLt
    match a with
    | ⟨0, _⟩ =>
      show (((n.val * 2048 + s.val) * 16 + h.val) * 64 + d.val) / 2097152 = n.val
      omega
    | ⟨1, _⟩ =>
      show (((n.val * 2048 + s.val) * 16 + h.val) * 64 + d.val) / 1024 % 2048 = s.val
      omega
    | ⟨2, _⟩ =>
      show (((n.val * 2048 + s.val) * 16 + h.val) * 64 + d.val) % 1024 = h.val * 64 + d.val
      omega)
  rw [hi]
  exact lin_apply x w b n s (col h d)

theorem v11_eq (x : Act) (w : Mat) (b : Bias) : val_main_v11 (F := Ideal) x w b = val_main_v5 (F := Ideal) x w b := rfl
theorem v17_eq (x : Act) (w : Mat) (b : Bias) : val_main_v17 (F := Ideal) x w b = val_main_v5 (F := Ideal) x w b := rfl

/-! ## The scores -/

/-- Entry (n, h, q, k) of the scaled product of the query and key views. -/
theorem scores_apply (x : Act) (wq : Mat) (bq : Bias) (wk : Mat) (bk : Bias) (n : Fin 4) (h : Fin 16) (q k : Fin 2048) :
    val_main_v20 (F := Ideal) x wq bq wk bk (ix4 n h q k) = scores x wq bq wk bk n h (ix2 q k) := by
  rw [val_main_v20_apply, val_main_v18_apply, val_main_v19_apply, val_main_cst_apply]
  show (∑ d : Fin 64, val_main_v5 (F := Ideal) x wq bq (lidx_main_v18 (ix4 n h q k) d)
        * val_main_v11 (F := Ideal) x wk bk (ridx_main_v18 (ix4 n h q k) d)) * Ideal.ofBits .f32 0x3E000000#32
      = (∑ d : Fin 64, proj x wq bq n q (col h d) * proj x wk bk n k (col h d)) * Ideal.ofBits .f32 0x3E000000#32
  refine congrArg (· * Ideal.ofBits .f32 0x3E000000#32) (Finset.sum_congr rfl fun d _ => ?_)
  have hl : lidx_main_v18 (ix4 n h q k) d = ix4 n h q d := funext fun a => by
    match a with
    | ⟨0, _⟩ => rfl
    | ⟨1, _⟩ => rfl
    | ⟨2, _⟩ => rfl
    | ⟨3, _⟩ => rfl
  have hr : ridx_main_v18 (ix4 n h q k) d = ix4 n h k d := funext fun a => by
    match a with
    | ⟨0, _⟩ => rfl
    | ⟨1, _⟩ => rfl
    | ⟨2, _⟩ => rfl
    | ⟨3, _⟩ => rfl
  rw [hl, hr, v11_eq, view_apply, view_apply]

/-! ## The softmax -/

/-- A reduced index (n, h, q) with the key coordinate k put back is (n, h, q, k). -/
theorem lift_row (hr : S4x16x2048x2048.Reduces [3] S4x16x2048) (n : Fin 4) (h : Fin 16) (q : Fin 2048)
    (k : Fin (S4x16x2048x2048.size 3)) : hr.lift (ix3 n h q) k = ix4 n h q (⟨k.val, k.isLt⟩ : Fin 2048) := by
  funext c; apply Fin.ext
  fin_cases c <;> rfl

/-- The row's largest entry: the fold of max from -∞ over the keys; the further max against -∞ changes nothing. -/
theorem rowmax_apply (x : Act) (wq : Mat) (bq : Bias) (wk : Mat) (bk : Bias) (n : Fin 4) (h : Fin 16) (q : Fin 2048) :
    val_main_v23 (F := Ideal) x wq bq wk bk (ix3 n h q) = rowMax (scores x wq bq wk bk n h) q := by
  rw [val_main_v23_apply, val_main_v22_apply, val_main_cst_1_apply]
  show max (Ideal.ofBits .f32 0xFF800000#32) (val_main_v21 (F := Ideal) x wq bq wk bk (ix3 n h q)) = _
  rw [ofBits_neg_inf, max_bot_left]
  unfold val_main_v21
  have hr : S4x16x2048x2048.Reduces [3] S4x16x2048 := by decide
  refine (Host.reduce_eq_fold_single (α := Ideal .f32) (s := S4x16x2048x2048) (t := S4x16x2048) (a := (3 : Fin 4)) (u := S_)
    (FloatOps.maximumf (F := Ideal) (φ := .f32)) (val_main_v20 (F := Ideal) x wq bq wk bk)
    (val_main_cst_0 (F := Ideal)) reducesTo_S4x16x2048x2048_S4x16x2048_d3 hr h_S_ (ix3 n h q)).trans ?_
  show Finset.fold max (Ideal.ofBits .f32 0xFF800000#32)
      (val_main_v20 (F := Ideal) x wq bq wk bk ∘ hr.lift (ix3 n h q)) (Finset.univ : Finset (Fin 2048))
    = Finset.fold max ⊥ (fun k => scores x wq bq wk bk n h (ix2 q k)) (Finset.univ : Finset (Fin 2048))
  rw [ofBits_neg_inf]
  refine congrArg (fun f => Finset.fold max ⊥ f (Finset.univ : Finset (Fin 2048))) (funext fun k => ?_)
  show val_main_v20 (F := Ideal) x wq bq wk bk (hr.lift (ix3 n h q) k) = _
  rw [lift_row hr n h q k]
  exact scores_apply x wq bq wk bk n h q _

/-- The exponential of a score shifted by its row's largest entry. -/
theorem exp_apply (x : Act) (wq : Mat) (bq : Bias) (wk : Mat) (bk : Bias) (n : Fin 4) (h : Fin 16) (q k : Fin 2048) :
    val_main_v27 (F := Ideal) x wq bq wk bk (ix4 n h q k)
      = Ideal.exp (scores x wq bq wk bk n h (ix2 q k) - rowMax (scores x wq bq wk bk n h) q) := by
  rw [val_main_v27_apply, val_main_v26_apply, val_main_v25_apply, val_main_v24_apply]
  have hi : idx_main_v24 (idx_main_v25 (ix4 n h q k)) = ix3 n h q := funext fun a => by
    match a with
    | ⟨0, _⟩ => rfl
    | ⟨1, _⟩ => rfl
    | ⟨2, _⟩ => rfl
  rw [hi, rowmax_apply, scores_apply]
  rfl

/-- The quotient by the row sum (taken from 0) of the exponentials: the shifted softmax of the row of scores. -/
theorem softmax_apply (x : Act) (wq : Mat) (bq : Bias) (wk : Mat) (bk : Bias) (n : Fin 4) (h : Fin 16) (q k : Fin 2048) :
    val_main_v31 (F := Ideal) x wq bq wk bk (ix4 n h q k) = sm (scores x wq bq wk bk n h) q k := by
  rw [val_main_v31_apply, val_main_v30_apply, val_main_v29_apply]
  have hi : idx_main_v29 (idx_main_v30 (ix4 n h q k)) = ix3 n h q := funext fun a => by
    match a with
    | ⟨0, _⟩ => rfl
    | ⟨1, _⟩ => rfl
    | ⟨2, _⟩ => rfl
  rw [hi, val_main_v28_apply, val_main_cst_2_apply, exp_apply x wq bq wk bk n h q k]
  show Ideal.div _ (Ideal.ofBits .f32 0x00000000#32
      + ∑ k' : Fin 2048, val_main_v27 (F := Ideal) x wq bq wk bk (idx_main_v28 (ix3 n h q) k')) = _
  rw [Ideal.ofBits_zero_f32, zero_add]
  unfold sm
  refine congrArg (Ideal.div _) (Finset.sum_congr rfl fun k' _ => ?_)
  have hk : idx_main_v28 (ix3 n h q) k' = ix4 n h q k' := funext fun a => by
    match a with
    | ⟨0, _⟩ => rfl
    | ⟨1, _⟩ => rfl
    | ⟨2, _⟩ => rfl
    | ⟨3, _⟩ => rfl
  rw [hk, exp_apply]

/-! ## The heads' outputs, side by side -/

/-- Entry (n, h, q, d) of the softmax-weighted sum of the value view. -/
theorem head_apply (x : Act) (wq : Mat) (bq : Bias) (wk : Mat) (bk : Bias) (wv : Mat) (bv : Bias)
    (n : Fin 4) (h : Fin 16) (q : Fin 2048) (d : Fin 64) :
    val_main_v32 (F := Ideal) x wq bq wk bk wv bv (ix4 n h q d) = head x wq bq wk bk wv bv n h q d := by
  rw [val_main_v32_apply]
  unfold head
  refine Finset.sum_congr rfl fun k _ => ?_
  have hl : lidx_main_v32 (ix4 n h q d) k = ix4 n h q k := funext fun a => by
    match a with
    | ⟨0, _⟩ => rfl
    | ⟨1, _⟩ => rfl
    | ⟨2, _⟩ => rfl
    | ⟨3, _⟩ => rfl
  have hr : ridx_main_v32 (ix4 n h q d) k = ix4 n h k d := funext fun a => by
    match a with
    | ⟨0, _⟩ => rfl
    | ⟨1, _⟩ => rfl
    | ⟨2, _⟩ => rfl
    | ⟨3, _⟩ => rfl
  rw [hl, hr, softmax_apply, v17_eq, view_apply]

/-- The middle axes swapped back and (h, d) read as column 64 h + d: column j comes from head j / 64, entry j % 64. -/
theorem merged_apply (x : Act) (wq : Mat) (bq : Bias) (wk : Mat) (bk : Bias) (wv : Mat) (bv : Bias)
    (n : Fin 4) (s : Fin 2048) (j : Fin 1024) :
    val_main_v34 (F := Ideal) x wq bq wk bk wv bv (ix3 n s j) = merged x wq bq wk bk wv bv n s j := by
  rw [val_main_v34_apply, val_main_v33_apply]
  have hi : idx_main_v33 (idx_main_v34 (ix3 n s j)) = ix4 n (headOf j) s (entryOf j) := funext fun a => Fin.ext (by
    have hn := n.isLt; have hs := s.isLt; have hj := j.isLt
    match a with
    | ⟨0, _⟩ =>
      show ((n.val * 2048 + s.val) * 1024 + j.val) / 2097152 = n.val
      omega
    | ⟨1, _⟩ =>
      show ((n.val * 2048 + s.val) * 1024 + j.val) / 64 % 16 = j.val / 64
      omega
    | ⟨2, _⟩ =>
      show ((n.val * 2048 + s.val) * 1024 + j.val) / 1024 % 2048 = s.val
      omega
    | ⟨3, _⟩ =>
      show ((n.val * 2048 + s.val) * 1024 + j.val) % 64 = j.val % 64
      omega)
  rw [hi]
  exact head_apply x wq bq wk bk wv bv n (headOf j) s (entryOf j)

/-! ## The output layer -/

/-- The output layer is the same composition of operations as an input layer, applied to the merged heads. -/
theorem v38_eq (x : Act) (wq : Mat) (bq : Bias) (wk : Mat) (bk : Bias) (wv : Mat) (bv : Bias) (wo : Mat) (bo : Bias) :
    val_main_v38 (F := Ideal) x wq bq wk bk wv bv wo bo
      = val_main_v3 (F := Ideal) (val_main_v34 (F := Ideal) x wq bq wk bk wv bv) wo bo := rfl

theorem result_apply (x : Act) (wq : Mat) (bq : Bias) (wk : Mat) (bk : Bias) (wv : Mat) (bv : Bias) (wo : Mat) (bo : Bias)
    (n : Fin 4) (s : Fin 2048) (e : Fin 1024) :
    val_main_v38 (F := Ideal) x wq bq wk bk wv bv wo bo (ix3 n s e) = result x wq bq wk bk wv bv wo bo (ix3 n s e) := by
  rw [v38_eq, lin_apply]
  show (∑ j : Fin 1024, val_main_v34 (F := Ideal) x wq bq wk bk wv bv (ix3 n s j) * wo (ix2 e j)) + bo (ix1 e)
    = (∑ j : Fin 1024, merged x wq bq wk bk wv bv n s j * wo (ix2 e j)) + bo (ix1 e)
  refine congrArg (· + bo (ix1 e)) (Finset.sum_congr rfl fun j _ => ?_)
  rw [merged_apply]

/-- THE REFERENCE PROGRAM IS THE SPECIFICATION: its last operation's value is Cert.MHA.result of the nine arguments. -/
theorem ref_is_result (x : (⟨S4x2048x1024, .f32⟩ : BufTy).Contents (Elt Ideal))
    (wq : (⟨S1024x1024, .f32⟩ : BufTy).Contents (Elt Ideal)) (bq : (⟨S1024, .f32⟩ : BufTy).Contents (Elt Ideal))
    (wk : (⟨S1024x1024, .f32⟩ : BufTy).Contents (Elt Ideal)) (bk : (⟨S1024, .f32⟩ : BufTy).Contents (Elt Ideal))
    (wv : (⟨S1024x1024, .f32⟩ : BufTy).Contents (Elt Ideal)) (bv : (⟨S1024, .f32⟩ : BufTy).Contents (Elt Ideal))
    (wo : (⟨S1024x1024, .f32⟩ : BufTy).Contents (Elt Ideal)) (bo : (⟨S1024, .f32⟩ : BufTy).Contents (Elt Ideal)) :
    Read.val_main_v38 (F := Ideal) x wq bq wk bk wv bv wo bo = Cert.MHA.result x wq bq wk bk wv bv wo bo := by
  funext i
  obtain ⟨n, s, e, rfl⟩ : ∃ (n : Fin 4) (s : Fin 2048) (e : Fin 1024), i = ix3 n s e := ⟨i 0, i 1, i 2, eq_ix3 i⟩
  exact result_apply x wq bq wk bk wv bv wo bo n s e

end Cert.ReferenceIdeal.RefMath

end
-- ==== Proof.lean ====
/-
  A multi-head self-attention layer computed by three kernels against its plain reference: the certificate's claims.

  The kernel side: the activations [4, 2048, 1024] are flattened to [8192, 1024]; ONE projection kernel computes queries,
  keys and values at once against the three weights transposed and laid side by side, [1024, 3072], in sixteen blocks of
  512 rows; an attention kernel works through the grid (batch entry, pair of heads, tile of 256 queries): per head it
  scales the query · key products by 1/8, normalises each row by the softmax shifted by the row maximum, and weights
  the values, all 2048 keys of the batch entry in one pass, writing the two heads of the pair side by side; a second
  projection kernel applies the output weight and bias; the batch axis is restored.
  The reference: three projections by einsum, heads split off by a reshape and a transpose, the scores by a batched
  product, jax's softmax, the weighted values, heads merged back, the output projection.

  At the ideal values (floats as extended reals, every change of float format the identity) both are ONE function of the
  nine argument arrays, `Cert.MHA.result`: the same products summed over the same index sets, merely grouped by blocks on
  the kernel side and by batch and head axes on the reference side — no law beyond re-indexing of finite sums is used, so
  the inputs' finiteness is never opened. The three frames (each program runs to the end, faults nowhere and leaves its
  arguments unchanged) come from the programs' runs; the idealization rewrote nothing, so `preserves` is trivial.
-/
import proofs.«122077_j62234076119080_2_alg».proof.Defs
import proofs.«122077_j62234076119080_2_alg».proof.Proof.Gen.Kernel
import proofs.«122077_j62234076119080_2_alg».proof.Proof.Gen.KernelIdeal
import proofs.«122077_j62234076119080_2_alg».proof.Proof.Gen.ReferenceIdeal
import proofs.«122077_j62234076119080_2_alg».proof.Proof.Gen.Pre_finite_inputs
import proofs.«122077_j62234076119080_2_alg».proof.Proof.Gen.ReferenceIdeal.Run
import proofs.«122077_j62234076119080_2_alg».proof.Proof.Gen.ReferenceIdeal.Read
import proofs.«122077_j62234076119080_2_alg».proof.Proof.BitsFrames
import proofs.«122077_j62234076119080_2_alg».proof.Proof.Frames
import proofs.«122077_j62234076119080_2_alg».proof.Proof.Boundaries
import proofs.«122077_j62234076119080_2_alg».proof.Proof.RefMath
import Idealize.ShloMosaic.Adequacy
import Idealize.ShloMosaic.Init

noncomputable section

namespace Cert.Proof

open Idealize.ShloMosaic Idealize.SL.Sem

/-- The kernel program as printed runs and leaves its arguments unchanged. -/
theorem frame_k : Cert.frame_Kernel (hKernel := Cert.Kernel.Gen.facts) (hPre_finite_inputs := Cert.Pre_finite_inputs.Gen.facts) :=
  fun m ρ _ => Cert.Kernel.Run.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Run.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- At the ideal values the kernel program's result array ends at the attention layer of its arguments (the run through
    the three regions, each output array in closed form) and the reference's at the same function of arguments that
    agree (its run, read one operation at a time). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.MHA.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Run.result_is_spec m c), (h c).2⟩) (Cert.KernelIdeal.Run.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v38_eq, Cert.ReferenceIdeal.RefMath.ref_is_result,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
